-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S512x512 : Shape := ⟨2, ![512, 512]⟩
abbrev S512x1 : Shape := ⟨2, ![512, 1]⟩
abbrev S512x4096 : Shape := ⟨2, ![512, 4096]⟩
abbrev S1024x512 : Shape := ⟨2, ![1024, 512]⟩
abbrev S512x1024 : Shape := ⟨2, ![512, 1024]⟩
abbrev S1x1024 : Shape := ⟨2, ![1, 1024]⟩
abbrev S512 : Shape := ⟨1, ![512]⟩
abbrev S_ : Shape := ⟨0, ![]⟩

abbrev nBuf : Space → Nat
  | .hbm => 14
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x512, .bf16⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S512x1, .i32⟩
  | .local _ .vmem, ⟨4, _⟩ => ⟨S512x1, .i32⟩
  | .local _ .vmem, ⟨5, _⟩ => ⟨S1x4096, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x4096, .f32⟩
  | .local _ .vmem, ⟨11, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult1 (i : grid0.Coords) : BitVec 32 :=
  let arg2 : BitVec 32 := BitVec.ofNat 32 (i 2).val
  let c1024_i32 : BitVec 32 := 1024#32
  let v11 : BitVec 32 := Scalar.muli arg2 c1024_i32
  v11
def k0_off1 (i : grid0.Coords) : Fin 2 → Nat :=
  let arg2 : BitVec 32 := BitVec.ofNat 32 (i 2).val
  let c1024_i32 : BitVec 32 := 1024#32
  let v11 : BitVec 32 := Scalar.muli arg2 c1024_i32
  let v12 : BitVec 32 := v11
  let v15 : Index := Scalar.indexCast v12
  let c0_6 : Index := 0#32
  ![v15.toNat, 0]
def k0_off2 (i : grid0.Coords) : Fin 2 → Nat :=
  let c0_8 : Index := 0#32
  let arg2 : BitVec 32 := BitVec.ofNat 32 (i 2).val
  let c1024_i32 : BitVec 32 := 1024#32
  let v11 : BitVec 32 := Scalar.muli arg2 c1024_i32
  let v12 : BitVec 32 := v11
  let v21 : Index := Scalar.indexCast v12
  ![0, v21.toNat]
def k0_off3 (i : grid0.Coords) : Fin 2 → Nat :=
  let c0_11 : Index := 0#32
  let arg2 : BitVec 32 := BitVec.ofNat 32 (i 2).val
  let c1024_i32 : BitVec 32 := 1024#32
  let v11 : BitVec 32 := Scalar.muli arg2 c1024_i32
  let v12 : BitVec 32 := v11
  let v32 : Index := Scalar.indexCast v12
  ![0, v32.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_mult2 (i : grid0.Coords) : BitVec 32 :=
  let arg2 : BitVec 32 := BitVec.ofNat 32 (i 2).val
  let c1024_i32 : BitVec 32 := 1024#32
  let v11 : BitVec 32 := Scalar.muli arg2 c1024_i32
  v11
def k0_off4 (i : grid0.Coords) : Fin 2 → Nat :=
  let c0 : Index := 0#32
  let arg2 : BitVec 32 := BitVec.ofNat 32 (i 2).val
  let c1024_i32 : BitVec 32 := 1024#32
  let v11 : BitVec 32 := Scalar.muli arg2 c1024_i32
  let v12 : BitVec 32 := v11
  let v13 : Index := Scalar.indexCast v12
  ![0, v13.toNat]
def k0_off5 (i : grid0.Coords) : Fin 2 → Nat :=
  let c0_5 : Index := 0#32
  let arg2 : BitVec 32 := BitVec.ofNat 32 (i 2).val
  let c1024_i32 : BitVec 32 := 1024#32
  let v11 : BitVec 32 := Scalar.muli arg2 c1024_i32
  let v12 : BitVec 32 := v11
  let v15 : Index := Scalar.indexCast v12
  ![0, v15.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  shapeCasts_S4096_S4096x1 : S4096.ShapeCasts S4096x1
  shapeCasts_S4096_S1x4096 : S4096.ShapeCasts S1x4096
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S1024x512 : 0 < S1024x512.numel
  shapeCasts_S1024x512_S1024x512 : S1024x512.ShapeCasts S1024x512
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  natLt_1_32 : 1 < 32
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  iota_S512x1024_d0_w32 : S512x1024.Iotas .tc 32 [0]
  iota_S512x1024_d1_w32 : S512x1024.Iotas .tc 32 [1]
  reducesTo_S4096x1_S_d0_1 : S4096x1.ReducesTo [0, 1] S_
  h_S_ : 0 < S_.numel
  dot_S512x512_S1024x512_S512x1024_1_1_0_0_n_n_wf : DotDims.WF S512x512 S1024x512 S512x1024 [1] [1] [0] [0] [] []
  hrank0 : 0 < grid0.rank
  k0_mult1_dvd : ∀ i : grid0.Coords, ∀ (k0_h2 : k0_cond2 i = 1#1), 1024 ∣ (k0_mult1 i).toNat
  k0_off1_inb : ∀ i : grid0.Coords, ∀ (k0_h2 : k0_cond2 i = 1#1), ∀ a, (k0_off1 i) a + S1024x512.size a ≤ S4096x512.size a
  k0_off2_inb : ∀ i : grid0.Coords, ∀ (k0_h2 : k0_cond2 i = 1#1), ∀ a, (k0_off2 i) a + S1x1024.size a ≤ S1x4096.size a
  k0_off3_inb : ∀ i : grid0.Coords, ∀ (k0_h2 : k0_cond2 i = 1#1), ∀ a, (k0_off3 i) a + S512x1024.size a ≤ S512x4096.size a
  k0_mult2_dvd : ∀ i : grid0.Coords, ∀ (k0_h3 : k0_cond3 i = 1#1), 1024 ∣ (k0_mult2 i).toNat
  k0_off4_inb : ∀ i : grid0.Coords, ∀ (k0_h3 : k0_cond3 i = 1#1), ∀ a, (k0_off4 i) a + S512x1024.size a ≤ S512x4096.size a
  k0_off5_inb : ∀ i : grid0.Coords, ∀ (k0_h3 : k0_cond3 i = 1#1), ∀ a, (k0_off5 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .i32 = 32 ∨ (Rect.block (s := S1x4096) S1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond3 i == 1#1) | 5 => fun i => !(k0_cond1 i == 1#1) && !(k0_cond3 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S512x4096 : Shape := ⟨2, ![512, 4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S512x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x1, .i32⟩
  | .hbm, ⟨8, _⟩ => ⟨S1x4096, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S4096x4096, .i1⟩
  | .hbm, ⟨19, _⟩ => ⟨S4096x4096, .i1⟩
  | .hbm, ⟨20, _⟩ => ⟨S4096x4096, .f32⟩
  | .hbm, ⟨21, _⟩ => ⟨S4096x4096, .i1⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.K.Launch.lean ====
/-
  The run of the kernel program from proof data: host lines, the pallas_call region, host lines.

  Two input windows of the region (the row block and the resident column operand) stage one and the same array, the
  embeddings cast down once. The core's holdings of that array are therefore SPLIT between the two windows, each
  reading it at half the share, and joined again when the region is left; the two output arrays are held whole, and are
  the only arrays the host lines after the region read.
-/
import proofs.«169875_j63625645523217_2_alg».proof.Proof.Gen.Kernel.Launch
import proofs.«169875_j63625645523217_2_alg».proof.Proof.Gen.Kernel.Points
import Idealize.ShloMosaic.Lib.Pipeline.Frame
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the three host lines before it (the two reshapes of
    the labels and the cast of the embeddings). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-! ## The arrays, window by window -/

section Split

variable (dats : (p : Fin 1) → (c : Dev nD) → Dat τ (Elt F) Unit ℕ (UR sig nD τ) ℕ (cfgs p) c)

/-- One window's array, as the proof data holds it, is the buffer behind it at the window's share. -/
theorem arr_pt (c : Dev nD) (w : Fin 6) (q : PosShare TreeShare) (hq : (dats 0 c).share w = q)
    (f : Buf (Elt F) ((cfg0.win w).arr.view.loc (c.tc : Thread nD τ))) :
    ((cfg0.win w).arr.view.loc (c.tc : Thread nD τ) ↦[(cfg0.win w).arr.view.set]{(dats 0 c).share w} f : sProp 𝕄)
      = (((c.tc : Thread nD τ).loc (Pipeline.arrRef spec0 w)) ↦{q} f) := by
  rw [(arr_whole0 w).set_eq_univ, hq]

/-- The windows' arrays at contents `G`, one by one: the two readers of the shared array at its two halves. -/
theorem arrays_eq6 (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare) (c : Dev nD)
    (G : (w : Fin 6) → Buf (Elt F) ((cfg0.win w).arr.view.loc (c.tc : Thread nD τ))) :
    ((dats 0 c).arrays G : sProp 𝕄)
      = iprop((((c.tc : Thread nD τ).loc main_v2) ↦{fullShare.left} G 0) ∗ (((c.tc : Thread nD τ).loc main_v2) ↦{fullShare.right} G 1)
          ∗ (((c.tc : Thread nD τ).loc main_v0) ↦{fullShare} G 2) ∗ (((c.tc : Thread nD τ).loc main_v1) ↦{fullShare} G 3)
          ∗ (((c.tc : Thread nD τ).loc main_v3_0) ↦{fullShare} G 4) ∗ (((c.tc : Thread nD τ).loc main_v3_1) ↦{fullShare} G 5)) := by
  unfold Dat.arrays
  rw [bigSep_W0]
  rw [arr_pt dats c 0 fullShare.left (by unfold Dat.share; exact (hq0 c)), arr_pt dats c 1 fullShare.right (by unfold Dat.share; exact (hq1 c)),
    arr_pt dats c 2 fullShare (by unfold Dat.share; exact (hq2 c)), arr_pt dats c 3 fullShare (by unfold Dat.share; exact (hq3 c)),
    arr_pt dats c 4 fullShare rfl, arr_pt dats c 5 fullShare rfl]

/-- The distinct buffers behind the six windows' arrays are five: the shared one, the two label slabs, the two outputs. -/
theorem arrBufs_eq (c : Dev nD) (Vf : (b : Ref sig .tc) → Buf (Elt F) ((c.tc : Thread nD τ).loc b)) :
    (Pipeline.arrBufs spec0 c Vf : sProp 𝕄)
      = iprop((((c.tc : Thread nD τ).loc main_v2) ↦{fullShare} Vf main_v2) ∗ (((c.tc : Thread nD τ).loc main_v0) ↦{fullShare} Vf main_v0)
          ∗ (((c.tc : Thread nD τ).loc main_v1) ↦{fullShare} Vf main_v1) ∗ (((c.tc : Thread nD τ).loc main_v3_0) ↦{fullShare} Vf main_v3_0)
          ∗ (((c.tc : Thread nD τ).loc main_v3_1) ↦{fullShare} Vf main_v3_1)) :=
  bigSep_eq_bigSepL_of_eq [main_v2, main_v0, main_v1, main_v3_0, main_v3_1] (by decide) (by decide) _

/-- The buffers behind the windows' arrays, each whole at the full share at the region-entry contents, make the proof
    data's arrays at entry: the array two windows read is split into its two halves. -/
theorem hsplit_of (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  rw [arrays_eq6 dats hq0 hq1 hq2 hq3 c]
  rw [arrBufs_eq]
  rw [show (dats 0 c).arrAt 0 0 = V m c main_v2 from hA c 0, show (dats 0 c).arrAt 1 0 = V m c main_v2 from hA c 1,
    show (dats 0 c).arrAt 2 0 = V m c main_v0 from hA c 2, show (dats 0 c).arrAt 3 0 = V m c main_v1 from hA c 3,
    show (dats 0 c).arrAt 4 0 = V m c main_v3_0 from hA c 4, show (dats 0 c).arrAt 5 0 = V m c main_v3_1 from hA c 5]
  iintro ⟨H2, H0, H1, H30, H31⟩
  icases (pointsTo_share (PosShare.mem_left_op_right fullShare)).1 $$ H2 with ⟨H2l, H2r⟩
  isplitl [H2l]; · iexact H2l
  isplitl [H2r]; · iexact H2r
  isplitl [H0]; · iexact H0
  isplitl [H1]; · iexact H1
  isplitl [H30]; · iexact H30
  iexact H31

end Split

/-! ## The run from proof data -/

section Run

variable (dats : (p : Fin 1) → (c : Dev nD) → Dat τ (Elt F) Unit ℕ (UR sig nD τ) ℕ (cfgs p) c)

/-- The two output windows alone: theirs are the only arrays the lines after the region read. -/
abbrev winOut : Fin 2 → Pipeline.WinSpec sig grid0.rank := fun | 0 => spec0 4 | 1 => spec0 5 | ⟨_ + 2, h⟩ => absurd h (Nat.not_lt.2 (Nat.le_add_left _ _))

theorem winOut_inj : Function.Injective (Pipeline.arrRef winOut) := by decide

/-- The three input arrays, which the lines after the region leave aside. -/
abbrev Hin : Finset (Ref sig .tc) := {main_v0, main_v1, main_v2}

/-- The output arrays when the region is left. -/
def AOut (c : Dev nD) : (w : Fin 2) → Buf (Elt F) ((winOut w).arr.view.loc (c.tc : Thread nD τ))
  | 0 => (dats 0 c).arrAt 4 cfg0.N
  | 1 => (dats 0 c).arrAt 5 cfg0.N
  | ⟨_ + 2, h⟩ => absurd h (Nat.not_lt.2 (Nat.le_add_left _ _))

/-- Core `c`'s buffer contents at the end: the host lines after the region, from the region's exit contents. -/
def VEnd (c : Dev nD) : Valuation τ sig (Elt F) :=
  StableHlo.after (List.flatten [hostOps1]) (Pipeline.withArrays winOut c (V0 m c) (AOut dats c))

/-- What the run ends in: every window's array as the write-backs leave it, every other unscoped buffer as the lines
    after the region leave it. -/
def RunPost (r : PUnit × MemSt nD τ sig (Elt F)) : Prop := ∀ c : Dev nD,
  (∀ w, r.2.mem ((spec0 w).arr.view.loc (c.tc : Thread nD τ)) = (dats 0 c).arrAt w cfg0.N)
  ∧ ∀ b ∈ Pipeline.restRefs sig spec0, r.2.mem ((c.tc : Thread nD τ).loc b) = VEnd m dats c (Proc.devRef .tc b)

set_option backward.isDefEq.respectTransparency.types false in
theorem run_of
    (hbody : ∀ c, BodyObligationLoose (dats 0 c) (defs₀ (F := F)) Variants.none () Set.univ)
    (howed : ∀ c t, (dats 0 c).owed t = 0)
    (hsplit : ∀ c, (Pipeline.arrBufs spec0 c (V m c) : sProp 𝕄) ⊢ (dats 0 c).arrays ((dats 0 c).arrAt · 0))
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄))
    (htail : ∀ (c : Dev nD) (Q' : PUnit → sProp 𝕄),
      iprop((iprop((dats 0 c).arrays ((dats 0 c).arrAt · cfg0.N)
              ∗ Pipeline.unscopedRestP Pipeline.Prefetch.none spec0 c (fun b => VEnd m dats c (Proc.devRef .tc b))) -∗ Q' ⟨⟩)
          ∗ boundary (c.tc : Thread nD τ) ∗ (dats 0 c).arrays ((dats 0 c).arrAt · cfg0.N)
          ∗ Pipeline.unscopedRestP Pipeline.Prefetch.none spec0 c (V m c))
        ⊢ wp frame (wpE (defs (F := F)) (Variants.lift Variants.none) (c.tc : Thread nD τ) none) Set.univ (Pipeline.chain [StableHlo.seq hostOps1]) Q') :
    θ_run (defs (F := F)) (onTc (τ := τ) (main (F := F))) (s₀ m ρ) (RunPost m dats) := by
  classical
  exact Pipeline.θ_run_region_noSem_pf_tail (fun p => (cfgs p).toPCfg) (fun p => (cfgs p).toPCfg_adm) dats () cellOf_inj (0 : Fin 1)
    winFacts₀0 (Pipeline.PreFacts.none _) emb₁ defs₀ Variants.none m ρ main (fun _ => Pipeline.chain [StableHlo.seq hostOps1])
    hbody block_pos0 arr_whole0 stage_whole0 howed
    (u₀ := initOf (Pipeline.cells cfgs cellOf_inj) (Pipeline.launchToks cfgs cellOf_inj))
    (hu₀ := .rfl)
    (V := V m) (hmain := hmain m Variants.none)
    (hsplit := hsplit) (hpf := fun _ k => k.elim0)
    (X := fun _ => iprop(emp)) (Y := fun _ => iprop(emp))
    (Z := fun c => Pipeline.unscopedRestP Pipeline.Prefetch.none spec0 c (V m c))
    (Z' := fun c => Pipeline.unscopedRestP Pipeline.Prefetch.none spec0 c (fun b => VEnd m dats c (Proc.devRef .tc b)))
    (hX := fun c => by iintro H; isplitr; · iempintro
                       iexact H)
    (hin := fun c => (show _ ⊢ (Pipeline.scopedRest spec0 c : sProp 𝕄) by iintro ⟨-, -, H⟩; iexact H).trans (hin c))
    (hout := fun c => (hout c).trans (by iintro H; isplitr; · iempintro
                                         iexact H))
    (htail := htail)
    (QY := fun c s => ∀ b ∈ Pipeline.restRefsP sig Pipeline.Prefetch.none spec0, s.mem ((c.tc : Thread nD τ).loc b) = VEnd m dats c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => VEnd m dats c (Proc.devRef .tc b)) s')
      isplitl [HU] <;> iassumption)
    (hQ := fun s h c => ⟨(h c).1, fun b hb => (h c).2.2 b (by
      unfold Pipeline.restRefsP; exact Finset.mem_sdiff.mpr ⟨hb, fun hk => by
        obtain ⟨k, -, -⟩ := Finset.mem_image.mp hk; exact k.elim0⟩)⟩)

end Run

/-! ## The lines after the region -/

section Tail

variable (dats : (p : Fin 1) → (c : Dev nD) → Dat τ (Elt F) Unit ℕ (UR sig nD τ) ℕ (cfgs p) c)

/-- The buffers that bypass the six windows are those that bypass the two output windows, less the three input arrays. -/
theorem restRefsP_eq : Pipeline.restRefsP sig Pipeline.Prefetch.none spec0 = Pipeline.restRefsP sig Pipeline.Prefetch.none winOut \ Hin := by
  decide

/-- The bypassing buffers at contents `Vf`, as the set the lines after the region run within. -/
theorem unscopedRestP_eq (c : Dev nD) (Vf : (b : Ref sig .tc) → Buf (Elt F) ((c.tc : Thread nD τ).loc b)) :
    (Pipeline.unscopedRestP Pipeline.Prefetch.none spec0 c Vf : sProp 𝕄)
      = bigSep (Pipeline.restRefsP sig Pipeline.Prefetch.none winOut \ Hin) fun b => (((c.tc : Thread nD τ).loc b) ↦{fullShare} Vf b) := by
  rw [← restRefsP_eq]; rfl

/-- The two output arrays at contents `A`, one by one. -/
theorem arrPts_out (c : Dev nD) (A : (w : Fin 2) → Buf (Elt F) ((winOut w).arr.view.loc (c.tc : Thread nD τ))) :
    (Pipeline.arrPts winOut c A : sProp 𝕄)
      = iprop((((c.tc : Thread nD τ).loc main_v3_0) ↦{fullShare} A 0) ∗ (((c.tc : Thread nD τ).loc main_v3_1) ↦{fullShare} A 1)) :=
  bigSep_univ_eq_bigSepL [(0 : Fin 2), (1 : Fin 2)] (by decide) (by decide) _

/-- The lines after the region touch the two output arrays and the bypassing buffers only, and none of the inputs' arrays. -/
theorem tail_sub : ∀ ops ∈ ([hostOps1] : List (List (HloOp τ sig (Elt F)))), ∀ op ∈ ops,
    op.bufs ⊆ Pipeline.tailRefsBut sig Pipeline.Prefetch.none winOut Hin := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  intro b hb
  simp only [Finset.mem_insert, Finset.mem_singleton] at hb
  rcases hop with rfl | rfl | rfl | rfl | rfl | rfl | rfl <;> rcases hb with rfl | rfl | rfl <;>
    first
    | (rw [StableHlo.nullary_bufs]; simp only [Finset.mem_singleton]; exact StableHlo.devRef_ne_of_ne (by decide))
    | (rw [StableHlo.binary_bufs]; simp only [Finset.mem_insert, Finset.mem_singleton, not_or]
       exact ⟨StableHlo.devRef_ne_of_ne (by decide), StableHlo.devRef_ne_of_ne (by decide), StableHlo.devRef_ne_of_ne (by decide)⟩)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- They write neither output array (each writes its own result buffer only). -/
theorem tail_keeps : ∀ ops ∈ ([hostOps1] : List (List (HloOp τ sig (Elt F)))), ∀ op ∈ ops,
    ∀ w, Proc.devRef .tc (Pipeline.arrRef winOut w) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl | rfl | rfl
  all_goals intro w; fin_cases w <;> simp only [StableHlo.nullary_writes, StableHlo.binary_writes, Finset.mem_singleton] <;> exact StableHlo.devRef_ne_of_ne (by decide)

set_option backward.isDefEq.respectTransparency.types false in
/-- From the region's exit the lines after it run: the inputs' arrays are set aside, the two output arrays and the
    bypassing buffers are what the lines run within, and everything is handed back with the bypassing buffers at the
    lines' results. -/
theorem htail_of (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (c : Dev nD) (Q' : PUnit → sProp 𝕄) :
    iprop((iprop((dats 0 c).arrays ((dats 0 c).arrAt · cfg0.N)
            ∗ Pipeline.unscopedRestP Pipeline.Prefetch.none spec0 c (fun b => VEnd m dats c (Proc.devRef .tc b))) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (defs (F := F)) (Variants.lift Variants.none) (c.tc : Thread nD τ) none) Set.univ (Pipeline.chain [StableHlo.seq hostOps1]) Q' := by
  have hT := Pipeline.tail_seqs_but (Ix := Unit) (Name := ℕ) (U := UR sig nD τ) (Lvl := ℕ) (pcfgs (F := F)) defs₀ Variants.none Pipeline.Prefetch.none winOut winOut_inj Hin c (V0 m c) (AOut dats c)
    [hostOps1] tail_sub tail_fresh tail_keeps Q'
  rw [arrPts_out] at hT
  rw [arrays_eq6 dats hq0 hq1 hq2 hq3 c, unscopedRestP_eq, unscopedRestP_eq]
  iintro ⟨Hk, Hb, ⟨H2l, H2r, H0, H1, H30, H31⟩, HZ⟩
  iapply hT
  isplitr [Hb H30 H31 HZ]
  · iintro ⟨⟨H30, H31⟩, HZ⟩
    iapply Hk
    isplitr [HZ]
    · isplitl [H2l]; · iexact H2l
      isplitl [H2r]; · iexact H2r
      isplitl [H0]; · iexact H0
      isplitl [H1]; · iexact H1
      isplitl [H30]; · iexact H30
      iexact H31
    · iexact HZ
  isplitl [Hb]; · iexact Hb
  isplitr [HZ]
  · isplitl [H30]; · iexact H30
    iexact H31
  · iexact HZ

end Tail

end Cert.Kernel.Hand

end
-- ==== Proof.K.Conds.lean ====
/- The body's three branch conditions, its window offsets and the output windows' idle / write-back
   tables, each in closed form over the 64 grid points t = 8 i0 + 4 i1 + i2 (row block i0, phase i1,
   column tile i2) and decided over the grid. -/
import proofs.«169875_j63625645523217_2_alg».proof.Proof.Gen.Kernel.Launch
import proofs.«169875_j63625645523217_2_alg».proof.Proof.Gen.Kernel.Skeleton
import proofs.«169875_j63625645523217_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The reset branch is taken at phase 0, tile 0: the points ≡ 0 (mod 8). -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulation branch is taken at phase 0: the points with t % 8 < 4. -/
theorem hcond2 : ∀ t : Fin cfg0.N, k0_cond2 (grid0.coords t) = 1#1 ↔ t.val % 8 < 4 :=
  (by decide +kernel : ∀ t : Fin grid0.N, k0_cond2 (grid0.coords t) = 1#1 ↔ t.val % 8 < 4)

/-- The loss branch is taken at phase 1: the points with 4 ≤ t % 8. -/
theorem hcond3 : ∀ t : Fin cfg0.N, k0_cond3 (grid0.coords t) = 1#1 ↔ 4 ≤ t.val % 8 :=
  (by decide +kernel : ∀ t : Fin grid0.N, k0_cond3 (grid0.coords t) = 1#1 ↔ 4 ≤ t.val % 8)

/-! ## The coordinates of a point -/

/-- The row block of point t. -/
theorem coord0 : ∀ t : Fin cfg0.N, ((grid0.coords t) 0).val = t.val / 8 :=
  (by decide +kernel : ∀ t : Fin grid0.N, ((grid0.coords t) 0).val = t.val / 8)
/-- The phase of point t. -/
theorem coord1 : ∀ t : Fin cfg0.N, ((grid0.coords t) 1).val = t.val / 4 % 2 :=
  (by decide +kernel : ∀ t : Fin grid0.N, ((grid0.coords t) 1).val = t.val / 4 % 2)
/-- The column tile of point t. -/
theorem coord2 : ∀ t : Fin cfg0.N, ((grid0.coords t) 2).val = t.val % 4 :=
  (by decide +kernel : ∀ t : Fin grid0.N, ((grid0.coords t) 2).val = t.val % 4)

/-! ## The offsets (they read the column tile only) -/

theorem hoff1 : ∀ t : Fin cfg0.N, k0_off1 (grid0.coords t) = ![1024 * (t.val % 4), 0] :=
  (by decide +kernel : ∀ t : Fin grid0.N, k0_off1 (grid0.coords t) = ![1024 * (t.val % 4), 0])
theorem hoff2 : ∀ t : Fin cfg0.N, k0_off2 (grid0.coords t) = ![0, 1024 * (t.val % 4)] :=
  (by decide +kernel : ∀ t : Fin grid0.N, k0_off2 (grid0.coords t) = ![0, 1024 * (t.val % 4)])
theorem hoff3 : ∀ t : Fin cfg0.N, k0_off3 (grid0.coords t) = ![0, 1024 * (t.val % 4)] :=
  (by decide +kernel : ∀ t : Fin grid0.N, k0_off3 (grid0.coords t) = ![0, 1024 * (t.val % 4)])
theorem hoff4 : ∀ t : Fin cfg0.N, k0_off4 (grid0.coords t) = ![0, 1024 * (t.val % 4)] :=
  (by decide +kernel : ∀ t : Fin grid0.N, k0_off4 (grid0.coords t) = ![0, 1024 * (t.val % 4)])
theorem hoff5 : ∀ t : Fin cfg0.N, k0_off5 (grid0.coords t) = ![0, 1024 * (t.val % 4)] :=
  (by decide +kernel : ∀ t : Fin grid0.N, k0_off5 (grid0.coords t) = ![0, 1024 * (t.val % 4)])

/-! ## Where the windows are idle, and where the outputs are written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel

/-- Case A (reset and accumulate): both outputs are stored into. -/
theorem liveAt4_A : ∀ t : Fin cfg0.N, k0_cond1 (grid0.coords t) = 1#1 → cfg0.idle 4 (grid0.coords t) = false := by decide +kernel
theorem liveAt5_A : ∀ t : Fin cfg0.N, k0_cond1 (grid0.coords t) = 1#1 → cfg0.idle 5 (grid0.coords t) = false := by decide +kernel
/-- Case B (accumulate only): neither output is stored into, and neither is written back there. -/
theorem idleAt4_B : ∀ t : Fin cfg0.N, ¬ k0_cond1 (grid0.coords t) = 1#1 → ¬ k0_cond3 (grid0.coords t) = 1#1 → cfg0.idle 4 (grid0.coords t) = true := by decide +kernel
theorem idleAt5_B : ∀ t : Fin cfg0.N, ¬ k0_cond1 (grid0.coords t) = 1#1 → ¬ k0_cond3 (grid0.coords t) = 1#1 → cfg0.idle 5 (grid0.coords t) = true := by decide +kernel
theorem noFlush4_B : ∀ t : Fin cfg0.N, ¬ k0_cond3 (grid0.coords t) = 1#1 → (cfg0.win 4).flush t = false := by decide +kernel
theorem noFlush5_B : ∀ t : Fin cfg0.N, ¬ k0_cond3 (grid0.coords t) = 1#1 → (cfg0.win 5).flush t = false := by decide +kernel
/-- Case C (the loss phase): both outputs are stored into. -/
theorem liveAt4_C : ∀ t : Fin cfg0.N, k0_cond3 (grid0.coords t) = 1#1 → cfg0.idle 4 (grid0.coords t) = false := by decide +kernel
theorem liveAt5_C : ∀ t : Fin cfg0.N, k0_cond3 (grid0.coords t) = 1#1 → cfg0.idle 5 (grid0.coords t) = false := by decide +kernel
/-- In closed form: an output is idle exactly at the points 1, 2, 3 (mod 8). -/
theorem idle4_iff : ∀ t : Fin cfg0.N, cfg0.idle 4 (grid0.coords t) = true ↔ (0 < t.val % 8 ∧ t.val % 8 < 4) := by decide +kernel
theorem idle5_iff : ∀ t : Fin cfg0.N, cfg0.idle 5 (grid0.coords t) = true ↔ (0 < t.val % 8 ∧ t.val % 8 < 4) := by decide +kernel
/-- The outputs' block index is the row block alone: each is written back at the last point of its row
    block, the points ≡ 7 (mod 8) (`Gen.flush0_4`, `Gen.flush0_5`); restated as the negative. -/
theorem noFlush4 : ∀ t : Fin cfg0.N, t.val % 8 ≠ 7 → (cfg0.win 4).flush t = false := by decide +kernel
theorem noFlush5 : ∀ t : Fin cfg0.N, t.val % 8 ≠ 7 → (cfg0.win 5).flush t = false := by decide +kernel

/-- The three cases exhaust the grid: every point is in exactly one. -/
theorem cases_exhaust : ∀ t : Fin cfg0.N,
    (k0_cond1 (grid0.coords t) = 1#1 ∧ k0_cond2 (grid0.coords t) = 1#1 ∧ ¬ k0_cond3 (grid0.coords t) = 1#1) ∨
    (¬ k0_cond1 (grid0.coords t) = 1#1 ∧ k0_cond2 (grid0.coords t) = 1#1 ∧ ¬ k0_cond3 (grid0.coords t) = 1#1) ∨
    (¬ k0_cond1 (grid0.coords t) = 1#1 ∧ ¬ k0_cond2 (grid0.coords t) = 1#1 ∧ k0_cond3 (grid0.coords t) = 1#1) := by decide +kernel

end Cert.Kernel.Hand

end
-- ==== Proof.K.RunB.lean ====
/- The body's run at the points of phase 0 past tile 0 (the accumulation branch alone): the tile of
   exp(scaled logits) is stored into its columns of the wide scratch, whose other columns keep what
   they held, and its masked row sums are added to the denominator scratch. -/
import proofs.«169875_j63625645523217_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: the reset branch and the loss branch not taken, the accumulation branch taken. The inputs
    are held at their contents and returned so; the wide scratch `arg9` is held at raw contents `f9`
    and returned with the run's pieces written over them; the denominator scratch `arg10` is held at
    `s1` and returned with the run's pieces written. The outputs `arg7`, `arg8` are not touched. -/
noncomputable def kernelRun0_B (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : k0_cond2 i = 1#1) (hc3 : ¬ k0_cond3 i = 1#1)
    (x0 : Vec F S512x512 .bf16) (x1 : Vec F S4096x512 .bf16) (x2 : Vec F S512x1 .i32) (x3 : Vec F S1x4096 .i32) (s1 : Vec F S512x1 .f32) :
    Σ' (L10 : List (View.Piece (Elt F) S512x1 .f32)), { L9 : List (View.Piece (Elt F) S512x4096 .f32) //
      ∀ (f9 : arg9.view.ty.Contents (Elt F)) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (arg9.view.loc (c : Thread nD τ) ↦[arg9.view.set]{fullShare} f9) ∗ owns (c : Thread nD τ) arg10 fullShare s1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (arg9.view.loc (c : Thread nD τ) ↦[arg9.view.set]{fullShare} arg9.view.writes (Elt F) f9 L9) ∗ (∃ f, arg10.view.loc (c : Thread nD τ) ↦[arg10.view.set]{fullShare} arg10.view.writes (Elt F) f L10)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, fun f9 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, H9, ⟨%f10, %hf10, H10⟩, Hk⟩
    obtain rfl := harg3.eq_unread hf0; obtain rfl := harg4.eq_unread hf1; obtain rfl := harg5.eq_unread hf2
    obtain rfl := harg6.eq_unread hf3; obtain rfl := harg10.eq_unread hf10
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H9]; · iexact H9
    iexists _; iexact H10

end Cert.Kernel.Hand

end
-- ==== Proof.K.RunA.lean ====
/- The body's run at the first point of each row block (phase 0, tile 0): the denominator scratch and
   both outputs are reset to zero, then the accumulation branch runs as at the other tiles of phase 0. -/
import proofs.«169875_j63625645523217_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the reset branch and the accumulation branch taken, the loss branch not. The inputs are
    held at their contents and returned so; the outputs `arg7`, `arg8` and the denominator scratch
    `arg10` are held at anything and returned with the run's pieces written; the wide scratch `arg9`
    is held at raw contents `f9` and returned with the run's pieces written over them. -/
noncomputable def kernelRun0_A (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1)
    (x0 : Vec F S512x512 .bf16) (x1 : Vec F S4096x512 .bf16) (x2 : Vec F S512x1 .i32) (x3 : Vec F S1x4096 .i32) :
    Σ' (L7 L8 L10 : List (View.Piece (Elt F) S512x1 .f32)), { L9 : List (View.Piece (Elt F) S512x4096 .f32) //
      ∀ (f9 : arg9.view.ty.Contents (Elt F)) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d)
            ∗ (arg9.view.loc (c : Thread nD τ) ↦[arg9.view.set]{fullShare} f9) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (arg9.view.loc (c : Thread nD τ) ↦[arg9.view.set]{fullShare} arg9.view.writes (Elt F) f9 L9) ∗ (∃ f, arg10.view.loc (c : Thread nD τ) ↦[arg10.view.set]{fullShare} arg10.view.writes (Elt F) f L10)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, ?_, ?_, fun f9 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, H9, ⟨%d10, %f10, -, H10⟩, Hk⟩
    obtain rfl := harg3.eq_unread hf0; obtain rfl := harg4.eq_unread hf1; obtain rfl := harg5.eq_unread hf2
    obtain rfl := harg6.eq_unread hf3
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    isplitl [H9]; · iexact H9
    iexists _; iexact H10

end Cert.Kernel.Hand

end
-- ==== Proof.K.RunC.lean ====
/- The body's run at the points of phase 1 (the loss branch alone): the tile of the wide scratch stored
   at phase 0 is read back, log(denominator + e) - log e is formed from it and the denominator scratch,
   and its masked row sums and the mask's row counts are added into the two outputs. -/
import proofs.«169875_j63625645523217_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the reset and accumulation branches not taken, the loss branch taken. The label inputs
    `arg5`, `arg6` are held at their contents and returned so; the wide scratch `arg9` is held at raw
    contents `f9` and the denominator scratch `arg10` at `s1`, both only read and returned as they
    were; the outputs `arg7`, `arg8` are held at `o4`, `o5` and returned with the run's pieces written.
    The embedding inputs `arg3`, `arg4` are not touched. -/
noncomputable def kernelRun0_C (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : ¬ k0_cond2 i = 1#1) (hc3 : k0_cond3 i = 1#1)
    (x2 : Vec F S512x1 .i32) (x3 : Vec F S1x4096 .i32) (o4 o5 : Vec F S512x1 .f32)
    (f9 : arg9.view.ty.Contents (Elt F)) (s1 : Vec F S512x1 .f32) :
    Σ' (L7 : List (View.Piece (Elt F) S512x1 .f32)), { L8 : List (View.Piece (Elt F) S512x1 .f32) //
      ∀ (E : Set ℕ) (K : PUnit → sProp 𝕄),
        iprop(owns (c : Thread nD τ) arg5 fullShare x2 ∗ owns (c : Thread nD τ) arg6 fullShare x3
            ∗ owns (c : Thread nD τ) arg7 fullShare o4 ∗ owns (c : Thread nD τ) arg8 fullShare o5
            ∗ (arg9.view.loc (c : Thread nD τ) ↦[arg9.view.set]{fullShare} f9) ∗ owns (c : Thread nD τ) arg10 fullShare s1
            ∗ (iprop(owns (c : Thread nD τ) arg5 fullShare x2 ∗ owns (c : Thread nD τ) arg6 fullShare x3
                ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (arg9.view.loc (c : Thread nD τ) ↦[arg9.view.set]{fullShare} f9) ∗ owns (c : Thread nD τ) arg10 fullShare s1) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f2, %hf2, H2⟩, ⟨%f3, %hf3, H3⟩, ⟨%f7, %hf7, H7⟩, ⟨%f8, %hf8, H8⟩, H9, ⟨%f10, %hf10, H10⟩, Hk⟩
    obtain rfl := harg5.eq_unread hf2; obtain rfl := harg6.eq_unread hf3; obtain rfl := harg7.eq_unread hf7
    obtain rfl := harg8.eq_unread hf8; obtain rfl := harg10.eq_unread hf10
    sl_exec (disch := first | sl_exact hc1 | sl_exact hc2 | sl_exact hc3)
    sl_step
    iapply Hk
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    isplitl [H9]; · iexact H9
    iexists _; isplitr; · ipureintro; exact harg10.read_unread _
    iexact H10

end Cert.Kernel.Hand

end
-- ==== Proof.K.Pieces.lean ====
/- What the runs' pieces are: for each buffer a case stores whole, what it reads after the case (the
   payload of the last store, whatever it held before), and for the wide scratch the one piece the
   accumulation branch stores. The loads are stated as the blocks' contents at the rectangles read. -/
import proofs.«169875_j63625645523217_2_alg».proof.Proof.K.RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the branches read, as contents -/

/-- The 1024 rows of the embedding block that the column tile's matmul reads. -/
abbrev rowsAt (i : grid0.Coords) (h2 : k0_cond2 i = 1#1) (x1 : Vec F S4096x512 .bf16) : Vec F S1024x512 .bf16 :=
  View.ld x1 (Rect.unit (s := S4096x512) (k0_off1 i) S1024x512.size (k0_off1_inb i h2))
/-- The column tile's 1024 labels, as the accumulation branch reads them. -/
abbrev labsAt (i : grid0.Coords) (h2 : k0_cond2 i = 1#1) (x3 : Vec F S1x4096 .i32) : Vec F S1x1024 .i32 :=
  View.ld x3 (Rect.unit (s := S1x4096) (k0_off2 i) S1x1024.size (k0_off2_inb i h2))
/-- The same labels, as the loss branch reads them. -/
abbrev labsAtC (i : grid0.Coords) (h3 : k0_cond3 i = 1#1) (x3 : Vec F S1x4096 .i32) : Vec F S1x1024 .i32 :=
  View.ld x3 (Rect.unit (s := S1x4096) (k0_off5 i) S1x1024.size (k0_off5_inb i h3))
/-- The column tile of the wide scratch, as the loss branch reads it back. -/
abbrev tileAtC (i : grid0.Coords) (h3 : k0_cond3 i = 1#1) (X9 : Vec F S512x4096 .f32) : Vec F S512x1024 .f32 :=
  View.ld X9 (Rect.unit (s := S512x4096) (k0_off4 i) S512x1024.size (k0_off4_inb i h3))

theorem hz2 : (![0, 0] : Fin 2 → ℕ) = fun _ => 0 := by funext a; fin_cases a <;> rfl

/-! ## Case B: the accumulation branch alone -/

/-- The one piece case B stores into the wide scratch: the tile of exponentials at the tile's columns. -/
theorem piecesB_9 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (s1 : Vec F S512x1 .f32) :
    (kernelRun0_B c i arg3 harg3 arg4 harg4 arg5 harg5 arg6 harg6 arg7 harg7 arg8 harg8 arg9 harg9 arg10 harg10 hc1 hc2 hc3 x0 x1 x2 x3 s1).2.1
      = [⟨Rect.unit (s := S512x4096) (k0_off3 i) S512x1024.size (k0_off3_inb i hc2), k0_pay5 x0 (rowsAt i hc2 x1)⟩] := by
  unfold kernelRun0_B
  dsimp only
  simp only [View.readAt_eq_ld, Memref.IsWhole.read_unread, View.ld_unit_zero (S := S512x512) hz2]

theorem coverB_10 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (s1 : Vec F S512x1 .f32) (y : S512x1.Idx) :
    ∃ pc ∈ (kernelRun0_B c i arg3 harg3 arg4 harg4 arg5 harg5 arg6 harg6 arg7 harg7 arg8 harg8 arg9 harg9 arg10 harg10 hc1 hc2 hc3 x0 x1 x2 x3 s1).1, y ∈ pc.1.set :=
  View.cover_of_tiledL (kernelRun0_B c i arg3 harg3 arg4 harg4 arg5 harg5 arg6 harg6 arg7 harg7 arg8 harg8 arg9 harg9 arg10 harg10 hc1 hc2 hc3 x0 x1 x2 x3 s1).1 S512x1.size (by sl_kernel_rfl) y

/-- After case B the denominator scratch reads the tile's masked row sums added to what it held. -/
theorem readB_10 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (s1 : Vec F S512x1 .f32) (f : arg10.view.ty.Contents (Elt F)) :
    arg10.view.read (Elt F) (arg10.view.writes (Elt F) f (kernelRun0_B c i arg3 harg3 arg4 harg4 arg5 harg5 arg6 harg6 arg7 harg7 arg8 harg8 arg9 harg9 arg10 harg10 hc1 hc2 hc3 x0 x1 x2 x3 s1).1)
      = k0_pay6 x0 (rowsAt i hc2 x1) (labsAt i hc2 x3) x2 s1 := by
  rw [View.read_writes_eq_canon _ _ _ (coverB_10 c i arg3 harg3 arg4 harg4 arg5 harg5 arg6 harg6 arg7 harg7 arg8 harg8 arg9 harg9 arg10 harg10 hc1 hc2 hc3 x0 x1 x2 x3 s1)]
  unfold kernelRun0_B
  dsimp only
  rw [View.canon_unit_zero hz2]
  simp only [View.readAt_eq_ld, Memref.IsWhole.read_unread, View.ld_unit_zero (S := S512x512) hz2, View.ld_unit_zero (S := S512x1) hz2]

/-! ## Case A: reset, then the accumulation branch -/

theorem piecesA_9 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) :
    (kernelRun0_A c i arg3 harg3 arg4 harg4 arg5 harg5 arg6 harg6 arg7 harg7 arg8 harg8 arg9 harg9 arg10 harg10 hc1 hc2 hc3 x0 x1 x2 x3).2.2.2.1
      = [⟨Rect.unit (s := S512x4096) (k0_off3 i) S512x1024.size (k0_off3_inb i hc2), k0_pay5 x0 (rowsAt i hc2 x1)⟩] := by
  unfold kernelRun0_A
  dsimp only
  simp only [View.readAt_eq_ld, Memref.IsWhole.read_unread, View.ld_unit_zero (S := S512x512) hz2]

theorem coverA_7 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (y : S512x1.Idx) :
    ∃ pc ∈ (kernelRun0_A c i arg3 harg3 arg4 harg4 arg5 harg5 arg6 harg6 arg7 harg7 arg8 harg8 arg9 harg9 arg10 harg10 hc1 hc2 hc3 x0 x1 x2 x3).1, y ∈ pc.1.set :=
  View.cover_of_tiledL (kernelRun0_A c i arg3 harg3 arg4 harg4 arg5 harg5 arg6 harg6 arg7 harg7 arg8 harg8 arg9 harg9 arg10 harg10 hc1 hc2 hc3 x0 x1 x2 x3).1 S512x1.size (by sl_kernel_rfl) y
theorem coverA_8 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (y : S512x1.Idx) :
    ∃ pc ∈ (kernelRun0_A c i arg3 harg3 arg4 harg4 arg5 harg5 arg6 harg6 arg7 harg7 arg8 harg8 arg9 harg9 arg10 harg10 hc1 hc2 hc3 x0 x1 x2 x3).2.1, y ∈ pc.1.set :=
  View.cover_of_tiledL (kernelRun0_A c i arg3 harg3 arg4 harg4 arg5 harg5 arg6 harg6 arg7 harg7 arg8 harg8 arg9 harg9 arg10 harg10 hc1 hc2 hc3 x0 x1 x2 x3).2.1 S512x1.size (by sl_kernel_rfl) y
theorem coverA_10 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (y : S512x1.Idx) :
    ∃ pc ∈ (kernelRun0_A c i arg3 harg3 arg4 harg4 arg5 harg5 arg6 harg6 arg7 harg7 arg8 harg8 arg9 harg9 arg10 harg10 hc1 hc2 hc3 x0 x1 x2 x3).2.2.1, y ∈ pc.1.set :=
  View.cover_of_tiledL (kernelRun0_A c i arg3 harg3 arg4 harg4 arg5 harg5 arg6 harg6 arg7 harg7 arg8 harg8 arg9 harg9 arg10 harg10 hc1 hc2 hc3 x0 x1 x2 x3).2.2.1 S512x1.size (by sl_kernel_rfl) y

/-- After case A the first output reads zero. -/
theorem readA_7 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (f : arg7.view.ty.Contents (Elt F)) :
    arg7.view.read (Elt F) (arg7.view.writes (Elt F) f (kernelRun0_A c i arg3 harg3 arg4 harg4 arg5 harg5 arg6 harg6 arg7 harg7 arg8 harg8 arg9 harg9 arg10 harg10 hc1 hc2 hc3 x0 x1 x2 x3).1) = k0_pay2 := by
  rw [View.read_writes_eq_canon _ _ _ (coverA_7 c i arg3 harg3 arg4 harg4 arg5 harg5 arg6 harg6 arg7 harg7 arg8 harg8 arg9 harg9 arg10 harg10 hc1 hc2 hc3 x0 x1 x2 x3)]
  unfold kernelRun0_A
  dsimp only
  rw [View.canon_unit_zero hz2]

/-- After case A the second output reads zero. -/
theorem readA_8 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (f : arg8.view.ty.Contents (Elt F)) :
    arg8.view.read (Elt F) (arg8.view.writes (Elt F) f (kernelRun0_A c i arg3 harg3 arg4 harg4 arg5 harg5 arg6 harg6 arg7 harg7 arg8 harg8 arg9 harg9 arg10 harg10 hc1 hc2 hc3 x0 x1 x2 x3).2.1) = k0_pay3 := by
  rw [View.read_writes_eq_canon _ _ _ (coverA_8 c i arg3 harg3 arg4 harg4 arg5 harg5 arg6 harg6 arg7 harg7 arg8 harg8 arg9 harg9 arg10 harg10 hc1 hc2 hc3 x0 x1 x2 x3)]
  unfold kernelRun0_A
  dsimp only
  rw [View.canon_unit_zero hz2]

/-- After case A the denominator scratch reads the tile's masked row sums added to zero. -/
theorem readA_10 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (f : arg10.view.ty.Contents (Elt F)) :
    arg10.view.read (Elt F) (arg10.view.writes (Elt F) f (kernelRun0_A c i arg3 harg3 arg4 harg4 arg5 harg5 arg6 harg6 arg7 harg7 arg8 harg8 arg9 harg9 arg10 harg10 hc1 hc2 hc3 x0 x1 x2 x3).2.2.1)
      = k0_pay6 x0 (rowsAt i hc2 x1) (labsAt i hc2 x3) x2 k0_pay1 := by
  rw [View.read_writes_eq_canon _ _ _ (coverA_10 c i arg3 harg3 arg4 harg4 arg5 harg5 arg6 harg6 arg7 harg7 arg8 harg8 arg9 harg9 arg10 harg10 hc1 hc2 hc3 x0 x1 x2 x3)]
  unfold kernelRun0_A
  dsimp only
  rw [View.canon_cons_unit_zero hz2]
  sl_unfold_run_names
  rw [View.readCov_unit_zero _ hz2]
  simp only [View.readAt_eq_ld, Memref.IsWhole.read_unread, View.ld_unit_zero (S := S512x512) hz2, View.ld_unit_zero (S := S512x1) hz2]

/-! ## Case C: the loss branch -/

theorem coverC_7 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : ¬ k0_cond2 i = 1#1) (hc3 : k0_cond3 i = 1#1) (x2 : Vec F S512x1 .i32) (x3 : Vec F S1x4096 .i32) (o4 o5 : Vec F S512x1 .f32) (f9 : arg9.view.ty.Contents (Elt F)) (s1 : Vec F S512x1 .f32) (y : S512x1.Idx) :
    ∃ pc ∈ (kernelRun0_C c i arg3 harg3 arg4 harg4 arg5 harg5 arg6 harg6 arg7 harg7 arg8 harg8 arg9 harg9 arg10 harg10 hc1 hc2 hc3 x2 x3 o4 o5 f9 s1).1, y ∈ pc.1.set :=
  View.cover_of_tiledL (kernelRun0_C c i arg3 harg3 arg4 harg4 arg5 harg5 arg6 harg6 arg7 harg7 arg8 harg8 arg9 harg9 arg10 harg10 hc1 hc2 hc3 x2 x3 o4 o5 f9 s1).1 S512x1.size (by sl_kernel_rfl) y
theorem coverC_8 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : ¬ k0_cond2 i = 1#1) (hc3 : k0_cond3 i = 1#1) (x2 : Vec F S512x1 .i32) (x3 : Vec F S1x4096 .i32) (o4 o5 : Vec F S512x1 .f32) (f9 : arg9.view.ty.Contents (Elt F)) (s1 : Vec F S512x1 .f32) (y : S512x1.Idx) :
    ∃ pc ∈ (kernelRun0_C c i arg3 harg3 arg4 harg4 arg5 harg5 arg6 harg6 arg7 harg7 arg8 harg8 arg9 harg9 arg10 harg10 hc1 hc2 hc3 x2 x3 o4 o5 f9 s1).2.1, y ∈ pc.1.set :=
  View.cover_of_tiledL (kernelRun0_C c i arg3 harg3 arg4 harg4 arg5 harg5 arg6 harg6 arg7 harg7 arg8 harg8 arg9 harg9 arg10 harg10 hc1 hc2 hc3 x2 x3 o4 o5 f9 s1).2.1 S512x1.size (by sl_kernel_rfl) y

/-- After case C the first output reads the tile's masked row sums of log(denominator + e) - log e,
    added to what it held. -/
theorem readC_7 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : ¬ k0_cond2 i = 1#1) (hc3 : k0_cond3 i = 1#1) (x2 : Vec F S512x1 .i32) (x3 : Vec F S1x4096 .i32) (o4 o5 : Vec F S512x1 .f32) (f9 : arg9.view.ty.Contents (Elt F)) (s1 : Vec F S512x1 .f32) (f : arg7.view.ty.Contents (Elt F)) :
    arg7.view.read (Elt F) (arg7.view.writes (Elt F) f (kernelRun0_C c i arg3 harg3 arg4 harg4 arg5 harg5 arg6 harg6 arg7 harg7 arg8 harg8 arg9 harg9 arg10 harg10 hc1 hc2 hc3 x2 x3 o4 o5 f9 s1).1)
      = k0_pay8 (BitVec.ofNat 32 (i 0).val) (BitVec.ofNat 32 (i 2).val) (tileAtC i hc3 (arg9.view.read (Elt F) f9)) (labsAtC i hc3 x3) x2 s1 o4 := by
  rw [View.read_writes_eq_canon _ _ _ (coverC_7 c i arg3 harg3 arg4 harg4 arg5 harg5 arg6 harg6 arg7 harg7 arg8 harg8 arg9 harg9 arg10 harg10 hc1 hc2 hc3 x2 x3 o4 o5 f9 s1)]
  unfold kernelRun0_C
  dsimp only
  rw [View.canon_unit_zero hz2]
  sl_unfold_run_names
  simp only [View.readAt_eq_ld, Memref.IsWhole.read_unread, View.ld_unit_zero (S := S512x1) hz2]
  first | done | rfl

/-- After case C the second output reads the tile's row counts of the mask, added to what it held. -/
theorem readC_8 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : ¬ k0_cond2 i = 1#1) (hc3 : k0_cond3 i = 1#1) (x2 : Vec F S512x1 .i32) (x3 : Vec F S1x4096 .i32) (o4 o5 : Vec F S512x1 .f32) (f9 : arg9.view.ty.Contents (Elt F)) (s1 : Vec F S512x1 .f32) (f : arg8.view.ty.Contents (Elt F)) :
    arg8.view.read (Elt F) (arg8.view.writes (Elt F) f (kernelRun0_C c i arg3 harg3 arg4 harg4 arg5 harg5 arg6 harg6 arg7 harg7 arg8 harg8 arg9 harg9 arg10 harg10 hc1 hc2 hc3 x2 x3 o4 o5 f9 s1).2.1)
      = k0_pay9 (BitVec.ofNat 32 (i 0).val) (BitVec.ofNat 32 (i 2).val) (labsAtC i hc3 x3) x2 o5 := by
  rw [View.read_writes_eq_canon _ _ _ (coverC_8 c i arg3 harg3 arg4 harg4 arg5 harg5 arg6 harg6 arg7 harg7 arg8 harg8 arg9 harg9 arg10 harg10 hc1 hc2 hc3 x2 x3 o4 o5 f9 s1)]
  unfold kernelRun0_C
  dsimp only
  rw [View.canon_unit_zero hz2]
  sl_unfold_run_names
  simp only [View.readAt_eq_ld, Memref.IsWhole.read_unread, View.ld_unit_zero (S := S512x1) hz2]
  first | done | rfl

end Cert.Kernel.Hand

end
-- ==== Proof.K.Data.lean ====
/-
  The proof data of the region: what every window's staging buffer and the two scratch buffers hold after the body at
  each of the 64 grid points.

  A point is (row block i, phase, column tile j), numbered 8 i + 4 phase + j. At phase 0 the body stores the tile of
  exponentials into the columns [1024 j, 1024 j + 1024) of the wide scratch and adds the tile's masked row sums to the
  denominator scratch (zeroed, with both outputs, at tile 0); at phase 1 it reads the tile back and adds the masked row
  sums of log(denominator + e) - log e, and of the mask, to the two outputs. So after point n: the outputs' buffers and
  the denominator scratch are a recursion on n (`stAt`), and the wide scratch holds, in the tiles stored so far for the
  current row block, the tiles of exponentials (`tilesOk`); what its other columns hold is not said.
-/
import proofs.«169875_j63625645523217_2_alg».proof.Proof.K.Launch
import proofs.«169875_j63625645523217_2_alg».proof.Proof.K.Pieces
import Idealize.ShloMosaic.Lib.ValueIdx

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem N64 : cfg0.N = 64 := N_0

/-- Point number `n`. -/
abbrev pt (n : ℕ) (hn : n < 64) : Fin cfg0.N := ⟨n, lt_of_lt_of_eq hn N64.symm⟩

/-! ## The staging memrefs and the scratch operands -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
/-- The wide scratch (a row block of exponentials, all 4096 columns) and the denominator scratch. -/
abbrev scM0 : Memref sig .tc .vmem S512x4096 .f32 := Memref.whole cc0_scratch0
abbrev scM1 : Memref sig .tc .vmem S512x1 .f32 := Memref.whole cc0_scratch1

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the buffers hold after each point -/

/-- The tile of exponentials a point of phase 0 stores: the point's row block against the 1024 rows of its column tile. -/
def expTile (c : Dev nD) (t : Fin cfg0.N) (h : t.val % 8 < 4) : Vec F S512x1024 .f32 :=
  k0_pay5 (iblk m c 0 t) (rowsAt (grid0.coords t) ((hcond2 t).mpr h) (iblk m c 1 t))

/-- After the body at point `n`: the first output's buffer, the second output's buffer, the denominator scratch. -/
def stAt (c : Dev nD) : (n : ℕ) → n < cfg0.N → Vec F S512x1 .f32 × Vec F S512x1 .f32 × Vec F S512x1 .f32
  | 0, hn =>
    (k0_pay2, k0_pay3,
      k0_pay6 (iblk m c 0 ⟨0, hn⟩) (rowsAt (grid0.coords ⟨0, hn⟩) ((hcond2 ⟨0, hn⟩).mpr (by show 0 % 8 < 4; omega)) (iblk m c 1 ⟨0, hn⟩))
        (labsAt (grid0.coords ⟨0, hn⟩) ((hcond2 ⟨0, hn⟩).mpr (by show 0 % 8 < 4; omega)) (iblk m c 3 ⟨0, hn⟩)) (iblk m c 2 ⟨0, hn⟩) k0_pay1)
  | n + 1, hn =>
    if h0 : (n + 1) % 8 = 0 then
      (k0_pay2, k0_pay3,
        k0_pay6 (iblk m c 0 ⟨n + 1, hn⟩) (rowsAt (grid0.coords ⟨n + 1, hn⟩) ((hcond2 ⟨n + 1, hn⟩).mpr (by show (n + 1) % 8 < 4; omega)) (iblk m c 1 ⟨n + 1, hn⟩))
          (labsAt (grid0.coords ⟨n + 1, hn⟩) ((hcond2 ⟨n + 1, hn⟩).mpr (by show (n + 1) % 8 < 4; omega)) (iblk m c 3 ⟨n + 1, hn⟩)) (iblk m c 2 ⟨n + 1, hn⟩) k0_pay1)
    else if h1 : (n + 1) % 8 < 4 then
      ((stAt c n (Nat.lt_of_succ_lt hn)).1, (stAt c n (Nat.lt_of_succ_lt hn)).2.1,
        k0_pay6 (iblk m c 0 ⟨n + 1, hn⟩) (rowsAt (grid0.coords ⟨n + 1, hn⟩) ((hcond2 ⟨n + 1, hn⟩).mpr h1) (iblk m c 1 ⟨n + 1, hn⟩))
          (labsAt (grid0.coords ⟨n + 1, hn⟩) ((hcond2 ⟨n + 1, hn⟩).mpr h1) (iblk m c 3 ⟨n + 1, hn⟩)) (iblk m c 2 ⟨n + 1, hn⟩) (stAt c n (Nat.lt_of_succ_lt hn)).2.2)
    else
      (k0_pay8 (BitVec.ofNat 32 ((grid0.coords ⟨n + 1, hn⟩) 0).val) (BitVec.ofNat 32 ((grid0.coords ⟨n + 1, hn⟩) 2).val)
          (expTile m c ⟨n + 1 - 4, by omega⟩ (by show (n + 1 - 4) % 8 < 4; omega))
          (labsAtC (grid0.coords ⟨n + 1, hn⟩) ((hcond3 ⟨n + 1, hn⟩).mpr (by show 4 ≤ (n + 1) % 8; omega)) (iblk m c 3 ⟨n + 1, hn⟩)) (iblk m c 2 ⟨n + 1, hn⟩)
          (stAt c n (Nat.lt_of_succ_lt hn)).2.2 (stAt c n (Nat.lt_of_succ_lt hn)).1,
        k0_pay9 (BitVec.ofNat 32 ((grid0.coords ⟨n + 1, hn⟩) 0).val) (BitVec.ofNat 32 ((grid0.coords ⟨n + 1, hn⟩) 2).val)
          (labsAtC (grid0.coords ⟨n + 1, hn⟩) ((hcond3 ⟨n + 1, hn⟩).mpr (by show 4 ≤ (n + 1) % 8; omega)) (iblk m c 3 ⟨n + 1, hn⟩)) (iblk m c 2 ⟨n + 1, hn⟩)
          (stAt c n (Nat.lt_of_succ_lt hn)).2.1,
        (stAt c n (Nat.lt_of_succ_lt hn)).2.2)

/-- The wide scratch after point `n`: the tiles stored so far for the current row block — tile `j` for every `j` up to
    the point's place in its row block, all four from the last tile of phase 0 on — hold their tiles of exponentials. -/
def tilesOk (c : Dev nD) (n : ℕ) (hn : n < cfg0.N) (X9 : Vec F S512x4096 .f32) : Prop :=
  ∀ (j : ℕ) (hj : j ≤ n % 8) (hj4 : j < 4) (p : Fin 512) (q : Fin 1024),
    X9 (ix2 p (⟨1024 * j + q.val, by have := q.isLt; omega⟩ : Fin 4096))
      = expTile m c ⟨8 * (n / 8) + j, by have := lt_of_lt_of_eq hn N64; rw [N64]; omega⟩ (by show (8 * (n / 8) + j) % 8 < 4; omega) (ix2 p q)

/-- The invariant before point `n`: before the first point the two scratch buffers at anything; afterwards the wide
    scratch at contents whose stored tiles are the exponentials, the denominator scratch at the recursion's value. -/
def PhiS (c : Dev nD) : (n : ℕ) → n ≤ cfg0.N → sProp 𝕄
  | 0, _ => Pipeline.scopedRest spec0 c
  | n + 1, hn => iprop((∃ X9, owns (c : Thread nD τ) scM0 fullShare X9 ∗ ⌜tilesOk m c n hn X9⌝)
      ∗ owns (c : Thread nD τ) scM1 fullShare (stAt m c n hn).2.2)

/-! ## The proof data -/

/-- The proof data on core `c`: the arrays as the region finds them; after the body each input's buffer at its block,
    the outputs' at the recursion's values; the two readers of the shared array each at half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).1
    | ⟨5, _⟩ => (stAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (stAt m c t.val t.isLt).1 := by dsimp only [dats]
theorem after5 (c : Dev nD) (t : Fin cfg0.N) : (dats m 0 c).after 5 t = (stAt m c t.val t.isLt).2.1 := by dsimp only [dats]

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop((∃ X9, owns (c : Thread nD τ) scM0 fullShare X9 ∗ ⌜tilesOk m c n hn X9⌝)
      ∗ owns (c : Thread nD τ) scM1 fullShare (stAt m c n hn).2.2) := rfl

theorem PhiS_pos (c : Dev nD) (n : ℕ) (h : n ≤ cfg0.N) (hz : n ≠ 0) :
    PhiS m c n h = iprop((∃ X9, owns (c : Thread nD τ) scM0 fullShare X9 ∗ ⌜tilesOk m c (n - 1) (by omega) X9⌝)
      ∗ owns (c : Thread nD τ) scM1 fullShare (stAt m c (n - 1) (by omega)).2.2) := by
  cases n with
  | zero => exact absurd rfl hz
  | succ n => rfl

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

end Cert.Kernel.Hand

end
-- ==== Proof.K.Run.lean ====
/-
  The run of the kernel program: from the body obligation at every grid point to the final contents of every
  unscoped buffer — each window's array as the write-backs leave it, every other buffer as the host lines after the region
  leave it.
-/
import proofs.«169875_j63625645523217_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region of the core's scoped buffers is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

/-- After the last point the invariant gives the two scratch buffers back, what they hold forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last, N64]; omega), scopedRest0_eq]
  simp only [owns_whole]
  iintro ⟨⟨%X9, H0, -⟩, H1⟩
  isplitl [H0]
  · iexists X9; iexact H0
  iexists _; iexact H1

/-- From the body obligation: every weakly fair execution of @main terminates, with every window's array at what the
    write-backs leave and every other unscoped buffer at what the lines after the region leave. -/
theorem run_main (hbody : ∀ c, BodyObligation (dats (F := F) m 0 c) (defs₀ (F := F)) Variants.none () Set.univ) :
    θ_run (defs (F := F)) (onTc (τ := τ) (main (F := F))) (s₀ m ρ) (RunPost m (dats m)) :=
  run_of m ρ (dats m) (fun c => (hbody c).loose) (fun _ _ => rfl)
    (hsplit_of m (dats m) (q0 m) (q1 m) (q2 m) (q3 m) (A_eq m))
    (hin m) (hout m)
    (htail_of m (dats m) (q0 m) (q1 m) (q2 m) (q3 m))

end Cert.Kernel.Hand

end
-- ==== Proof.K.Frame.lean ====
/-
  The frame of the kernel program: from the body obligation, every weakly fair execution of @main terminates and
  the two argument arrays end as they began — no window stages them and no host line writes them.
-/
import proofs.«169875_j63625645523217_2_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

variable (m : (ℓ : Loc nD τ sig) → Buf (Elt F) ℓ) (ρ : Dev nD → PrngReg)

/-- No host line before the region writes `b` when `b` is none of their three results. -/
theorem pre_keeps (b : Ref sig .tc) (h0 : main_v0 ≠ b) (h1 : main_v1 ≠ b) (h2 : main_v2 ≠ b) :
    ∀ op ∈ List.flatten [(hostOps0 : List (HloOp τ sig (Elt F)))], Proc.devRef .tc b ∉ op.writes := by
  intro op hop
  simp only [List.flatten_cons, List.flatten_nil, List.append_nil, hostOps0, List.mem_cons, List.mem_nil_iff, or_false] at hop
  rcases hop with rfl | rfl | rfl <;> simp only [StableHlo.reshape_writes, StableHlo.unary_writes, Finset.mem_singleton] <;>
    exact fun e => by first | exact h0 (Proc.devRef_injective _ e).symm | exact h1 (Proc.devRef_injective _ e).symm | exact h2 (Proc.devRef_injective _ e).symm

/-- No host line after the region writes `b` when `b` is none of their seven results. -/
theorem post_keeps (b : Ref sig .tc) (h0 : main_cst ≠ b) (h1 : main_v4 ≠ b) (h2 : main_cst_0 ≠ b) (h3 : main_v5 ≠ b)
    (h4 : main_cst_1 ≠ b) (h5 : main_v6 ≠ b) (h6 : main_v7 ≠ b) :
    ∀ op ∈ List.flatten [(hostOps1 : List (HloOp τ sig (Elt F)))], Proc.devRef .tc b ∉ op.writes := by
  intro op hop
  simp only [List.flatten_cons, List.flatten_nil, List.append_nil, hostOps1, List.mem_cons, List.mem_nil_iff, or_false] at hop
  rcases hop with rfl | rfl | rfl | rfl | rfl | rfl | rfl <;> simp only [StableHlo.nullary_writes, StableHlo.binary_writes, Finset.mem_singleton] <;>
    exact fun e => by
      first
      | exact h0 (Proc.devRef_injective _ e).symm | exact h1 (Proc.devRef_injective _ e).symm | exact h2 (Proc.devRef_injective _ e).symm
      | exact h3 (Proc.devRef_injective _ e).symm | exact h4 (Proc.devRef_injective _ e).symm | exact h5 (Proc.devRef_injective _ e).symm
      | exact h6 (Proc.devRef_injective _ e).symm

section

variable (dats : (p : Fin 1) → (c : Dev nD) → Dat τ (Elt F) Unit ℕ (UR sig nD τ) ℕ (cfgs p) c)

/-- A buffer that is no output array and that no host line writes ends as the launch memory has it. -/
theorem VEnd_kept (c : Dev nD) (b : Ref sig .tc) (ho0 : main_v3_0 ≠ b) (ho1 : main_v3_1 ≠ b)
    (hpre : ∀ op ∈ List.flatten [(hostOps0 : List (HloOp τ sig (Elt F)))], Proc.devRef .tc b ∉ op.writes)
    (hpost : ∀ op ∈ List.flatten [(hostOps1 : List (HloOp τ sig (Elt F)))], Proc.devRef .tc b ∉ op.writes) :
    VEnd m dats c (Proc.devRef .tc b) = m ((c.tc : Thread nD τ).loc b) := by
  unfold VEnd
  rw [StableHlo.after_of_forall_not_mem _ _ hpost,
    Pipeline.withArrays_of_ne winOut c _ _ b (fun w => by
      match w with
      | ⟨0, _⟩ => exact ho0
      | ⟨1, _⟩ => exact ho1)]
  show StableHlo.after (List.flatten [hostOps0]) (fun b => m (c, b)) (Proc.devRef .tc b) = _
  rw [StableHlo.after_of_forall_not_mem _ _ hpre]

end

/-- THE FRAME, at any instance of the float operations. -/
theorem frame (hbody : ∀ c, BodyObligation (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c =>
    ⟨((h c).2 main_arg0 (Pipeline.mem_restRefs_of main_arg0 rfl (by decide))).trans
        (VEnd_kept m (dats m) c main_arg0 (by decide) (by decide)
          (pre_keeps main_arg0 (by decide) (by decide) (by decide))
          (post_keeps main_arg0 (by decide) (by decide) (by decide) (by decide) (by decide) (by decide) (by decide))),
     ((h c).2 main_arg1 (Pipeline.mem_restRefs_of main_arg1 rfl (by decide))).trans
        (VEnd_kept m (dats m) c main_arg1 (by decide) (by decide)
          (pre_keeps main_arg1 (by decide) (by decide) (by decide))
          (post_keeps main_arg1 (by decide) (by decide) (by decide) (by decide) (by decide) (by decide) (by decide)))⟩)
    (run_main m ρ hbody)

end Cert.Kernel.Hand

end
-- ==== Proof.LibBefore.lean ====
/-
  What an output window's staging buffer holds when the body runs at a point after the first, read off the ONE point
  before it.

  An output window is never fetched.  If the point before did not write the block back, the buffer holds what the body
  left there: at a point that is idle for the window the body does not touch the buffer, so it holds what it held when
  that point began; at a point that is live for the window it holds what the body left, and for a window whose blocks
  are never cut short that is all of the body's block.  Whether the point before is idle or live is asked of the idle
  table at that one point only, so the facts apply to a window that is idle at some points and live at others.
-/
import Idealize.ShloMosaic.Lib.Pipeline.Frame

noncomputable section

namespace Idealize.ShloMosaic

open Idealize.SL
open Idealize.SL.RA
open TcCoe

variable {nD : Nat} {τ : Topo} {sig : RefSig} {Val : EltTy → Type}
variable {Ix : Type} [DecidableEq Ix] {Name : Type} [DecidableEq Name] {U : Type} [URA U] {Lvl : Type}

namespace Pipeline

section BeforeStep

variable {Λ₀ : SL.Sem.Labels} {cfg : Cfg sig Λ₀} {c : Dev nD} (dat : Dat τ Val Ix Name U Lvl cfg c)

/-- Through a point that is idle for an output window and does not write its block back, the staging buffer holds at
    the next point what it held at that point. -/
theorem Dat.before_out_step_idle (w : Fin cfg.W) (hw : (cfg.win w).isOut = true) (t : Fin cfg.N) (ht : t.val ≠ 0)
    (hfl : (cfg.win w).flush ⟨t.val - 1, Nat.lt_of_le_of_lt (Nat.sub_le _ _) t.isLt⟩ = false)
    (hidle : cfg.idle w (cfg.grid.coords ⟨t.val - 1, Nat.lt_of_le_of_lt (Nat.sub_le _ _) t.isLt⟩) = true) (d) :
    dat.before w t d = dat.before w ⟨t.val - 1, Nat.lt_of_le_of_lt (Nat.sub_le _ _) t.isLt⟩ d := by
  rw [dat.before_of_pos w t ht ((cfg.win w).fetch_out hw t), hfl, if_neg Bool.false_ne_true]
  unfold Dat.left; rw [hidle]

/-- After a point that is live for an output window and does not write its block back, the staging buffer of a window
    whose blocks are never cut short holds all of what the body left at that point. -/
theorem Dat.before_out_step_live (w : Fin cfg.W) (hw : (cfg.win w).isOut = true) (t : Fin cfg.N) (ht : t.val ≠ 0)
    (hfl : (cfg.win w).flush ⟨t.val - 1, Nat.lt_of_le_of_lt (Nat.sub_le _ _) t.isLt⟩ = false)
    (hlive : cfg.idle w (cfg.grid.coords ⟨t.val - 1, Nat.lt_of_le_of_lt (Nat.sub_le _ _) t.isLt⟩) = false)
    (hclip : ∀ (i : cfg.grid.Coords) a, (cfg.win w).clip i a = none) (d) :
    dat.before w t d = dat.after w ⟨t.val - 1, Nat.lt_of_le_of_lt (Nat.sub_le _ _) t.isLt⟩ := by
  rw [dat.before_of_pos w t ht ((cfg.win w).fetch_out hw t), hfl, if_neg Bool.false_ne_true]
  unfold Dat.left; rw [hlive]
  unfold Dat.kept
  rw [fill_of_clip_none w _ (hclip _) d (dat.after w _), Window.fill_cut]

end BeforeStep

end Pipeline

end Idealize.ShloMosaic

end
-- ==== Proof.K.Body.lean ====
/-
  The body obligation of the region: at every grid point, from the invariant and the windows' staging buffers at what
  they then hold, the body runs to the invariant at the next point and the buffers at what the proof data say it leaves.

  The three cases of the body's conditionals are the points 8 i (reset and accumulate), 8 i + 1 .. 8 i + 3 (accumulate)
  and 8 i + 4 .. 8 i + 7 (the loss phase). Each input window holds its block at every point. An output's buffer holds
  anything at a reset point, is untouched through the accumulate points, and at a loss point holds what the point before
  left. The wide scratch keeps the tiles stored so far; the denominator scratch follows the recursion.
-/
import proofs.«169875_j63625645523217_2_alg».proof.Proof.K.Data
import proofs.«169875_j63625645523217_2_alg».proof.Proof.LibBefore
import Idealize.ShloMosaic.Lib.WritesUnit
import Idealize.ShloMosaic.Lib.Pipeline.FrameBody

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The input windows hold their blocks -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The recursion at a point of each case -/

theorem stAt_A (c : Dev nD) (t : Fin cfg0.N) (h0 : t.val % 8 = 0) :
    stAt m c t.val t.isLt = (k0_pay2, k0_pay3,
      k0_pay6 (iblk m c 0 t) (rowsAt (grid0.coords t) ((hcond2 t).mpr (by omega)) (iblk m c 1 t))
        (labsAt (grid0.coords t) ((hcond2 t).mpr (by omega)) (iblk m c 3 t)) (iblk m c 2 t) k0_pay1) := by
  obtain ⟨n, hn⟩ := t
  cases n with
  | zero => exact rfl
  | succ n => exact (dif_pos h0).trans rfl

theorem stAt_B (c : Dev nD) (t : Fin cfg0.N) (h0 : ¬ t.val % 8 = 0) (h1 : t.val % 8 < 4) :
    stAt m c t.val t.isLt = ((stAt m c (t.val - 1) (Nat.lt_of_le_of_lt (Nat.sub_le _ _) t.isLt)).1, (stAt m c (t.val - 1) (Nat.lt_of_le_of_lt (Nat.sub_le _ _) t.isLt)).2.1,
      k0_pay6 (iblk m c 0 t) (rowsAt (grid0.coords t) ((hcond2 t).mpr h1) (iblk m c 1 t))
        (labsAt (grid0.coords t) ((hcond2 t).mpr h1) (iblk m c 3 t)) (iblk m c 2 t) (stAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

theorem stAt_C (c : Dev nD) (t : Fin cfg0.N) (h0 : ¬ t.val % 8 = 0) (h1 : ¬ t.val % 8 < 4) :
    stAt m c t.val t.isLt =
      (k0_pay8 (BitVec.ofNat 32 ((grid0.coords t) 0).val) (BitVec.ofNat 32 ((grid0.coords t) 2).val)
          (expTile m c ⟨t.val - 4, by have := t.isLt; omega⟩ (by show (t.val - 4) % 8 < 4; omega))
          (labsAtC (grid0.coords t) ((hcond3 t).mpr (by omega)) (iblk m c 3 t)) (iblk m c 2 t)
          (stAt m c (t.val - 1) (Nat.lt_of_le_of_lt (Nat.sub_le _ _) t.isLt)).2.2 (stAt m c (t.val - 1) (Nat.lt_of_le_of_lt (Nat.sub_le _ _) t.isLt)).1,
        k0_pay9 (BitVec.ofNat 32 ((grid0.coords t) 0).val) (BitVec.ofNat 32 ((grid0.coords t) 2).val)
          (labsAtC (grid0.coords t) ((hcond3 t).mpr (by omega)) (iblk m c 3 t)) (iblk m c 2 t)
          (stAt m c (t.val - 1) (Nat.lt_of_le_of_lt (Nat.sub_le _ _) t.isLt)).2.1,
        (stAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

/-! ## The output windows' buffers -/

/-- What output window 4's buffer holds at a point that does not open a row block: what the point before left in
    it — through an accumulate point the buffer is untouched and the recursion carries the value unchanged. -/
theorem before4_eq (c : Dev nD) : ∀ (n : ℕ) (hn : n < cfg0.N), n % 8 ≠ 0 → ∀ d,
    (dats m 0 c).before 4 ⟨n, hn⟩ d = (stAt m c (n - 1) (Nat.lt_of_le_of_lt (Nat.sub_le _ _) hn)).1
  | 0, _, h, _ => absurd (Nat.zero_mod _) h
  | n + 1, hn, h, d => by
    have hn' : n < cfg0.N := Nat.lt_of_succ_lt hn
    by_cases h0 : n % 8 = 0
    · exact ((dats m 0 c).before_out_step_live 4 rfl ⟨n + 1, hn⟩ (Nat.succ_ne_zero n)
        (noFlush4 ⟨n, hn'⟩ (by show n % 8 ≠ 7; omega)) (liveAt4_A ⟨n, hn'⟩ ((hcond1 ⟨n, hn'⟩).mpr h0)) (fun _ _ => rfl) d).trans
        (after4 m c ⟨n, hn'⟩)
    · by_cases h1 : n % 8 < 4
      · have ih := before4_eq c n hn' h0 d
        have hB := stAt_B m c ⟨n, hn'⟩ h0 h1
        exact (((dats m 0 c).before_out_step_idle 4 rfl ⟨n + 1, hn⟩ (Nat.succ_ne_zero n)
          (noFlush4 ⟨n, hn'⟩ (by show n % 8 ≠ 7; omega)) ((idle4_iff ⟨n, hn'⟩).mpr ⟨by show 0 < n % 8; omega, h1⟩) d).trans ih).trans
          (by rw [show stAt m c (n + 1 - 1) (Nat.lt_of_le_of_lt (Nat.sub_le _ _) hn) = stAt m c n hn' from rfl, hB])
      · exact ((dats m 0 c).before_out_step_live 4 rfl ⟨n + 1, hn⟩ (Nat.succ_ne_zero n)
          (noFlush4 ⟨n, hn'⟩ (by show n % 8 ≠ 7; omega)) (liveAt4_C ⟨n, hn'⟩ ((hcond3 ⟨n, hn'⟩).mpr (by show 4 ≤ n % 8; omega))) (fun _ _ => rfl) d).trans
          (after4 m c ⟨n, hn'⟩)

theorem before4 (c : Dev nD) (t : Fin cfg0.N) (ht : t.val % 8 ≠ 0) (d) :
    (dats m 0 c).before 4 t d = (stAt m c (t.val - 1) (Nat.lt_of_le_of_lt (Nat.sub_le _ _) t.isLt)).1 :=
  before4_eq m c t.val t.isLt ht d

/-- What output window 5's buffer holds at a point that does not open a row block: what the point before left in
    it — through an accumulate point the buffer is untouched and the recursion carries the value unchanged. -/
theorem before5_eq (c : Dev nD) : ∀ (n : ℕ) (hn : n < cfg0.N), n % 8 ≠ 0 → ∀ d,
    (dats m 0 c).before 5 ⟨n, hn⟩ d = (stAt m c (n - 1) (Nat.lt_of_le_of_lt (Nat.sub_le _ _) hn)).2.1
  | 0, _, h, _ => absurd (Nat.zero_mod _) h
  | n + 1, hn, h, d => by
    have hn' : n < cfg0.N := Nat.lt_of_succ_lt hn
    by_cases h0 : n % 8 = 0
    · exact ((dats m 0 c).before_out_step_live 5 rfl ⟨n + 1, hn⟩ (Nat.succ_ne_zero n)
        (noFlush5 ⟨n, hn'⟩ (by show n % 8 ≠ 7; omega)) (liveAt5_A ⟨n, hn'⟩ ((hcond1 ⟨n, hn'⟩).mpr h0)) (fun _ _ => rfl) d).trans
        (after5 m c ⟨n, hn'⟩)
    · by_cases h1 : n % 8 < 4
      · have ih := before5_eq c n hn' h0 d
        have hB := stAt_B m c ⟨n, hn'⟩ h0 h1
        exact (((dats m 0 c).before_out_step_idle 5 rfl ⟨n + 1, hn⟩ (Nat.succ_ne_zero n)
          (noFlush5 ⟨n, hn'⟩ (by show n % 8 ≠ 7; omega)) ((idle5_iff ⟨n, hn'⟩).mpr ⟨by show 0 < n % 8; omega, h1⟩) d).trans ih).trans
          (by rw [show stAt m c (n + 1 - 1) (Nat.lt_of_le_of_lt (Nat.sub_le _ _) hn) = stAt m c n hn' from rfl, hB])
      · exact ((dats m 0 c).before_out_step_live 5 rfl ⟨n + 1, hn⟩ (Nat.succ_ne_zero n)
          (noFlush5 ⟨n, hn'⟩ (by show n % 8 ≠ 7; omega)) (liveAt5_C ⟨n, hn'⟩ ((hcond3 ⟨n, hn'⟩).mpr (by show 4 ≤ n % 8; omega))) (fun _ _ => rfl) d).trans
          (after5 m c ⟨n, hn'⟩)

theorem before5 (c : Dev nD) (t : Fin cfg0.N) (ht : t.val % 8 ≠ 0) (d) :
    (dats m 0 c).before 5 t d = (stAt m c (t.val - 1) (Nat.lt_of_le_of_lt (Nat.sub_le _ _) t.isLt)).2.1 :=
  before5_eq m c t.val t.isLt ht d

/-! ## The wide scratch's tiles -/

theorem expTile_congr (c : Dev nD) {t₁ t₂ : Fin cfg0.N} (h : t₁ = t₂) (h₁ : t₁.val % 8 < 4) (h₂ : t₂.val % 8 < 4) :
    expTile m c t₁ h₁ = expTile m c t₂ h₂ := by subst h; rfl

/-- The offsets of the column tile, coordinate by coordinate. -/
theorem off3_0 (t : Fin cfg0.N) : k0_off3 (grid0.coords t) 0 = 0 := congrFun (hoff3 t) 0
theorem off3_1 (t : Fin cfg0.N) : k0_off3 (grid0.coords t) 1 = 1024 * (t.val % 4) := congrFun (hoff3 t) 1
theorem off4_0 (t : Fin cfg0.N) : k0_off4 (grid0.coords t) 0 = 0 := congrFun (hoff4 t) 0
theorem off4_1 (t : Fin cfg0.N) : k0_off4 (grid0.coords t) 1 = 1024 * (t.val % 4) := congrFun (hoff4 t) 1

/-- After a phase-0 point stores its tile, the tiles stored so far are the exponentials: the new tile is the store's
    payload, an earlier tile lies outside the stored columns and keeps what it held. -/
theorem tiles_store (c : Dev nD) (t : Fin cfg0.N) (h : t.val % 8 < 4) (f9 : scM0.view.ty.Contents (Elt F))
    (hprev : t.val % 8 ≠ 0 → tilesOk m c (t.val - 1) (Nat.lt_of_le_of_lt (Nat.sub_le _ _) t.isLt) (scM0.view.read (Elt F) f9)) :
    tilesOk m c t.val t.isLt (scM0.view.read (Elt F) (scM0.view.writes (Elt F) f9
      [⟨Rect.unit (s := S512x4096) (k0_off3 (grid0.coords t)) S512x1024.size (k0_off3_inb (grid0.coords t) ((hcond2 t).mpr h)),
        k0_pay5 (iblk m c 0 t) (rowsAt (grid0.coords t) ((hcond2 t).mpr h) (iblk m c 1 t))⟩])) := by
  intro j hj hj4 p q
  have hN : t.val < 64 := lt_of_lt_of_eq t.isLt N64
  have hq := q.isLt
  by_cases hjt : j = t.val % 8
  · refine (View.read_writes_cons_unit_of_mem scM0.view f9 _ _ [] _ (ix2 p q) rfl ?_).trans ?_
    · refine Fin.forall_fin_two.mpr ⟨?_, ?_⟩
      · show p.val = k0_off3 (grid0.coords t) 0 + p.val
        rw [off3_0]; omega
      · show 1024 * j + q.val = k0_off3 (grid0.coords t) 1 + q.val
        rw [off3_1]; omega
    · exact congrFun (expTile_congr m c (Fin.ext (by show t.val = 8 * (t.val / 8) + j; omega)) h _) (ix2 p q)
  · have hlt : j < t.val % 8 := lt_of_le_of_ne hj hjt
    have h0 : t.val % 8 ≠ 0 := by omega
    refine (View.read_writes_cons_unit_of_not_mem scM0.view f9 _ _ [] _ rfl 1 (Or.inl ?_)).trans ?_
    · show 1024 * j + q.val < k0_off3 (grid0.coords t) 1
      rw [off3_1]; omega
    · refine (hprev h0 j (by omega) hj4 p q).trans ?_
      exact congrFun (expTile_congr m c (Fin.ext (by show 8 * ((t.val - 1) / 8) + j = 8 * (t.val / 8) + j; omega)) _ _) (ix2 p q)

/-- Through a phase-1 point the wide scratch is only read: the tiles asked after it are those asked before it. -/
theorem tiles_keep (c : Dev nD) (t : Fin cfg0.N) (h : 4 ≤ t.val % 8) (X9 : Vec F S512x4096 .f32)
    (hprev : tilesOk m c (t.val - 1) (Nat.lt_of_le_of_lt (Nat.sub_le _ _) t.isLt) X9) : tilesOk m c t.val t.isLt X9 := by
  intro j hj hj4 p q
  have hN : t.val < 64 := lt_of_lt_of_eq t.isLt N64
  refine (hprev j (by omega) hj4 p q).trans ?_
  exact congrFun (expTile_congr m c (Fin.ext (by show 8 * ((t.val - 1) / 8) + j = 8 * (t.val / 8) + j; omega)) _ _) (ix2 p q)

/-- The tile a phase-1 point reads back is the tile of exponentials stored four points earlier. -/
theorem tile_read (c : Dev nD) (t : Fin cfg0.N) (h : 4 ≤ t.val % 8) (X9 : Vec F S512x4096 .f32)
    (hprev : tilesOk m c (t.val - 1) (Nat.lt_of_le_of_lt (Nat.sub_le _ _) t.isLt) X9) :
    tileAtC (grid0.coords t) ((hcond3 t).mpr h) X9
      = expTile m c ⟨t.val - 4, by have := t.isLt; omega⟩ (by show (t.val - 4) % 8 < 4; omega) := by
  have hN : t.val < 64 := lt_of_lt_of_eq t.isLt N64
  funext y
  obtain ⟨p, q, rfl⟩ : ∃ (p : Fin 512) (q : Fin 1024), y = ix2 p q := ⟨y 0, y 1, eq_ix2 y⟩
  have hq := q.isLt
  have hX := hprev (t.val % 4) (by omega) (by omega) p q
  refine Eq.trans ?_ (hX.trans (congrFun (expTile_congr m c (Fin.ext (by show 8 * ((t.val - 1) / 8) + t.val % 4 = t.val - 4; omega)) _ _) (ix2 p q)))
  show X9 _ = X9 _
  refine congrArg X9 (funext fun a => Fin.ext ?_)
  revert a
  refine Fin.forall_fin_two.mpr ⟨?_, ?_⟩
  · show k0_off4 (grid0.coords t) 0 + 1 * p.val = p.val
    rw [off4_0]; omega
  · show k0_off4 (grid0.coords t) 1 + 1 * q.val = 1024 * (t.val % 4) + q.val
    rw [off4_1]; omega

/-! ## The invariant, opened -/

/-- Before any point the two scratch buffers are held, at something. -/
theorem PhiS_weak (c : Dev nD) (n : ℕ) (h : n ≤ cfg0.N) :
    PhiS m c n h ⊢ iprop((∃ f9 : scM0.view.ty.Contents (Elt F), scM0.view.loc (c : Thread nD τ) ↦[scM0.view.set]{fullShare} f9)
      ∗ (∃ d, owns (c : Thread nD τ) scM1 fullShare d)) := by
  cases n with
  | zero =>
    rw [PhiS_zero m c 0 h rfl, scopedRest0_eq]
    simp only [scM0, scM1, owns_whole, View.set_whole, Memref.view_whole]
    exact Idealize.SL.BI.Entails.refl _
  | succ n =>
    rw [PhiS_succ]
    unfold owns
    iintro ⟨⟨%X9, ⟨%f9, -, H9⟩, -⟩, H10⟩
    isplitl [H9]
    · iexists f9; iexact H9
    iexists _; iexact H10

/-- Before a point that is not the first: the wide scratch at raw contents whose stored tiles are the exponentials, the
    denominator scratch at the recursion's value. -/
theorem PhiS_raw (c : Dev nD) (n : ℕ) (h : n ≤ cfg0.N) (hz : n ≠ 0) :
    PhiS m c n h ⊢ iprop((∃ f9 : scM0.view.ty.Contents (Elt F), (scM0.view.loc (c : Thread nD τ) ↦[scM0.view.set]{fullShare} f9)
        ∗ ⌜tilesOk m c (n - 1) (by omega) (scM0.view.read (Elt F) f9)⌝)
      ∗ owns (c : Thread nD τ) scM1 fullShare (stAt m c (n - 1) (by omega)).2.2) := by
  rw [PhiS_pos m c n h hz]
  unfold owns
  iintro ⟨⟨%X9, ⟨%f9, %hf, H9⟩, %hT⟩, H10⟩
  isplitl [H9]
  · iexists f9; isplitl [H9]; · iexact H9
    ipureintro; rw [hf]; exact hT
  iexact H10

/-! ## The body obligation, point by point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]
theorem leaves4_live (c : Dev nD) (t : Fin cfg0.N) (h : cfg0.idle 4 (grid0.coords t) = false) :
    (dats m 0 c).leavesExact 4 t = owns (c : Thread nD τ) (ms4 t) fullShare (stAt m c t.val t.isLt).1 := by
  unfold Dat.leavesExact; rw [h, after4]
theorem leaves5_live (c : Dev nD) (t : Fin cfg0.N) (h : cfg0.idle 5 (grid0.coords t) = false) :
    (dats m 0 c).leavesExact 5 t = owns (c : Thread nD τ) (ms5 t) fullShare (stAt m c t.val t.isLt).2.1 := by
  unfold Dat.leavesExact; rw [h, after5]

set_option maxHeartbeats 4000000 in
/-- A point that opens a row block: the reset and the first tile. -/
theorem sound_A (c : Dev nD) (t : Fin cfg0.N) (h0 : t.val % 8 = 0) :
    bodyPre m c t ⊢ wp frame (wpE (defs₀ (F := F)) Variants.none c none) Set.univ (bodyAt0 t) (fun _ => bodyPost m c t) := by
  have hc1 : k0_cond1 (grid0.coords t) = 1#1 := (hcond1 t).mpr h0
  have hc2 : k0_cond2 (grid0.coords t) = 1#1 := (hcond2 t).mpr (by omega)
  have hc3 : ¬ k0_cond3 (grid0.coords t) = 1#1 := fun h => by have := (hcond3 t).mp h; omega
  have hst := stAt_A m c t h0
  unfold bodyPre bodyPost bodyAt0
  simp only [before0, before1, before2, before3]
  rw [show (dats m 0 c).owesAt () t.succ = (dats m 0 c).owesAt () t.castSucc from rfl]
  rw [Phi_succ, PhiS_succ, Phi_castSucc, leaves0, leaves1, leaves2, leaves3,
    leaves4_live m c t (liveAt4_A t hc1), leaves5_live m c t (liveAt5_A t hc1)]
  iintro ⟨HP, Ho, ⟨%d0, H0⟩, ⟨%d1, H1⟩, ⟨%d2, H2⟩, ⟨%d3, H3⟩, ⟨%d4, H4⟩, ⟨%d5, H5⟩⟩
  icases (PhiS_weak m c _ _) $$ HP with ⟨⟨%f9, H9⟩, ⟨%d10, H10⟩⟩
  iapply ((kernelRun0_A c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t)).2.2.2.2 f9 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H9]; · iexact H9
  isplitl [H10]; · iexists _; iexact H10
  iintro ⟨H0, H1, H2, H3, ⟨%e7, H7⟩, ⟨%e8, H8⟩, H9, ⟨%e10, H10⟩⟩
  isplitl [H9 H10]
  · isplitl [H9]
    · iexists _; isplitl [H9]
      · unfold owns; iexists _; isplitr
        swap; · iexact H9
        ipureintro; rfl
      ipureintro
      rw [piecesA_9]
      exact tiles_store m c t (by omega) f9 (fun h => absurd h0 h)
    unfold owns; iexists _; isplitr
    swap; · iexact H10
    ipureintro
    exact (readA_10 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t) e10).trans (congrArg (fun x => x.2.2) hst).symm
  isplitl [Ho]; · iexact Ho
  isplitl [H0]; · iexact H0
  isplitl [H1]; · iexact H1
  isplitl [H2]; · iexact H2
  isplitl [H3]; · iexact H3
  isplitl [H7]
  · unfold owns; iexists _; isplitr
    swap; · iexact H7
    ipureintro
    exact (readA_7 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t) e7).trans (congrArg (fun x => x.1) hst).symm
  unfold owns; iexists _; isplitr
  swap; · iexact H8
  ipureintro
  exact (readA_8 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t) e8).trans (congrArg (fun x => x.2.1) hst).symm

set_option maxHeartbeats 4000000 in
/-- A later point of phase 0: one more tile; the outputs' buffers are not touched. -/
theorem sound_B (c : Dev nD) (t : Fin cfg0.N) (h0 : ¬ t.val % 8 = 0) (h1 : t.val % 8 < 4) :
    bodyPre m c t ⊢ wp frame (wpE (defs₀ (F := F)) Variants.none c none) Set.univ (bodyAt0 t) (fun _ => bodyPost m c t) := by
  have hc1 : ¬ k0_cond1 (grid0.coords t) = 1#1 := fun h => h0 ((hcond1 t).mp h)
  have hc2 : k0_cond2 (grid0.coords t) = 1#1 := (hcond2 t).mpr h1
  have hc3 : ¬ k0_cond3 (grid0.coords t) = 1#1 := fun h => by have := (hcond3 t).mp h; omega
  have hz : t.val ≠ 0 := fun h => h0 (by rw [h])
  have hst := stAt_B m c t h0 h1
  unfold bodyPre bodyPost bodyAt0
  simp only [before0, before1, before2, before3]
  rw [show (dats m 0 c).owesAt () t.succ = (dats m 0 c).owesAt () t.castSucc from rfl]
  rw [Phi_succ, PhiS_succ, Phi_castSucc, leaves0, leaves1, leaves2, leaves3,
    Dat.leavesExact_idle (dats m 0 c) 4 t (idleAt4_B t hc1 hc3) (noFlush4_B t hc3),
    Dat.leavesExact_idle (dats m 0 c) 5 t (idleAt5_B t hc1 hc3) (noFlush5_B t hc3)]
  iintro ⟨HP, Ho, ⟨%d0, H0⟩, ⟨%d1, H1⟩, ⟨%d2, H2⟩, ⟨%d3, H3⟩, H4, H5⟩
  icases (PhiS_raw m c _ _ hz) $$ HP with ⟨⟨%f9, H9, %hT⟩, H10⟩
  iapply ((kernelRun0_B c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t) (stAt m c (t.val - 1) (Nat.lt_of_le_of_lt (Nat.sub_le _ _) t.isLt)).2.2).2.2 f9 Set.univ _)
  isplitl [H0]; · iexact H0
  isplitl [H1]; · iexact H1
  isplitl [H2]; · iexact H2
  isplitl [H3]; · iexact H3
  isplitl [H9]; · iexact H9
  isplitl [H10]; · iexact H10
  iintro ⟨H0, H1, H2, H3, H9, ⟨%e10, H10⟩⟩
  isplitl [H9 H10]
  · isplitl [H9]
    · iexists _; isplitl [H9]
      · unfold owns; iexists _; isplitr
        swap; · iexact H9
        ipureintro; rfl
      ipureintro
      rw [piecesB_9]
      exact tiles_store m c t h1 f9 (fun _ => hT)
    unfold owns; iexists _; isplitr
    swap; · iexact H10
    ipureintro
    exact (readB_10 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t) (stAt m c (t.val - 1) (Nat.lt_of_le_of_lt (Nat.sub_le _ _) t.isLt)).2.2 e10).trans (congrArg (fun x => x.2.2) hst).symm
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- A point of phase 1: the tile is read back and the outputs accumulate; the scratch buffers are only read. -/
theorem sound_C (c : Dev nD) (t : Fin cfg0.N) (h0 : ¬ t.val % 8 = 0) (h1 : ¬ t.val % 8 < 4) :
    bodyPre m c t ⊢ wp frame (wpE (defs₀ (F := F)) Variants.none c none) Set.univ (bodyAt0 t) (fun _ => bodyPost m c t) := by
  have h4 : 4 ≤ t.val % 8 := by omega
  have hc1 : ¬ k0_cond1 (grid0.coords t) = 1#1 := fun h => h0 ((hcond1 t).mp h)
  have hc2 : ¬ k0_cond2 (grid0.coords t) = 1#1 := fun h => h1 ((hcond2 t).mp h)
  have hc3 : k0_cond3 (grid0.coords t) = 1#1 := (hcond3 t).mpr h4
  have hz : t.val ≠ 0 := fun h => h0 (by rw [h])
  have hst := stAt_C m c t h0 h1
  unfold bodyPre bodyPost bodyAt0
  simp only [before0, before1, before2, before3, before4 m c t h0, before5 m c t h0]
  rw [show (dats m 0 c).owesAt () t.succ = (dats m 0 c).owesAt () t.castSucc from rfl]
  rw [Phi_succ, PhiS_succ, Phi_castSucc, leaves0, leaves1, leaves2, leaves3,
    leaves4_live m c t (liveAt4_C t hc3), leaves5_live m c t (liveAt5_C t hc3)]
  iintro ⟨HP, Ho, ⟨%d0, H0⟩, ⟨%d1, H1⟩, ⟨%d2, H2⟩, ⟨%d3, H3⟩, ⟨%d4, H4⟩, ⟨%d5, H5⟩⟩
  icases (PhiS_raw m c _ _ hz) $$ HP with ⟨⟨%f9, H9, %hT⟩, H10⟩
  iapply ((kernelRun0_C c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 2 t) (iblk m c 3 t) (stAt m c (t.val - 1) (Nat.lt_of_le_of_lt (Nat.sub_le _ _) t.isLt)).1 (stAt m c (t.val - 1) (Nat.lt_of_le_of_lt (Nat.sub_le _ _) t.isLt)).2.1 f9 (stAt m c (t.val - 1) (Nat.lt_of_le_of_lt (Nat.sub_le _ _) t.isLt)).2.2).2.2 Set.univ _)
  isplitl [H2]; · iexact H2
  isplitl [H3]; · iexact H3
  isplitl [H4]; · iexact H4
  isplitl [H5]; · iexact H5
  isplitl [H9]; · iexact H9
  isplitl [H10]; · iexact H10
  iintro ⟨H2, H3, ⟨%e7, H7⟩, ⟨%e8, H8⟩, H9, H10⟩
  isplitl [H9 H10]
  · isplitl [H9]
    · iexists _; isplitl [H9]
      · unfold owns; iexists _; isplitr
        swap; · iexact H9
        ipureintro; rfl
      ipureintro
      exact tiles_keep m c t h4 _ hT
    rw [show (stAt m c t.val t.isLt).2.2 = (stAt m c (t.val - 1) (Nat.lt_of_le_of_lt (Nat.sub_le _ _) t.isLt)).2.2 from congrArg (fun x => x.2.2) hst]
    iexact H10
  isplitl [Ho]; · iexact Ho
  isplitl [H0]; · iexact H0
  isplitl [H1]; · iexact H1
  isplitl [H2]; · iexact H2
  isplitl [H3]; · iexact H3
  isplitl [H7]
  · unfold owns; iexists _; isplitr
    swap; · iexact H7
    ipureintro
    rw [readC_7 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 2 t) (iblk m c 3 t) (stAt m c (t.val - 1) (Nat.lt_of_le_of_lt (Nat.sub_le _ _) t.isLt)).1 (stAt m c (t.val - 1) (Nat.lt_of_le_of_lt (Nat.sub_le _ _) t.isLt)).2.1 f9 (stAt m c (t.val - 1) (Nat.lt_of_le_of_lt (Nat.sub_le _ _) t.isLt)).2.2 e7, tile_read m c t h4 _ hT]
    exact (congrArg (fun x => x.1) hst).symm
  unfold owns; iexists _; isplitr
  swap; · iexact H8
  ipureintro
  rw [readC_8 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 2 t) (iblk m c 3 t) (stAt m c (t.val - 1) (Nat.lt_of_le_of_lt (Nat.sub_le _ _) t.isLt)).1 (stAt m c (t.val - 1) (Nat.lt_of_le_of_lt (Nat.sub_le _ _) t.isLt)).2.1 f9 (stAt m c (t.val - 1) (Nat.lt_of_le_of_lt (Nat.sub_le _ _) t.isLt)).2.2 e8]
  exact (congrArg (fun x => x.2.1) hst).symm

/-- The body at any point, by the point's place in its row block. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0
  · by_cases h1 : t.val % 8 < 4
    · exact sound_B m c t h0 h1
    · exact sound_C m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KI.Launch.lean ====
/-
  The run of the idealized kernel program from proof data: host lines, the pallas_call region, host lines.

  Two input windows of the region (the row block and the resident column operand) stage one and the same array, the
  embeddings cast down once. The core's holdings of that array are therefore SPLIT between the two windows, each
  reading it at half the share, and joined again when the region is left; the two output arrays are held whole, and are
  the only arrays the host lines after the region read.
-/
import proofs.«169875_j63625645523217_2_alg».proof.Proof.Gen.KernelIdeal.Launch
import proofs.«169875_j63625645523217_2_alg».proof.Proof.Gen.KernelIdeal.Points
import Idealize.ShloMosaic.Lib.Pipeline.Frame
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the three host lines before it (the two reshapes of
    the labels and the cast of the embeddings). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-! ## The arrays, window by window -/

section Split

variable (dats : (p : Fin 1) → (c : Dev nD) → Dat τ (Elt F) Unit ℕ (UR sig nD τ) ℕ (cfgs p) c)

/-- One window's array, as the proof data holds it, is the buffer behind it at the window's share. -/
theorem arr_pt (c : Dev nD) (w : Fin 6) (q : PosShare TreeShare) (hq : (dats 0 c).share w = q)
    (f : Buf (Elt F) ((cfg0.win w).arr.view.loc (c.tc : Thread nD τ))) :
    ((cfg0.win w).arr.view.loc (c.tc : Thread nD τ) ↦[(cfg0.win w).arr.view.set]{(dats 0 c).share w} f : sProp 𝕄)
      = (((c.tc : Thread nD τ).loc (Pipeline.arrRef spec0 w)) ↦{q} f) := by
  rw [(arr_whole0 w).set_eq_univ, hq]

/-- The windows' arrays at contents `G`, one by one: the two readers of the shared array at its two halves. -/
theorem arrays_eq6 (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare) (c : Dev nD)
    (G : (w : Fin 6) → Buf (Elt F) ((cfg0.win w).arr.view.loc (c.tc : Thread nD τ))) :
    ((dats 0 c).arrays G : sProp 𝕄)
      = iprop((((c.tc : Thread nD τ).loc main_v2) ↦{fullShare.left} G 0) ∗ (((c.tc : Thread nD τ).loc main_v2) ↦{fullShare.right} G 1)
          ∗ (((c.tc : Thread nD τ).loc main_v0) ↦{fullShare} G 2) ∗ (((c.tc : Thread nD τ).loc main_v1) ↦{fullShare} G 3)
          ∗ (((c.tc : Thread nD τ).loc main_v3_0) ↦{fullShare} G 4) ∗ (((c.tc : Thread nD τ).loc main_v3_1) ↦{fullShare} G 5)) := by
  unfold Dat.arrays
  rw [bigSep_W0]
  rw [arr_pt dats c 0 fullShare.left (by unfold Dat.share; exact (hq0 c)), arr_pt dats c 1 fullShare.right (by unfold Dat.share; exact (hq1 c)),
    arr_pt dats c 2 fullShare (by unfold Dat.share; exact (hq2 c)), arr_pt dats c 3 fullShare (by unfold Dat.share; exact (hq3 c)),
    arr_pt dats c 4 fullShare rfl, arr_pt dats c 5 fullShare rfl]

/-- The distinct buffers behind the six windows' arrays are five: the shared one, the two label slabs, the two outputs. -/
theorem arrBufs_eq (c : Dev nD) (Vf : (b : Ref sig .tc) → Buf (Elt F) ((c.tc : Thread nD τ).loc b)) :
    (Pipeline.arrBufs spec0 c Vf : sProp 𝕄)
      = iprop((((c.tc : Thread nD τ).loc main_v2) ↦{fullShare} Vf main_v2) ∗ (((c.tc : Thread nD τ).loc main_v0) ↦{fullShare} Vf main_v0)
          ∗ (((c.tc : Thread nD τ).loc main_v1) ↦{fullShare} Vf main_v1) ∗ (((c.tc : Thread nD τ).loc main_v3_0) ↦{fullShare} Vf main_v3_0)
          ∗ (((c.tc : Thread nD τ).loc main_v3_1) ↦{fullShare} Vf main_v3_1)) :=
  bigSep_eq_bigSepL_of_eq [main_v2, main_v0, main_v1, main_v3_0, main_v3_1] (by decide) (by decide) _

/-- The buffers behind the windows' arrays, each whole at the full share at the region-entry contents, make the proof
    data's arrays at entry: the array two windows read is split into its two halves. -/
theorem hsplit_of (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  rw [arrays_eq6 dats hq0 hq1 hq2 hq3 c]
  rw [arrBufs_eq]
  rw [show (dats 0 c).arrAt 0 0 = V m c main_v2 from hA c 0, show (dats 0 c).arrAt 1 0 = V m c main_v2 from hA c 1,
    show (dats 0 c).arrAt 2 0 = V m c main_v0 from hA c 2, show (dats 0 c).arrAt 3 0 = V m c main_v1 from hA c 3,
    show (dats 0 c).arrAt 4 0 = V m c main_v3_0 from hA c 4, show (dats 0 c).arrAt 5 0 = V m c main_v3_1 from hA c 5]
  iintro ⟨H2, H0, H1, H30, H31⟩
  icases (pointsTo_share (PosShare.mem_left_op_right fullShare)).1 $$ H2 with ⟨H2l, H2r⟩
  isplitl [H2l]; · iexact H2l
  isplitl [H2r]; · iexact H2r
  isplitl [H0]; · iexact H0
  isplitl [H1]; · iexact H1
  isplitl [H30]; · iexact H30
  iexact H31

end Split

/-! ## The run from proof data -/

section Run

variable (dats : (p : Fin 1) → (c : Dev nD) → Dat τ (Elt F) Unit ℕ (UR sig nD τ) ℕ (cfgs p) c)

/-- The two output windows alone: theirs are the only arrays the lines after the region read. -/
abbrev winOut : Fin 2 → Pipeline.WinSpec sig grid0.rank := fun | 0 => spec0 4 | 1 => spec0 5 | ⟨_ + 2, h⟩ => absurd h (Nat.not_lt.2 (Nat.le_add_left _ _))

theorem winOut_inj : Function.Injective (Pipeline.arrRef winOut) := by decide

/-- The three input arrays, which the lines after the region leave aside. -/
abbrev Hin : Finset (Ref sig .tc) := {main_v0, main_v1, main_v2}

/-- The output arrays when the region is left. -/
def AOut (c : Dev nD) : (w : Fin 2) → Buf (Elt F) ((winOut w).arr.view.loc (c.tc : Thread nD τ))
  | 0 => (dats 0 c).arrAt 4 cfg0.N
  | 1 => (dats 0 c).arrAt 5 cfg0.N
  | ⟨_ + 2, h⟩ => absurd h (Nat.not_lt.2 (Nat.le_add_left _ _))

/-- Core `c`'s buffer contents at the end: the host lines after the region, from the region's exit contents. -/
def VEnd (c : Dev nD) : Valuation τ sig (Elt F) :=
  StableHlo.after (List.flatten [hostOps1]) (Pipeline.withArrays winOut c (V0 m c) (AOut dats c))

/-- What the run ends in: every window's array as the write-backs leave it, every other unscoped buffer as the lines
    after the region leave it. -/
def RunPost (r : PUnit × MemSt nD τ sig (Elt F)) : Prop := ∀ c : Dev nD,
  (∀ w, r.2.mem ((spec0 w).arr.view.loc (c.tc : Thread nD τ)) = (dats 0 c).arrAt w cfg0.N)
  ∧ ∀ b ∈ Pipeline.restRefs sig spec0, r.2.mem ((c.tc : Thread nD τ).loc b) = VEnd m dats c (Proc.devRef .tc b)

set_option backward.isDefEq.respectTransparency.types false in
theorem run_of
    (hbody : ∀ c, BodyObligationLoose (dats 0 c) (defs₀ (F := F)) Variants.none () Set.univ)
    (howed : ∀ c t, (dats 0 c).owed t = 0)
    (hsplit : ∀ c, (Pipeline.arrBufs spec0 c (V m c) : sProp 𝕄) ⊢ (dats 0 c).arrays ((dats 0 c).arrAt · 0))
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄))
    (htail : ∀ (c : Dev nD) (Q' : PUnit → sProp 𝕄),
      iprop((iprop((dats 0 c).arrays ((dats 0 c).arrAt · cfg0.N)
              ∗ Pipeline.unscopedRestP Pipeline.Prefetch.none spec0 c (fun b => VEnd m dats c (Proc.devRef .tc b))) -∗ Q' ⟨⟩)
          ∗ boundary (c.tc : Thread nD τ) ∗ (dats 0 c).arrays ((dats 0 c).arrAt · cfg0.N)
          ∗ Pipeline.unscopedRestP Pipeline.Prefetch.none spec0 c (V m c))
        ⊢ wp frame (wpE (defs (F := F)) (Variants.lift Variants.none) (c.tc : Thread nD τ) none) Set.univ (Pipeline.chain [StableHlo.seq hostOps1]) Q') :
    θ_run (defs (F := F)) (onTc (τ := τ) (main (F := F))) (s₀ m ρ) (RunPost m dats) := by
  classical
  exact Pipeline.θ_run_region_noSem_pf_tail (fun p => (cfgs p).toPCfg) (fun p => (cfgs p).toPCfg_adm) dats () cellOf_inj (0 : Fin 1)
    winFacts₀0 (Pipeline.PreFacts.none _) emb₁ defs₀ Variants.none m ρ main (fun _ => Pipeline.chain [StableHlo.seq hostOps1])
    hbody block_pos0 arr_whole0 stage_whole0 howed
    (u₀ := initOf (Pipeline.cells cfgs cellOf_inj) (Pipeline.launchToks cfgs cellOf_inj))
    (hu₀ := .rfl)
    (V := V m) (hmain := hmain m Variants.none)
    (hsplit := hsplit) (hpf := fun _ k => k.elim0)
    (X := fun _ => iprop(emp)) (Y := fun _ => iprop(emp))
    (Z := fun c => Pipeline.unscopedRestP Pipeline.Prefetch.none spec0 c (V m c))
    (Z' := fun c => Pipeline.unscopedRestP Pipeline.Prefetch.none spec0 c (fun b => VEnd m dats c (Proc.devRef .tc b)))
    (hX := fun c => by iintro H; isplitr; · iempintro
                       iexact H)
    (hin := fun c => (show _ ⊢ (Pipeline.scopedRest spec0 c : sProp 𝕄) by iintro ⟨-, -, H⟩; iexact H).trans (hin c))
    (hout := fun c => (hout c).trans (by iintro H; isplitr; · iempintro
                                         iexact H))
    (htail := htail)
    (QY := fun c s => ∀ b ∈ Pipeline.restRefsP sig Pipeline.Prefetch.none spec0, s.mem ((c.tc : Thread nD τ).loc b) = VEnd m dats c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => VEnd m dats c (Proc.devRef .tc b)) s')
      isplitl [HU] <;> iassumption)
    (hQ := fun s h c => ⟨(h c).1, fun b hb => (h c).2.2 b (by
      unfold Pipeline.restRefsP; exact Finset.mem_sdiff.mpr ⟨hb, fun hk => by
        obtain ⟨k, -, -⟩ := Finset.mem_image.mp hk; exact k.elim0⟩)⟩)

end Run

/-! ## The lines after the region -/

section Tail

variable (dats : (p : Fin 1) → (c : Dev nD) → Dat τ (Elt F) Unit ℕ (UR sig nD τ) ℕ (cfgs p) c)

/-- The buffers that bypass the six windows are those that bypass the two output windows, less the three input arrays. -/
theorem restRefsP_eq : Pipeline.restRefsP sig Pipeline.Prefetch.none spec0 = Pipeline.restRefsP sig Pipeline.Prefetch.none winOut \ Hin := by
  decide

/-- The bypassing buffers at contents `Vf`, as the set the lines after the region run within. -/
theorem unscopedRestP_eq (c : Dev nD) (Vf : (b : Ref sig .tc) → Buf (Elt F) ((c.tc : Thread nD τ).loc b)) :
    (Pipeline.unscopedRestP Pipeline.Prefetch.none spec0 c Vf : sProp 𝕄)
      = bigSep (Pipeline.restRefsP sig Pipeline.Prefetch.none winOut \ Hin) fun b => (((c.tc : Thread nD τ).loc b) ↦{fullShare} Vf b) := by
  rw [← restRefsP_eq]; rfl

/-- The two output arrays at contents `A`, one by one. -/
theorem arrPts_out (c : Dev nD) (A : (w : Fin 2) → Buf (Elt F) ((winOut w).arr.view.loc (c.tc : Thread nD τ))) :
    (Pipeline.arrPts winOut c A : sProp 𝕄)
      = iprop((((c.tc : Thread nD τ).loc main_v3_0) ↦{fullShare} A 0) ∗ (((c.tc : Thread nD τ).loc main_v3_1) ↦{fullShare} A 1)) :=
  bigSep_univ_eq_bigSepL [(0 : Fin 2), (1 : Fin 2)] (by decide) (by decide) _

/-- The lines after the region touch the two output arrays and the bypassing buffers only, and none of the inputs' arrays. -/
theorem tail_sub : ∀ ops ∈ ([hostOps1] : List (List (HloOp τ sig (Elt F)))), ∀ op ∈ ops,
    op.bufs ⊆ Pipeline.tailRefsBut sig Pipeline.Prefetch.none winOut Hin := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  intro b hb
  simp only [Finset.mem_insert, Finset.mem_singleton] at hb
  rcases hop with rfl | rfl | rfl | rfl | rfl | rfl | rfl <;> rcases hb with rfl | rfl | rfl <;>
    first
    | (rw [StableHlo.nullary_bufs]; simp only [Finset.mem_singleton]; exact StableHlo.devRef_ne_of_ne (by decide))
    | (rw [StableHlo.binary_bufs]; simp only [Finset.mem_insert, Finset.mem_singleton, not_or]
       exact ⟨StableHlo.devRef_ne_of_ne (by decide), StableHlo.devRef_ne_of_ne (by decide), StableHlo.devRef_ne_of_ne (by decide)⟩)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- They write neither output array (each writes its own result buffer only). -/
theorem tail_keeps : ∀ ops ∈ ([hostOps1] : List (List (HloOp τ sig (Elt F)))), ∀ op ∈ ops,
    ∀ w, Proc.devRef .tc (Pipeline.arrRef winOut w) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl | rfl | rfl
  all_goals intro w; fin_cases w <;> simp only [StableHlo.nullary_writes, StableHlo.binary_writes, Finset.mem_singleton] <;> exact StableHlo.devRef_ne_of_ne (by decide)

set_option backward.isDefEq.respectTransparency.types false in
/-- From the region's exit the lines after it run: the inputs' arrays are set aside, the two output arrays and the
    bypassing buffers are what the lines run within, and everything is handed back with the bypassing buffers at the
    lines' results. -/
theorem htail_of (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (c : Dev nD) (Q' : PUnit → sProp 𝕄) :
    iprop((iprop((dats 0 c).arrays ((dats 0 c).arrAt · cfg0.N)
            ∗ Pipeline.unscopedRestP Pipeline.Prefetch.none spec0 c (fun b => VEnd m dats c (Proc.devRef .tc b))) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (defs (F := F)) (Variants.lift Variants.none) (c.tc : Thread nD τ) none) Set.univ (Pipeline.chain [StableHlo.seq hostOps1]) Q' := by
  have hT := Pipeline.tail_seqs_but (Ix := Unit) (Name := ℕ) (U := UR sig nD τ) (Lvl := ℕ) (pcfgs (F := F)) defs₀ Variants.none Pipeline.Prefetch.none winOut winOut_inj Hin c (V0 m c) (AOut dats c)
    [hostOps1] tail_sub tail_fresh tail_keeps Q'
  rw [arrPts_out] at hT
  rw [arrays_eq6 dats hq0 hq1 hq2 hq3 c, unscopedRestP_eq, unscopedRestP_eq]
  iintro ⟨Hk, Hb, ⟨H2l, H2r, H0, H1, H30, H31⟩, HZ⟩
  iapply hT
  isplitr [Hb H30 H31 HZ]
  · iintro ⟨⟨H30, H31⟩, HZ⟩
    iapply Hk
    isplitr [HZ]
    · isplitl [H2l]; · iexact H2l
      isplitl [H2r]; · iexact H2r
      isplitl [H0]; · iexact H0
      isplitl [H1]; · iexact H1
      isplitl [H30]; · iexact H30
      iexact H31
    · iexact HZ
  isplitl [Hb]; · iexact Hb
  isplitr [HZ]
  · isplitl [H30]; · iexact H30
    iexact H31
  · iexact HZ

end Tail

end Cert.KernelIdeal.Hand

end
-- ==== Proof.KI.Conds.lean ====
/- The body's three branch conditions, its window offsets and the output windows' idle / write-back
   tables, each in closed form over the 64 grid points t = 8 i0 + 4 i1 + i2 (row block i0, phase i1,
   column tile i2) and decided over the grid. -/
import proofs.«169875_j63625645523217_2_alg».proof.Proof.Gen.KernelIdeal.Launch
import proofs.«169875_j63625645523217_2_alg».proof.Proof.Gen.KernelIdeal.Skeleton
import proofs.«169875_j63625645523217_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions -/

/-- The reset branch is taken at phase 0, tile 0: the points ≡ 0 (mod 8). -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulation branch is taken at phase 0: the points with t % 8 < 4. -/
theorem hcond2 : ∀ t : Fin cfg0.N, k0_cond2 (grid0.coords t) = 1#1 ↔ t.val % 8 < 4 :=
  (by decide +kernel : ∀ t : Fin grid0.N, k0_cond2 (grid0.coords t) = 1#1 ↔ t.val % 8 < 4)

/-- The loss branch is taken at phase 1: the points with 4 ≤ t % 8. -/
theorem hcond3 : ∀ t : Fin cfg0.N, k0_cond3 (grid0.coords t) = 1#1 ↔ 4 ≤ t.val % 8 :=
  (by decide +kernel : ∀ t : Fin grid0.N, k0_cond3 (grid0.coords t) = 1#1 ↔ 4 ≤ t.val % 8)

/-! ## The coordinates of a point -/

/-- The row block of point t. -/
theorem coord0 : ∀ t : Fin cfg0.N, ((grid0.coords t) 0).val = t.val / 8 :=
  (by decide +kernel : ∀ t : Fin grid0.N, ((grid0.coords t) 0).val = t.val / 8)
/-- The phase of point t. -/
theorem coord1 : ∀ t : Fin cfg0.N, ((grid0.coords t) 1).val = t.val / 4 % 2 :=
  (by decide +kernel : ∀ t : Fin grid0.N, ((grid0.coords t) 1).val = t.val / 4 % 2)
/-- The column tile of point t. -/
theorem coord2 : ∀ t : Fin cfg0.N, ((grid0.coords t) 2).val = t.val % 4 :=
  (by decide +kernel : ∀ t : Fin grid0.N, ((grid0.coords t) 2).val = t.val % 4)

/-! ## The offsets (they read the column tile only) -/

theorem hoff1 : ∀ t : Fin cfg0.N, k0_off1 (grid0.coords t) = ![1024 * (t.val % 4), 0] :=
  (by decide +kernel : ∀ t : Fin grid0.N, k0_off1 (grid0.coords t) = ![1024 * (t.val % 4), 0])
theorem hoff2 : ∀ t : Fin cfg0.N, k0_off2 (grid0.coords t) = ![0, 1024 * (t.val % 4)] :=
  (by decide +kernel : ∀ t : Fin grid0.N, k0_off2 (grid0.coords t) = ![0, 1024 * (t.val % 4)])
theorem hoff3 : ∀ t : Fin cfg0.N, k0_off3 (grid0.coords t) = ![0, 1024 * (t.val % 4)] :=
  (by decide +kernel : ∀ t : Fin grid0.N, k0_off3 (grid0.coords t) = ![0, 1024 * (t.val % 4)])
theorem hoff4 : ∀ t : Fin cfg0.N, k0_off4 (grid0.coords t) = ![0, 1024 * (t.val % 4)] :=
  (by decide +kernel : ∀ t : Fin grid0.N, k0_off4 (grid0.coords t) = ![0, 1024 * (t.val % 4)])
theorem hoff5 : ∀ t : Fin cfg0.N, k0_off5 (grid0.coords t) = ![0, 1024 * (t.val % 4)] :=
  (by decide +kernel : ∀ t : Fin grid0.N, k0_off5 (grid0.coords t) = ![0, 1024 * (t.val % 4)])

/-! ## Where the windows are idle, and where the outputs are written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel

/-- Case A (reset and accumulate): both outputs are stored into. -/
theorem liveAt4_A : ∀ t : Fin cfg0.N, k0_cond1 (grid0.coords t) = 1#1 → cfg0.idle 4 (grid0.coords t) = false := by decide +kernel
theorem liveAt5_A : ∀ t : Fin cfg0.N, k0_cond1 (grid0.coords t) = 1#1 → cfg0.idle 5 (grid0.coords t) = false := by decide +kernel
/-- Case B (accumulate only): neither output is stored into, and neither is written back there. -/
theorem idleAt4_B : ∀ t : Fin cfg0.N, ¬ k0_cond1 (grid0.coords t) = 1#1 → ¬ k0_cond3 (grid0.coords t) = 1#1 → cfg0.idle 4 (grid0.coords t) = true := by decide +kernel
theorem idleAt5_B : ∀ t : Fin cfg0.N, ¬ k0_cond1 (grid0.coords t) = 1#1 → ¬ k0_cond3 (grid0.coords t) = 1#1 → cfg0.idle 5 (grid0.coords t) = true := by decide +kernel
theorem noFlush4_B : ∀ t : Fin cfg0.N, ¬ k0_cond3 (grid0.coords t) = 1#1 → (cfg0.win 4).flush t = false := by decide +kernel
theorem noFlush5_B : ∀ t : Fin cfg0.N, ¬ k0_cond3 (grid0.coords t) = 1#1 → (cfg0.win 5).flush t = false := by decide +kernel
/-- Case C (the loss phase): both outputs are stored into. -/
theorem liveAt4_C : ∀ t : Fin cfg0.N, k0_cond3 (grid0.coords t) = 1#1 → cfg0.idle 4 (grid0.coords t) = false := by decide +kernel
theorem liveAt5_C : ∀ t : Fin cfg0.N, k0_cond3 (grid0.coords t) = 1#1 → cfg0.idle 5 (grid0.coords t) = false := by decide +kernel
/-- In closed form: an output is idle exactly at the points 1, 2, 3 (mod 8). -/
theorem idle4_iff : ∀ t : Fin cfg0.N, cfg0.idle 4 (grid0.coords t) = true ↔ (0 < t.val % 8 ∧ t.val % 8 < 4) := by decide +kernel
theorem idle5_iff : ∀ t : Fin cfg0.N, cfg0.idle 5 (grid0.coords t) = true ↔ (0 < t.val % 8 ∧ t.val % 8 < 4) := by decide +kernel
/-- The outputs' block index is the row block alone: each is written back at the last point of its row
    block, the points ≡ 7 (mod 8) (`Gen.flush0_4`, `Gen.flush0_5`); restated as the negative. -/
theorem noFlush4 : ∀ t : Fin cfg0.N, t.val % 8 ≠ 7 → (cfg0.win 4).flush t = false := by decide +kernel
theorem noFlush5 : ∀ t : Fin cfg0.N, t.val % 8 ≠ 7 → (cfg0.win 5).flush t = false := by decide +kernel

/-- The three cases exhaust the grid: every point is in exactly one. -/
theorem cases_exhaust : ∀ t : Fin cfg0.N,
    (k0_cond1 (grid0.coords t) = 1#1 ∧ k0_cond2 (grid0.coords t) = 1#1 ∧ ¬ k0_cond3 (grid0.coords t) = 1#1) ∨
    (¬ k0_cond1 (grid0.coords t) = 1#1 ∧ k0_cond2 (grid0.coords t) = 1#1 ∧ ¬ k0_cond3 (grid0.coords t) = 1#1) ∨
    (¬ k0_cond1 (grid0.coords t) = 1#1 ∧ ¬ k0_cond2 (grid0.coords t) = 1#1 ∧ k0_cond3 (grid0.coords t) = 1#1) := by decide +kernel

end Cert.KernelIdeal.Hand

end
-- ==== Proof.KI.RunB.lean ====
/- The body's run at the points of phase 0 past tile 0 (the accumulation branch alone): the tile of
   exp(scaled logits) is stored into its columns of the wide scratch, whose other columns keep what
   they held, and its masked row sums are added to the denominator scratch. -/
import proofs.«169875_j63625645523217_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Case B: the reset branch and the loss branch not taken, the accumulation branch taken. The inputs
    are held at their contents and returned so; the wide scratch `arg9` is held at raw contents `f9`
    and returned with the run's pieces written over them; the denominator scratch `arg10` is held at
    `s1` and returned with the run's pieces written. The outputs `arg7`, `arg8` are not touched. -/
noncomputable def kernelRun0_B (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : k0_cond2 i = 1#1) (hc3 : ¬ k0_cond3 i = 1#1)
    (x0 : Vec F S512x512 .bf16) (x1 : Vec F S4096x512 .bf16) (x2 : Vec F S512x1 .i32) (x3 : Vec F S1x4096 .i32) (s1 : Vec F S512x1 .f32) :
    Σ' (L10 : List (View.Piece (Elt F) S512x1 .f32)), { L9 : List (View.Piece (Elt F) S512x4096 .f32) //
      ∀ (f9 : arg9.view.ty.Contents (Elt F)) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (arg9.view.loc (c : Thread nD τ) ↦[arg9.view.set]{fullShare} f9) ∗ owns (c : Thread nD τ) arg10 fullShare s1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (arg9.view.loc (c : Thread nD τ) ↦[arg9.view.set]{fullShare} arg9.view.writes (Elt F) f9 L9) ∗ (∃ f, arg10.view.loc (c : Thread nD τ) ↦[arg10.view.set]{fullShare} arg10.view.writes (Elt F) f L10)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, fun f9 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, H9, ⟨%f10, %hf10, H10⟩, Hk⟩
    obtain rfl := harg3.eq_unread hf0; obtain rfl := harg4.eq_unread hf1; obtain rfl := harg5.eq_unread hf2
    obtain rfl := harg6.eq_unread hf3; obtain rfl := harg10.eq_unread hf10
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H9]; · iexact H9
    iexists _; iexact H10

end Cert.KernelIdeal.Hand

end
-- ==== Proof.KI.RunA.lean ====
/- The body's run at the first point of each row block (phase 0, tile 0): the denominator scratch and
   both outputs are reset to zero, then the accumulation branch runs as at the other tiles of phase 0. -/
import proofs.«169875_j63625645523217_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Case A: the reset branch and the accumulation branch taken, the loss branch not. The inputs are
    held at their contents and returned so; the outputs `arg7`, `arg8` and the denominator scratch
    `arg10` are held at anything and returned with the run's pieces written; the wide scratch `arg9`
    is held at raw contents `f9` and returned with the run's pieces written over them. -/
noncomputable def kernelRun0_A (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1)
    (x0 : Vec F S512x512 .bf16) (x1 : Vec F S4096x512 .bf16) (x2 : Vec F S512x1 .i32) (x3 : Vec F S1x4096 .i32) :
    Σ' (L7 L8 L10 : List (View.Piece (Elt F) S512x1 .f32)), { L9 : List (View.Piece (Elt F) S512x4096 .f32) //
      ∀ (f9 : arg9.view.ty.Contents (Elt F)) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d)
            ∗ (arg9.view.loc (c : Thread nD τ) ↦[arg9.view.set]{fullShare} f9) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (arg9.view.loc (c : Thread nD τ) ↦[arg9.view.set]{fullShare} arg9.view.writes (Elt F) f9 L9) ∗ (∃ f, arg10.view.loc (c : Thread nD τ) ↦[arg10.view.set]{fullShare} arg10.view.writes (Elt F) f L10)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, ?_, ?_, fun f9 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, H9, ⟨%d10, %f10, -, H10⟩, Hk⟩
    obtain rfl := harg3.eq_unread hf0; obtain rfl := harg4.eq_unread hf1; obtain rfl := harg5.eq_unread hf2
    obtain rfl := harg6.eq_unread hf3
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    isplitl [H9]; · iexact H9
    iexists _; iexact H10

end Cert.KernelIdeal.Hand

end
-- ==== Proof.KI.RunC.lean ====
/- The body's run at the points of phase 1 (the loss branch alone): the tile of the wide scratch stored
   at phase 0 is read back, log(denominator + e) - log e is formed from it and the denominator scratch,
   and its masked row sums and the mask's row counts are added into the two outputs. -/
import proofs.«169875_j63625645523217_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Case C: the reset and accumulation branches not taken, the loss branch taken. The label inputs
    `arg5`, `arg6` are held at their contents and returned so; the wide scratch `arg9` is held at raw
    contents `f9` and the denominator scratch `arg10` at `s1`, both only read and returned as they
    were; the outputs `arg7`, `arg8` are held at `o4`, `o5` and returned with the run's pieces written.
    The embedding inputs `arg3`, `arg4` are not touched. -/
noncomputable def kernelRun0_C (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : ¬ k0_cond2 i = 1#1) (hc3 : k0_cond3 i = 1#1)
    (x2 : Vec F S512x1 .i32) (x3 : Vec F S1x4096 .i32) (o4 o5 : Vec F S512x1 .f32)
    (f9 : arg9.view.ty.Contents (Elt F)) (s1 : Vec F S512x1 .f32) :
    Σ' (L7 : List (View.Piece (Elt F) S512x1 .f32)), { L8 : List (View.Piece (Elt F) S512x1 .f32) //
      ∀ (E : Set ℕ) (K : PUnit → sProp 𝕄),
        iprop(owns (c : Thread nD τ) arg5 fullShare x2 ∗ owns (c : Thread nD τ) arg6 fullShare x3
            ∗ owns (c : Thread nD τ) arg7 fullShare o4 ∗ owns (c : Thread nD τ) arg8 fullShare o5
            ∗ (arg9.view.loc (c : Thread nD τ) ↦[arg9.view.set]{fullShare} f9) ∗ owns (c : Thread nD τ) arg10 fullShare s1
            ∗ (iprop(owns (c : Thread nD τ) arg5 fullShare x2 ∗ owns (c : Thread nD τ) arg6 fullShare x3
                ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (arg9.view.loc (c : Thread nD τ) ↦[arg9.view.set]{fullShare} f9) ∗ owns (c : Thread nD τ) arg10 fullShare s1) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f2, %hf2, H2⟩, ⟨%f3, %hf3, H3⟩, ⟨%f7, %hf7, H7⟩, ⟨%f8, %hf8, H8⟩, H9, ⟨%f10, %hf10, H10⟩, Hk⟩
    obtain rfl := harg5.eq_unread hf2; obtain rfl := harg6.eq_unread hf3; obtain rfl := harg7.eq_unread hf7
    obtain rfl := harg8.eq_unread hf8; obtain rfl := harg10.eq_unread hf10
    sl_exec (disch := first | sl_exact hc1 | sl_exact hc2 | sl_exact hc3)
    sl_step
    iapply Hk
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    isplitl [H9]; · iexact H9
    iexists _; isplitr; · ipureintro; exact harg10.read_unread _
    iexact H10

end Cert.KernelIdeal.Hand

end
-- ==== Proof.KI.Pieces.lean ====
/- What the runs' pieces are: for each buffer a case stores whole, what it reads after the case (the
   payload of the last store, whatever it held before), and for the wide scratch the one piece the
   accumulation branch stores. The loads are stated as the blocks' contents at the rectangles read. -/
import proofs.«169875_j63625645523217_2_alg».proof.Proof.KI.RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the branches read, as contents -/

/-- The 1024 rows of the embedding block that the column tile's matmul reads. -/
abbrev rowsAt (i : grid0.Coords) (h2 : k0_cond2 i = 1#1) (x1 : Vec F S4096x512 .bf16) : Vec F S1024x512 .bf16 :=
  View.ld x1 (Rect.unit (s := S4096x512) (k0_off1 i) S1024x512.size (k0_off1_inb i h2))
/-- The column tile's 1024 labels, as the accumulation branch reads them. -/
abbrev labsAt (i : grid0.Coords) (h2 : k0_cond2 i = 1#1) (x3 : Vec F S1x4096 .i32) : Vec F S1x1024 .i32 :=
  View.ld x3 (Rect.unit (s := S1x4096) (k0_off2 i) S1x1024.size (k0_off2_inb i h2))
/-- The same labels, as the loss branch reads them. -/
abbrev labsAtC (i : grid0.Coords) (h3 : k0_cond3 i = 1#1) (x3 : Vec F S1x4096 .i32) : Vec F S1x1024 .i32 :=
  View.ld x3 (Rect.unit (s := S1x4096) (k0_off5 i) S1x1024.size (k0_off5_inb i h3))
/-- The column tile of the wide scratch, as the loss branch reads it back. -/
abbrev tileAtC (i : grid0.Coords) (h3 : k0_cond3 i = 1#1) (X9 : Vec F S512x4096 .f32) : Vec F S512x1024 .f32 :=
  View.ld X9 (Rect.unit (s := S512x4096) (k0_off4 i) S512x1024.size (k0_off4_inb i h3))

theorem hz2 : (![0, 0] : Fin 2 → ℕ) = fun _ => 0 := by funext a; fin_cases a <;> rfl

/-! ## Case B: the accumulation branch alone -/

/-- The one piece case B stores into the wide scratch: the tile of exponentials at the tile's columns. -/
theorem piecesB_9 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (s1 : Vec F S512x1 .f32) :
    (kernelRun0_B c i arg3 harg3 arg4 harg4 arg5 harg5 arg6 harg6 arg7 harg7 arg8 harg8 arg9 harg9 arg10 harg10 hc1 hc2 hc3 x0 x1 x2 x3 s1).2.1
      = [⟨Rect.unit (s := S512x4096) (k0_off3 i) S512x1024.size (k0_off3_inb i hc2), k0_pay5 x0 (rowsAt i hc2 x1)⟩] := by
  unfold kernelRun0_B
  dsimp only
  simp only [View.readAt_eq_ld, Memref.IsWhole.read_unread, View.ld_unit_zero (S := S512x512) hz2]

theorem coverB_10 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (s1 : Vec F S512x1 .f32) (y : S512x1.Idx) :
    ∃ pc ∈ (kernelRun0_B c i arg3 harg3 arg4 harg4 arg5 harg5 arg6 harg6 arg7 harg7 arg8 harg8 arg9 harg9 arg10 harg10 hc1 hc2 hc3 x0 x1 x2 x3 s1).1, y ∈ pc.1.set :=
  View.cover_of_tiledL (kernelRun0_B c i arg3 harg3 arg4 harg4 arg5 harg5 arg6 harg6 arg7 harg7 arg8 harg8 arg9 harg9 arg10 harg10 hc1 hc2 hc3 x0 x1 x2 x3 s1).1 S512x1.size (by sl_kernel_rfl) y

/-- After case B the denominator scratch reads the tile's masked row sums added to what it held. -/
theorem readB_10 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (s1 : Vec F S512x1 .f32) (f : arg10.view.ty.Contents (Elt F)) :
    arg10.view.read (Elt F) (arg10.view.writes (Elt F) f (kernelRun0_B c i arg3 harg3 arg4 harg4 arg5 harg5 arg6 harg6 arg7 harg7 arg8 harg8 arg9 harg9 arg10 harg10 hc1 hc2 hc3 x0 x1 x2 x3 s1).1)
      = k0_pay6 x0 (rowsAt i hc2 x1) (labsAt i hc2 x3) x2 s1 := by
  rw [View.read_writes_eq_canon _ _ _ (coverB_10 c i arg3 harg3 arg4 harg4 arg5 harg5 arg6 harg6 arg7 harg7 arg8 harg8 arg9 harg9 arg10 harg10 hc1 hc2 hc3 x0 x1 x2 x3 s1)]
  unfold kernelRun0_B
  dsimp only
  rw [View.canon_unit_zero hz2]
  simp only [View.readAt_eq_ld, Memref.IsWhole.read_unread, View.ld_unit_zero (S := S512x512) hz2, View.ld_unit_zero (S := S512x1) hz2]

/-! ## Case A: reset, then the accumulation branch -/

theorem piecesA_9 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) :
    (kernelRun0_A c i arg3 harg3 arg4 harg4 arg5 harg5 arg6 harg6 arg7 harg7 arg8 harg8 arg9 harg9 arg10 harg10 hc1 hc2 hc3 x0 x1 x2 x3).2.2.2.1
      = [⟨Rect.unit (s := S512x4096) (k0_off3 i) S512x1024.size (k0_off3_inb i hc2), k0_pay5 x0 (rowsAt i hc2 x1)⟩] := by
  unfold kernelRun0_A
  dsimp only
  simp only [View.readAt_eq_ld, Memref.IsWhole.read_unread, View.ld_unit_zero (S := S512x512) hz2]

theorem coverA_7 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (y : S512x1.Idx) :
    ∃ pc ∈ (kernelRun0_A c i arg3 harg3 arg4 harg4 arg5 harg5 arg6 harg6 arg7 harg7 arg8 harg8 arg9 harg9 arg10 harg10 hc1 hc2 hc3 x0 x1 x2 x3).1, y ∈ pc.1.set :=
  View.cover_of_tiledL (kernelRun0_A c i arg3 harg3 arg4 harg4 arg5 harg5 arg6 harg6 arg7 harg7 arg8 harg8 arg9 harg9 arg10 harg10 hc1 hc2 hc3 x0 x1 x2 x3).1 S512x1.size (by sl_kernel_rfl) y
theorem coverA_8 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (y : S512x1.Idx) :
    ∃ pc ∈ (kernelRun0_A c i arg3 harg3 arg4 harg4 arg5 harg5 arg6 harg6 arg7 harg7 arg8 harg8 arg9 harg9 arg10 harg10 hc1 hc2 hc3 x0 x1 x2 x3).2.1, y ∈ pc.1.set :=
  View.cover_of_tiledL (kernelRun0_A c i arg3 harg3 arg4 harg4 arg5 harg5 arg6 harg6 arg7 harg7 arg8 harg8 arg9 harg9 arg10 harg10 hc1 hc2 hc3 x0 x1 x2 x3).2.1 S512x1.size (by sl_kernel_rfl) y
theorem coverA_10 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (y : S512x1.Idx) :
    ∃ pc ∈ (kernelRun0_A c i arg3 harg3 arg4 harg4 arg5 harg5 arg6 harg6 arg7 harg7 arg8 harg8 arg9 harg9 arg10 harg10 hc1 hc2 hc3 x0 x1 x2 x3).2.2.1, y ∈ pc.1.set :=
  View.cover_of_tiledL (kernelRun0_A c i arg3 harg3 arg4 harg4 arg5 harg5 arg6 harg6 arg7 harg7 arg8 harg8 arg9 harg9 arg10 harg10 hc1 hc2 hc3 x0 x1 x2 x3).2.2.1 S512x1.size (by sl_kernel_rfl) y

/-- After case A the first output reads zero. -/
theorem readA_7 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (f : arg7.view.ty.Contents (Elt F)) :
    arg7.view.read (Elt F) (arg7.view.writes (Elt F) f (kernelRun0_A c i arg3 harg3 arg4 harg4 arg5 harg5 arg6 harg6 arg7 harg7 arg8 harg8 arg9 harg9 arg10 harg10 hc1 hc2 hc3 x0 x1 x2 x3).1) = k0_pay2 := by
  rw [View.read_writes_eq_canon _ _ _ (coverA_7 c i arg3 harg3 arg4 harg4 arg5 harg5 arg6 harg6 arg7 harg7 arg8 harg8 arg9 harg9 arg10 harg10 hc1 hc2 hc3 x0 x1 x2 x3)]
  unfold kernelRun0_A
  dsimp only
  rw [View.canon_unit_zero hz2]

/-- After case A the second output reads zero. -/
theorem readA_8 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (f : arg8.view.ty.Contents (Elt F)) :
    arg8.view.read (Elt F) (arg8.view.writes (Elt F) f (kernelRun0_A c i arg3 harg3 arg4 harg4 arg5 harg5 arg6 harg6 arg7 harg7 arg8 harg8 arg9 harg9 arg10 harg10 hc1 hc2 hc3 x0 x1 x2 x3).2.1) = k0_pay3 := by
  rw [View.read_writes_eq_canon _ _ _ (coverA_8 c i arg3 harg3 arg4 harg4 arg5 harg5 arg6 harg6 arg7 harg7 arg8 harg8 arg9 harg9 arg10 harg10 hc1 hc2 hc3 x0 x1 x2 x3)]
  unfold kernelRun0_A
  dsimp only
  rw [View.canon_unit_zero hz2]

/-- After case A the denominator scratch reads the tile's masked row sums added to zero. -/
theorem readA_10 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : k0_cond1 i = 1#1) (hc2 : k0_cond2 i = 1#1) (hc3 : ¬ k0_cond3 i = 1#1) (x0 : Vec F S512x512 .bf16) (x1 : Vec F S4096x512 .bf16) (x2 : Vec F S512x1 .i32) (x3 : Vec F S1x4096 .i32) (f : arg10.view.ty.Contents (Elt F)) :
    arg10.view.read (Elt F) (arg10.view.writes (Elt F) f (kernelRun0_A c i arg3 harg3 arg4 harg4 arg5 harg5 arg6 harg6 arg7 harg7 arg8 harg8 arg9 harg9 arg10 harg10 hc1 hc2 hc3 x0 x1 x2 x3).2.2.1)
      = k0_pay6 x0 (rowsAt i hc2 x1) (labsAt i hc2 x3) x2 k0_pay1 := by
  rw [View.read_writes_eq_canon _ _ _ (coverA_10 c i arg3 harg3 arg4 harg4 arg5 harg5 arg6 harg6 arg7 harg7 arg8 harg8 arg9 harg9 arg10 harg10 hc1 hc2 hc3 x0 x1 x2 x3)]
  unfold kernelRun0_A
  dsimp only
  rw [View.canon_cons_unit_zero hz2]
  sl_unfold_run_names
  rw [View.readCov_unit_zero _ hz2]
  simp only [View.readAt_eq_ld, Memref.IsWhole.read_unread, View.ld_unit_zero (S := S512x512) hz2, View.ld_unit_zero (S := S512x1) hz2]

/-! ## Case C: the loss branch -/

theorem coverC_7 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : ¬ k0_cond2 i = 1#1) (hc3 : k0_cond3 i = 1#1) (x2 : Vec F S512x1 .i32) (x3 : Vec F S1x4096 .i32) (o4 o5 : Vec F S512x1 .f32) (f9 : arg9.view.ty.Contents (Elt F)) (s1 : Vec F S512x1 .f32) (y : S512x1.Idx) :
    ∃ pc ∈ (kernelRun0_C c i arg3 harg3 arg4 harg4 arg5 harg5 arg6 harg6 arg7 harg7 arg8 harg8 arg9 harg9 arg10 harg10 hc1 hc2 hc3 x2 x3 o4 o5 f9 s1).1, y ∈ pc.1.set :=
  View.cover_of_tiledL (kernelRun0_C c i arg3 harg3 arg4 harg4 arg5 harg5 arg6 harg6 arg7 harg7 arg8 harg8 arg9 harg9 arg10 harg10 hc1 hc2 hc3 x2 x3 o4 o5 f9 s1).1 S512x1.size (by sl_kernel_rfl) y
theorem coverC_8 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : ¬ k0_cond2 i = 1#1) (hc3 : k0_cond3 i = 1#1) (x2 : Vec F S512x1 .i32) (x3 : Vec F S1x4096 .i32) (o4 o5 : Vec F S512x1 .f32) (f9 : arg9.view.ty.Contents (Elt F)) (s1 : Vec F S512x1 .f32) (y : S512x1.Idx) :
    ∃ pc ∈ (kernelRun0_C c i arg3 harg3 arg4 harg4 arg5 harg5 arg6 harg6 arg7 harg7 arg8 harg8 arg9 harg9 arg10 harg10 hc1 hc2 hc3 x2 x3 o4 o5 f9 s1).2.1, y ∈ pc.1.set :=
  View.cover_of_tiledL (kernelRun0_C c i arg3 harg3 arg4 harg4 arg5 harg5 arg6 harg6 arg7 harg7 arg8 harg8 arg9 harg9 arg10 harg10 hc1 hc2 hc3 x2 x3 o4 o5 f9 s1).2.1 S512x1.size (by sl_kernel_rfl) y

/-- After case C the first output reads the tile's masked row sums of log(denominator + e) - log e,
    added to what it held. -/
theorem readC_7 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : ¬ k0_cond2 i = 1#1) (hc3 : k0_cond3 i = 1#1) (x2 : Vec F S512x1 .i32) (x3 : Vec F S1x4096 .i32) (o4 o5 : Vec F S512x1 .f32) (f9 : arg9.view.ty.Contents (Elt F)) (s1 : Vec F S512x1 .f32) (f : arg7.view.ty.Contents (Elt F)) :
    arg7.view.read (Elt F) (arg7.view.writes (Elt F) f (kernelRun0_C c i arg3 harg3 arg4 harg4 arg5 harg5 arg6 harg6 arg7 harg7 arg8 harg8 arg9 harg9 arg10 harg10 hc1 hc2 hc3 x2 x3 o4 o5 f9 s1).1)
      = k0_pay8 (BitVec.ofNat 32 (i 0).val) (BitVec.ofNat 32 (i 2).val) (tileAtC i hc3 (arg9.view.read (Elt F) f9)) (labsAtC i hc3 x3) x2 s1 o4 := by
  rw [View.read_writes_eq_canon _ _ _ (coverC_7 c i arg3 harg3 arg4 harg4 arg5 harg5 arg6 harg6 arg7 harg7 arg8 harg8 arg9 harg9 arg10 harg10 hc1 hc2 hc3 x2 x3 o4 o5 f9 s1)]
  unfold kernelRun0_C
  dsimp only
  rw [View.canon_unit_zero hz2]
  sl_unfold_run_names
  simp only [View.readAt_eq_ld, Memref.IsWhole.read_unread, View.ld_unit_zero (S := S512x1) hz2]
  first | done | rfl

/-- After case C the second output reads the tile's row counts of the mask, added to what it held. -/
theorem readC_8 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S512x1 .i32) (harg5 : arg5.IsWhole) (arg6 : Memref sig .tc .vmem S1x4096 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x1 .f32) (harg10 : arg10.IsWhole)
    (hc1 : ¬ k0_cond1 i = 1#1) (hc2 : ¬ k0_cond2 i = 1#1) (hc3 : k0_cond3 i = 1#1) (x2 : Vec F S512x1 .i32) (x3 : Vec F S1x4096 .i32) (o4 o5 : Vec F S512x1 .f32) (f9 : arg9.view.ty.Contents (Elt F)) (s1 : Vec F S512x1 .f32) (f : arg8.view.ty.Contents (Elt F)) :
    arg8.view.read (Elt F) (arg8.view.writes (Elt F) f (kernelRun0_C c i arg3 harg3 arg4 harg4 arg5 harg5 arg6 harg6 arg7 harg7 arg8 harg8 arg9 harg9 arg10 harg10 hc1 hc2 hc3 x2 x3 o4 o5 f9 s1).2.1)
      = k0_pay9 (BitVec.ofNat 32 (i 0).val) (BitVec.ofNat 32 (i 2).val) (labsAtC i hc3 x3) x2 o5 := by
  rw [View.read_writes_eq_canon _ _ _ (coverC_8 c i arg3 harg3 arg4 harg4 arg5 harg5 arg6 harg6 arg7 harg7 arg8 harg8 arg9 harg9 arg10 harg10 hc1 hc2 hc3 x2 x3 o4 o5 f9 s1)]
  unfold kernelRun0_C
  dsimp only
  rw [View.canon_unit_zero hz2]
  sl_unfold_run_names
  simp only [View.readAt_eq_ld, Memref.IsWhole.read_unread, View.ld_unit_zero (S := S512x1) hz2]
  first | done | rfl

end Cert.KernelIdeal.Hand

end
-- ==== Proof.KI.Data.lean ====
/-
  The proof data of the region: what every window's staging buffer and the two scratch buffers hold after the body at
  each of the 64 grid points.

  A point is (row block i, phase, column tile j), numbered 8 i + 4 phase + j. At phase 0 the body stores the tile of
  exponentials into the columns [1024 j, 1024 j + 1024) of the wide scratch and adds the tile's masked row sums to the
  denominator scratch (zeroed, with both outputs, at tile 0); at phase 1 it reads the tile back and adds the masked row
  sums of log(denominator + e) - log e, and of the mask, to the two outputs. So after point n: the outputs' buffers and
  the denominator scratch are a recursion on n (`stAt`), and the wide scratch holds, in the tiles stored so far for the
  current row block, the tiles of exponentials (`tilesOk`); what its other columns hold is not said.
-/
import proofs.«169875_j63625645523217_2_alg».proof.Proof.KI.Launch
import proofs.«169875_j63625645523217_2_alg».proof.Proof.KI.Pieces
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

theorem N64 : cfg0.N = 64 := N_0

/-- Point number `n`. -/
abbrev pt (n : ℕ) (hn : n < 64) : Fin cfg0.N := ⟨n, lt_of_lt_of_eq hn N64.symm⟩

/-! ## The staging memrefs and the scratch operands -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
/-- The wide scratch (a row block of exponentials, all 4096 columns) and the denominator scratch. -/
abbrev scM0 : Memref sig .tc .vmem S512x4096 .f32 := Memref.whole cc0_scratch0
abbrev scM1 : Memref sig .tc .vmem S512x1 .f32 := Memref.whole cc0_scratch1

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the buffers hold after each point -/

/-- The tile of exponentials a point of phase 0 stores: the point's row block against the 1024 rows of its column tile. -/
def expTile (c : Dev nD) (t : Fin cfg0.N) (h : t.val % 8 < 4) : Vec F S512x1024 .f32 :=
  k0_pay5 (iblk m c 0 t) (rowsAt (grid0.coords t) ((hcond2 t).mpr h) (iblk m c 1 t))

/-- After the body at point `n`: the first output's buffer, the second output's buffer, the denominator scratch. -/
def stAt (c : Dev nD) : (n : ℕ) → n < cfg0.N → Vec F S512x1 .f32 × Vec F S512x1 .f32 × Vec F S512x1 .f32
  | 0, hn =>
    (k0_pay2, k0_pay3,
      k0_pay6 (iblk m c 0 ⟨0, hn⟩) (rowsAt (grid0.coords ⟨0, hn⟩) ((hcond2 ⟨0, hn⟩).mpr (by show 0 % 8 < 4; omega)) (iblk m c 1 ⟨0, hn⟩))
        (labsAt (grid0.coords ⟨0, hn⟩) ((hcond2 ⟨0, hn⟩).mpr (by show 0 % 8 < 4; omega)) (iblk m c 3 ⟨0, hn⟩)) (iblk m c 2 ⟨0, hn⟩) k0_pay1)
  | n + 1, hn =>
    if h0 : (n + 1) % 8 = 0 then
      (k0_pay2, k0_pay3,
        k0_pay6 (iblk m c 0 ⟨n + 1, hn⟩) (rowsAt (grid0.coords ⟨n + 1, hn⟩) ((hcond2 ⟨n + 1, hn⟩).mpr (by show (n + 1) % 8 < 4; omega)) (iblk m c 1 ⟨n + 1, hn⟩))
          (labsAt (grid0.coords ⟨n + 1, hn⟩) ((hcond2 ⟨n + 1, hn⟩).mpr (by show (n + 1) % 8 < 4; omega)) (iblk m c 3 ⟨n + 1, hn⟩)) (iblk m c 2 ⟨n + 1, hn⟩) k0_pay1)
    else if h1 : (n + 1) % 8 < 4 then
      ((stAt c n (Nat.lt_of_succ_lt hn)).1, (stAt c n (Nat.lt_of_succ_lt hn)).2.1,
        k0_pay6 (iblk m c 0 ⟨n + 1, hn⟩) (rowsAt (grid0.coords ⟨n + 1, hn⟩) ((hcond2 ⟨n + 1, hn⟩).mpr h1) (iblk m c 1 ⟨n + 1, hn⟩))
          (labsAt (grid0.coords ⟨n + 1, hn⟩) ((hcond2 ⟨n + 1, hn⟩).mpr h1) (iblk m c 3 ⟨n + 1, hn⟩)) (iblk m c 2 ⟨n + 1, hn⟩) (stAt c n (Nat.lt_of_succ_lt hn)).2.2)
    else
      (k0_pay8 (BitVec.ofNat 32 ((grid0.coords ⟨n + 1, hn⟩) 0).val) (BitVec.ofNat 32 ((grid0.coords ⟨n + 1, hn⟩) 2).val)
          (expTile m c ⟨n + 1 - 4, by omega⟩ (by show (n + 1 - 4) % 8 < 4; omega))
          (labsAtC (grid0.coords ⟨n + 1, hn⟩) ((hcond3 ⟨n + 1, hn⟩).mpr (by show 4 ≤ (n + 1) % 8; omega)) (iblk m c 3 ⟨n + 1, hn⟩)) (iblk m c 2 ⟨n + 1, hn⟩)
          (stAt c n (Nat.lt_of_succ_lt hn)).2.2 (stAt c n (Nat.lt_of_succ_lt hn)).1,
        k0_pay9 (BitVec.ofNat 32 ((grid0.coords ⟨n + 1, hn⟩) 0).val) (BitVec.ofNat 32 ((grid0.coords ⟨n + 1, hn⟩) 2).val)
          (labsAtC (grid0.coords ⟨n + 1, hn⟩) ((hcond3 ⟨n + 1, hn⟩).mpr (by show 4 ≤ (n + 1) % 8; omega)) (iblk m c 3 ⟨n + 1, hn⟩)) (iblk m c 2 ⟨n + 1, hn⟩)
          (stAt c n (Nat.lt_of_succ_lt hn)).2.1,
        (stAt c n (Nat.lt_of_succ_lt hn)).2.2)

/-- The wide scratch after point `n`: the tiles stored so far for the current row block — tile `j` for every `j` up to
    the point's place in its row block, all four from the last tile of phase 0 on — hold their tiles of exponentials. -/
def tilesOk (c : Dev nD) (n : ℕ) (hn : n < cfg0.N) (X9 : Vec F S512x4096 .f32) : Prop :=
  ∀ (j : ℕ) (hj : j ≤ n % 8) (hj4 : j < 4) (p : Fin 512) (q : Fin 1024),
    X9 (ix2 p (⟨1024 * j + q.val, by have := q.isLt; omega⟩ : Fin 4096))
      = expTile m c ⟨8 * (n / 8) + j, by have := lt_of_lt_of_eq hn N64; rw [N64]; omega⟩ (by show (8 * (n / 8) + j) % 8 < 4; omega) (ix2 p q)

/-- The invariant before point `n`: before the first point the two scratch buffers at anything; afterwards the wide
    scratch at contents whose stored tiles are the exponentials, the denominator scratch at the recursion's value. -/
def PhiS (c : Dev nD) : (n : ℕ) → n ≤ cfg0.N → sProp 𝕄
  | 0, _ => Pipeline.scopedRest spec0 c
  | n + 1, hn => iprop((∃ X9, owns (c : Thread nD τ) scM0 fullShare X9 ∗ ⌜tilesOk m c n hn X9⌝)
      ∗ owns (c : Thread nD τ) scM1 fullShare (stAt m c n hn).2.2)

/-! ## The proof data -/

/-- The proof data on core `c`: the arrays as the region finds them; after the body each input's buffer at its block,
    the outputs' at the recursion's values; the two readers of the shared array each at half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).1
    | ⟨5, _⟩ => (stAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (stAt m c t.val t.isLt).1 := by dsimp only [dats]
theorem after5 (c : Dev nD) (t : Fin cfg0.N) : (dats m 0 c).after 5 t = (stAt m c t.val t.isLt).2.1 := by dsimp only [dats]

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop((∃ X9, owns (c : Thread nD τ) scM0 fullShare X9 ∗ ⌜tilesOk m c n hn X9⌝)
      ∗ owns (c : Thread nD τ) scM1 fullShare (stAt m c n hn).2.2) := rfl

theorem PhiS_pos (c : Dev nD) (n : ℕ) (h : n ≤ cfg0.N) (hz : n ≠ 0) :
    PhiS m c n h = iprop((∃ X9, owns (c : Thread nD τ) scM0 fullShare X9 ∗ ⌜tilesOk m c (n - 1) (by omega) X9⌝)
      ∗ owns (c : Thread nD τ) scM1 fullShare (stAt m c (n - 1) (by omega)).2.2) := by
  cases n with
  | zero => exact absurd rfl hz
  | succ n => rfl

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

end Cert.KernelIdeal.Hand

end
-- ==== Proof.KI.Run.lean ====
/-
  The run of the idealized kernel program: from the body obligation at every grid point to the final contents of every
  unscoped buffer — each window's array as the write-backs leave it, every other buffer as the host lines after the region
  leave it.
-/
import proofs.«169875_j63625645523217_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the launch hands the region of the core's scoped buffers is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

/-- After the last point the invariant gives the two scratch buffers back, what they hold forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last, N64]; omega), scopedRest0_eq]
  simp only [owns_whole]
  iintro ⟨⟨%X9, H0, -⟩, H1⟩
  isplitl [H0]
  · iexists X9; iexact H0
  iexists _; iexact H1

/-- From the body obligation: every weakly fair execution of @main terminates, with every window's array at what the
    write-backs leave and every other unscoped buffer at what the lines after the region leave. -/
theorem run_main (hbody : ∀ c, BodyObligation (dats (F := F) m 0 c) (defs₀ (F := F)) Variants.none () Set.univ) :
    θ_run (defs (F := F)) (onTc (τ := τ) (main (F := F))) (s₀ m ρ) (RunPost m (dats m)) :=
  run_of m ρ (dats m) (fun c => (hbody c).loose) (fun _ _ => rfl)
    (hsplit_of m (dats m) (q0 m) (q1 m) (q2 m) (q3 m) (A_eq m))
    (hin m) (hout m)
    (htail_of m (dats m) (q0 m) (q1 m) (q2 m) (q3 m))

end Cert.KernelIdeal.Hand

end
-- ==== Proof.KI.Frame.lean ====
/-
  The frame of the idealized kernel program: from the body obligation, every weakly fair execution of @main terminates and
  the two argument arrays end as they began — no window stages them and no host line writes them.
-/
import proofs.«169875_j63625645523217_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

variable (m : (ℓ : Loc nD τ sig) → Buf (Elt F) ℓ) (ρ : Dev nD → PrngReg)

/-- No host line before the region writes `b` when `b` is none of their three results. -/
theorem pre_keeps (b : Ref sig .tc) (h0 : main_v0 ≠ b) (h1 : main_v1 ≠ b) (h2 : main_v2 ≠ b) :
    ∀ op ∈ List.flatten [(hostOps0 : List (HloOp τ sig (Elt F)))], Proc.devRef .tc b ∉ op.writes := by
  intro op hop
  simp only [List.flatten_cons, List.flatten_nil, List.append_nil, hostOps0, List.mem_cons, List.mem_nil_iff, or_false] at hop
  rcases hop with rfl | rfl | rfl <;> simp only [StableHlo.reshape_writes, StableHlo.unary_writes, Finset.mem_singleton] <;>
    exact fun e => by first | exact h0 (Proc.devRef_injective _ e).symm | exact h1 (Proc.devRef_injective _ e).symm | exact h2 (Proc.devRef_injective _ e).symm

/-- No host line after the region writes `b` when `b` is none of their seven results. -/
theorem post_keeps (b : Ref sig .tc) (h0 : main_cst ≠ b) (h1 : main_v4 ≠ b) (h2 : main_cst_0 ≠ b) (h3 : main_v5 ≠ b)
    (h4 : main_cst_1 ≠ b) (h5 : main_v6 ≠ b) (h6 : main_v7 ≠ b) :
    ∀ op ∈ List.flatten [(hostOps1 : List (HloOp τ sig (Elt F)))], Proc.devRef .tc b ∉ op.writes := by
  intro op hop
  simp only [List.flatten_cons, List.flatten_nil, List.append_nil, hostOps1, List.mem_cons, List.mem_nil_iff, or_false] at hop
  rcases hop with rfl | rfl | rfl | rfl | rfl | rfl | rfl <;> simp only [StableHlo.nullary_writes, StableHlo.binary_writes, Finset.mem_singleton] <;>
    exact fun e => by
      first
      | exact h0 (Proc.devRef_injective _ e).symm | exact h1 (Proc.devRef_injective _ e).symm | exact h2 (Proc.devRef_injective _ e).symm
      | exact h3 (Proc.devRef_injective _ e).symm | exact h4 (Proc.devRef_injective _ e).symm | exact h5 (Proc.devRef_injective _ e).symm
      | exact h6 (Proc.devRef_injective _ e).symm

section

variable (dats : (p : Fin 1) → (c : Dev nD) → Dat τ (Elt F) Unit ℕ (UR sig nD τ) ℕ (cfgs p) c)

/-- A buffer that is no output array and that no host line writes ends as the launch memory has it. -/
theorem VEnd_kept (c : Dev nD) (b : Ref sig .tc) (ho0 : main_v3_0 ≠ b) (ho1 : main_v3_1 ≠ b)
    (hpre : ∀ op ∈ List.flatten [(hostOps0 : List (HloOp τ sig (Elt F)))], Proc.devRef .tc b ∉ op.writes)
    (hpost : ∀ op ∈ List.flatten [(hostOps1 : List (HloOp τ sig (Elt F)))], Proc.devRef .tc b ∉ op.writes) :
    VEnd m dats c (Proc.devRef .tc b) = m ((c.tc : Thread nD τ).loc b) := by
  unfold VEnd
  rw [StableHlo.after_of_forall_not_mem _ _ hpost,
    Pipeline.withArrays_of_ne winOut c _ _ b (fun w => by
      match w with
      | ⟨0, _⟩ => exact ho0
      | ⟨1, _⟩ => exact ho1)]
  show StableHlo.after (List.flatten [hostOps0]) (fun b => m (c, b)) (Proc.devRef .tc b) = _
  rw [StableHlo.after_of_forall_not_mem _ _ hpre]

end

/-- THE FRAME, at any instance of the float operations. -/
theorem frame (hbody : ∀ c, BodyObligation (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c =>
    ⟨((h c).2 main_arg0 (Pipeline.mem_restRefs_of main_arg0 rfl (by decide))).trans
        (VEnd_kept m (dats m) c main_arg0 (by decide) (by decide)
          (pre_keeps main_arg0 (by decide) (by decide) (by decide))
          (post_keeps main_arg0 (by decide) (by decide) (by decide) (by decide) (by decide) (by decide) (by decide))),
     ((h c).2 main_arg1 (Pipeline.mem_restRefs_of main_arg1 rfl (by decide))).trans
        (VEnd_kept m (dats m) c main_arg1 (by decide) (by decide)
          (pre_keeps main_arg1 (by decide) (by decide) (by decide))
          (post_keeps main_arg1 (by decide) (by decide) (by decide) (by decide) (by decide) (by decide) (by decide)))⟩)
    (run_main m ρ hbody)

end Cert.KernelIdeal.Hand

end
-- ==== Proof.KI.Body.lean ====
/-
  The body obligation of the region: at every grid point, from the invariant and the windows' staging buffers at what
  they then hold, the body runs to the invariant at the next point and the buffers at what the proof data say it leaves.

  The three cases of the body's conditionals are the points 8 i (reset and accumulate), 8 i + 1 .. 8 i + 3 (accumulate)
  and 8 i + 4 .. 8 i + 7 (the loss phase). Each input window holds its block at every point. An output's buffer holds
  anything at a reset point, is untouched through the accumulate points, and at a loss point holds what the point before
  left. The wide scratch keeps the tiles stored so far; the denominator scratch follows the recursion.
-/
import proofs.«169875_j63625645523217_2_alg».proof.Proof.KI.Data
import proofs.«169875_j63625645523217_2_alg».proof.Proof.LibBefore
import Idealize.ShloMosaic.Lib.WritesUnit
import Idealize.ShloMosaic.Lib.Pipeline.FrameBody

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The input windows hold their blocks -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The recursion at a point of each case -/

theorem stAt_A (c : Dev nD) (t : Fin cfg0.N) (h0 : t.val % 8 = 0) :
    stAt m c t.val t.isLt = (k0_pay2, k0_pay3,
      k0_pay6 (iblk m c 0 t) (rowsAt (grid0.coords t) ((hcond2 t).mpr (by omega)) (iblk m c 1 t))
        (labsAt (grid0.coords t) ((hcond2 t).mpr (by omega)) (iblk m c 3 t)) (iblk m c 2 t) k0_pay1) := by
  obtain ⟨n, hn⟩ := t
  cases n with
  | zero => exact rfl
  | succ n => exact (dif_pos h0).trans rfl

theorem stAt_B (c : Dev nD) (t : Fin cfg0.N) (h0 : ¬ t.val % 8 = 0) (h1 : t.val % 8 < 4) :
    stAt m c t.val t.isLt = ((stAt m c (t.val - 1) (Nat.lt_of_le_of_lt (Nat.sub_le _ _) t.isLt)).1, (stAt m c (t.val - 1) (Nat.lt_of_le_of_lt (Nat.sub_le _ _) t.isLt)).2.1,
      k0_pay6 (iblk m c 0 t) (rowsAt (grid0.coords t) ((hcond2 t).mpr h1) (iblk m c 1 t))
        (labsAt (grid0.coords t) ((hcond2 t).mpr h1) (iblk m c 3 t)) (iblk m c 2 t) (stAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

theorem stAt_C (c : Dev nD) (t : Fin cfg0.N) (h0 : ¬ t.val % 8 = 0) (h1 : ¬ t.val % 8 < 4) :
    stAt m c t.val t.isLt =
      (k0_pay8 (BitVec.ofNat 32 ((grid0.coords t) 0).val) (BitVec.ofNat 32 ((grid0.coords t) 2).val)
          (expTile m c ⟨t.val - 4, by have := t.isLt; omega⟩ (by show (t.val - 4) % 8 < 4; omega))
          (labsAtC (grid0.coords t) ((hcond3 t).mpr (by omega)) (iblk m c 3 t)) (iblk m c 2 t)
          (stAt m c (t.val - 1) (Nat.lt_of_le_of_lt (Nat.sub_le _ _) t.isLt)).2.2 (stAt m c (t.val - 1) (Nat.lt_of_le_of_lt (Nat.sub_le _ _) t.isLt)).1,
        k0_pay9 (BitVec.ofNat 32 ((grid0.coords t) 0).val) (BitVec.ofNat 32 ((grid0.coords t) 2).val)
          (labsAtC (grid0.coords t) ((hcond3 t).mpr (by omega)) (iblk m c 3 t)) (iblk m c 2 t)
          (stAt m c (t.val - 1) (Nat.lt_of_le_of_lt (Nat.sub_le _ _) t.isLt)).2.1,
        (stAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

/-! ## The output windows' buffers -/

/-- What output window 4's buffer holds at a point that does not open a row block: what the point before left in
    it — through an accumulate point the buffer is untouched and the recursion carries the value unchanged. -/
theorem before4_eq (c : Dev nD) : ∀ (n : ℕ) (hn : n < cfg0.N), n % 8 ≠ 0 → ∀ d,
    (dats m 0 c).before 4 ⟨n, hn⟩ d = (stAt m c (n - 1) (Nat.lt_of_le_of_lt (Nat.sub_le _ _) hn)).1
  | 0, _, h, _ => absurd (Nat.zero_mod _) h
  | n + 1, hn, h, d => by
    have hn' : n < cfg0.N := Nat.lt_of_succ_lt hn
    by_cases h0 : n % 8 = 0
    · exact ((dats m 0 c).before_out_step_live 4 rfl ⟨n + 1, hn⟩ (Nat.succ_ne_zero n)
        (noFlush4 ⟨n, hn'⟩ (by show n % 8 ≠ 7; omega)) (liveAt4_A ⟨n, hn'⟩ ((hcond1 ⟨n, hn'⟩).mpr h0)) (fun _ _ => rfl) d).trans
        (after4 m c ⟨n, hn'⟩)
    · by_cases h1 : n % 8 < 4
      · have ih := before4_eq c n hn' h0 d
        have hB := stAt_B m c ⟨n, hn'⟩ h0 h1
        exact (((dats m 0 c).before_out_step_idle 4 rfl ⟨n + 1, hn⟩ (Nat.succ_ne_zero n)
          (noFlush4 ⟨n, hn'⟩ (by show n % 8 ≠ 7; omega)) ((idle4_iff ⟨n, hn'⟩).mpr ⟨by show 0 < n % 8; omega, h1⟩) d).trans ih).trans
          (by rw [show stAt m c (n + 1 - 1) (Nat.lt_of_le_of_lt (Nat.sub_le _ _) hn) = stAt m c n hn' from rfl, hB])
      · exact ((dats m 0 c).before_out_step_live 4 rfl ⟨n + 1, hn⟩ (Nat.succ_ne_zero n)
          (noFlush4 ⟨n, hn'⟩ (by show n % 8 ≠ 7; omega)) (liveAt4_C ⟨n, hn'⟩ ((hcond3 ⟨n, hn'⟩).mpr (by show 4 ≤ n % 8; omega))) (fun _ _ => rfl) d).trans
          (after4 m c ⟨n, hn'⟩)

theorem before4 (c : Dev nD) (t : Fin cfg0.N) (ht : t.val % 8 ≠ 0) (d) :
    (dats m 0 c).before 4 t d = (stAt m c (t.val - 1) (Nat.lt_of_le_of_lt (Nat.sub_le _ _) t.isLt)).1 :=
  before4_eq m c t.val t.isLt ht d

/-- What output window 5's buffer holds at a point that does not open a row block: what the point before left in
    it — through an accumulate point the buffer is untouched and the recursion carries the value unchanged. -/
theorem before5_eq (c : Dev nD) : ∀ (n : ℕ) (hn : n < cfg0.N), n % 8 ≠ 0 → ∀ d,
    (dats m 0 c).before 5 ⟨n, hn⟩ d = (stAt m c (n - 1) (Nat.lt_of_le_of_lt (Nat.sub_le _ _) hn)).2.1
  | 0, _, h, _ => absurd (Nat.zero_mod _) h
  | n + 1, hn, h, d => by
    have hn' : n < cfg0.N := Nat.lt_of_succ_lt hn
    by_cases h0 : n % 8 = 0
    · exact ((dats m 0 c).before_out_step_live 5 rfl ⟨n + 1, hn⟩ (Nat.succ_ne_zero n)
        (noFlush5 ⟨n, hn'⟩ (by show n % 8 ≠ 7; omega)) (liveAt5_A ⟨n, hn'⟩ ((hcond1 ⟨n, hn'⟩).mpr h0)) (fun _ _ => rfl) d).trans
        (after5 m c ⟨n, hn'⟩)
    · by_cases h1 : n % 8 < 4
      · have ih := before5_eq c n hn' h0 d
        have hB := stAt_B m c ⟨n, hn'⟩ h0 h1
        exact (((dats m 0 c).before_out_step_idle 5 rfl ⟨n + 1, hn⟩ (Nat.succ_ne_zero n)
          (noFlush5 ⟨n, hn'⟩ (by show n % 8 ≠ 7; omega)) ((idle5_iff ⟨n, hn'⟩).mpr ⟨by show 0 < n % 8; omega, h1⟩) d).trans ih).trans
          (by rw [show stAt m c (n + 1 - 1) (Nat.lt_of_le_of_lt (Nat.sub_le _ _) hn) = stAt m c n hn' from rfl, hB])
      · exact ((dats m 0 c).before_out_step_live 5 rfl ⟨n + 1, hn⟩ (Nat.succ_ne_zero n)
          (noFlush5 ⟨n, hn'⟩ (by show n % 8 ≠ 7; omega)) (liveAt5_C ⟨n, hn'⟩ ((hcond3 ⟨n, hn'⟩).mpr (by show 4 ≤ n % 8; omega))) (fun _ _ => rfl) d).trans
          (after5 m c ⟨n, hn'⟩)

theorem before5 (c : Dev nD) (t : Fin cfg0.N) (ht : t.val % 8 ≠ 0) (d) :
    (dats m 0 c).before 5 t d = (stAt m c (t.val - 1) (Nat.lt_of_le_of_lt (Nat.sub_le _ _) t.isLt)).2.1 :=
  before5_eq m c t.val t.isLt ht d

/-! ## The wide scratch's tiles -/

theorem expTile_congr (c : Dev nD) {t₁ t₂ : Fin cfg0.N} (h : t₁ = t₂) (h₁ : t₁.val % 8 < 4) (h₂ : t₂.val % 8 < 4) :
    expTile m c t₁ h₁ = expTile m c t₂ h₂ := by subst h; rfl

/-- The offsets of the column tile, coordinate by coordinate. -/
theorem off3_0 (t : Fin cfg0.N) : k0_off3 (grid0.coords t) 0 = 0 := congrFun (hoff3 t) 0
theorem off3_1 (t : Fin cfg0.N) : k0_off3 (grid0.coords t) 1 = 1024 * (t.val % 4) := congrFun (hoff3 t) 1
theorem off4_0 (t : Fin cfg0.N) : k0_off4 (grid0.coords t) 0 = 0 := congrFun (hoff4 t) 0
theorem off4_1 (t : Fin cfg0.N) : k0_off4 (grid0.coords t) 1 = 1024 * (t.val % 4) := congrFun (hoff4 t) 1

/-- After a phase-0 point stores its tile, the tiles stored so far are the exponentials: the new tile is the store's
    payload, an earlier tile lies outside the stored columns and keeps what it held. -/
theorem tiles_store (c : Dev nD) (t : Fin cfg0.N) (h : t.val % 8 < 4) (f9 : scM0.view.ty.Contents (Elt F))
    (hprev : t.val % 8 ≠ 0 → tilesOk m c (t.val - 1) (Nat.lt_of_le_of_lt (Nat.sub_le _ _) t.isLt) (scM0.view.read (Elt F) f9)) :
    tilesOk m c t.val t.isLt (scM0.view.read (Elt F) (scM0.view.writes (Elt F) f9
      [⟨Rect.unit (s := S512x4096) (k0_off3 (grid0.coords t)) S512x1024.size (k0_off3_inb (grid0.coords t) ((hcond2 t).mpr h)),
        k0_pay5 (iblk m c 0 t) (rowsAt (grid0.coords t) ((hcond2 t).mpr h) (iblk m c 1 t))⟩])) := by
  intro j hj hj4 p q
  have hN : t.val < 64 := lt_of_lt_of_eq t.isLt N64
  have hq := q.isLt
  by_cases hjt : j = t.val % 8
  · refine (View.read_writes_cons_unit_of_mem scM0.view f9 _ _ [] _ (ix2 p q) rfl ?_).trans ?_
    · refine Fin.forall_fin_two.mpr ⟨?_, ?_⟩
      · show p.val = k0_off3 (grid0.coords t) 0 + p.val
        rw [off3_0]; omega
      · show 1024 * j + q.val = k0_off3 (grid0.coords t) 1 + q.val
        rw [off3_1]; omega
    · exact congrFun (expTile_congr m c (Fin.ext (by show t.val = 8 * (t.val / 8) + j; omega)) h _) (ix2 p q)
  · have hlt : j < t.val % 8 := lt_of_le_of_ne hj hjt
    have h0 : t.val % 8 ≠ 0 := by omega
    refine (View.read_writes_cons_unit_of_not_mem scM0.view f9 _ _ [] _ rfl 1 (Or.inl ?_)).trans ?_
    · show 1024 * j + q.val < k0_off3 (grid0.coords t) 1
      rw [off3_1]; omega
    · refine (hprev h0 j (by omega) hj4 p q).trans ?_
      exact congrFun (expTile_congr m c (Fin.ext (by show 8 * ((t.val - 1) / 8) + j = 8 * (t.val / 8) + j; omega)) _ _) (ix2 p q)

/-- Through a phase-1 point the wide scratch is only read: the tiles asked after it are those asked before it. -/
theorem tiles_keep (c : Dev nD) (t : Fin cfg0.N) (h : 4 ≤ t.val % 8) (X9 : Vec F S512x4096 .f32)
    (hprev : tilesOk m c (t.val - 1) (Nat.lt_of_le_of_lt (Nat.sub_le _ _) t.isLt) X9) : tilesOk m c t.val t.isLt X9 := by
  intro j hj hj4 p q
  have hN : t.val < 64 := lt_of_lt_of_eq t.isLt N64
  refine (hprev j (by omega) hj4 p q).trans ?_
  exact congrFun (expTile_congr m c (Fin.ext (by show 8 * ((t.val - 1) / 8) + j = 8 * (t.val / 8) + j; omega)) _ _) (ix2 p q)

/-- The tile a phase-1 point reads back is the tile of exponentials stored four points earlier. -/
theorem tile_read (c : Dev nD) (t : Fin cfg0.N) (h : 4 ≤ t.val % 8) (X9 : Vec F S512x4096 .f32)
    (hprev : tilesOk m c (t.val - 1) (Nat.lt_of_le_of_lt (Nat.sub_le _ _) t.isLt) X9) :
    tileAtC (grid0.coords t) ((hcond3 t).mpr h) X9
      = expTile m c ⟨t.val - 4, by have := t.isLt; omega⟩ (by show (t.val - 4) % 8 < 4; omega) := by
  have hN : t.val < 64 := lt_of_lt_of_eq t.isLt N64
  funext y
  obtain ⟨p, q, rfl⟩ : ∃ (p : Fin 512) (q : Fin 1024), y = ix2 p q := ⟨y 0, y 1, eq_ix2 y⟩
  have hq := q.isLt
  have hX := hprev (t.val % 4) (by omega) (by omega) p q
  refine Eq.trans ?_ (hX.trans (congrFun (expTile_congr m c (Fin.ext (by show 8 * ((t.val - 1) / 8) + t.val % 4 = t.val - 4; omega)) _ _) (ix2 p q)))
  show X9 _ = X9 _
  refine congrArg X9 (funext fun a => Fin.ext ?_)
  revert a
  refine Fin.forall_fin_two.mpr ⟨?_, ?_⟩
  · show k0_off4 (grid0.coords t) 0 + 1 * p.val = p.val
    rw [off4_0]; omega
  · show k0_off4 (grid0.coords t) 1 + 1 * q.val = 1024 * (t.val % 4) + q.val
    rw [off4_1]; omega

/-! ## The invariant, opened -/

/-- Before any point the two scratch buffers are held, at something. -/
theorem PhiS_weak (c : Dev nD) (n : ℕ) (h : n ≤ cfg0.N) :
    PhiS m c n h ⊢ iprop((∃ f9 : scM0.view.ty.Contents (Elt F), scM0.view.loc (c : Thread nD τ) ↦[scM0.view.set]{fullShare} f9)
      ∗ (∃ d, owns (c : Thread nD τ) scM1 fullShare d)) := by
  cases n with
  | zero =>
    rw [PhiS_zero m c 0 h rfl, scopedRest0_eq]
    simp only [scM0, scM1, owns_whole, View.set_whole, Memref.view_whole]
    exact Idealize.SL.BI.Entails.refl _
  | succ n =>
    rw [PhiS_succ]
    unfold owns
    iintro ⟨⟨%X9, ⟨%f9, -, H9⟩, -⟩, H10⟩
    isplitl [H9]
    · iexists f9; iexact H9
    iexists _; iexact H10

/-- Before a point that is not the first: the wide scratch at raw contents whose stored tiles are the exponentials, the
    denominator scratch at the recursion's value. -/
theorem PhiS_raw (c : Dev nD) (n : ℕ) (h : n ≤ cfg0.N) (hz : n ≠ 0) :
    PhiS m c n h ⊢ iprop((∃ f9 : scM0.view.ty.Contents (Elt F), (scM0.view.loc (c : Thread nD τ) ↦[scM0.view.set]{fullShare} f9)
        ∗ ⌜tilesOk m c (n - 1) (by omega) (scM0.view.read (Elt F) f9)⌝)
      ∗ owns (c : Thread nD τ) scM1 fullShare (stAt m c (n - 1) (by omega)).2.2) := by
  rw [PhiS_pos m c n h hz]
  unfold owns
  iintro ⟨⟨%X9, ⟨%f9, %hf, H9⟩, %hT⟩, H10⟩
  isplitl [H9]
  · iexists f9; isplitl [H9]; · iexact H9
    ipureintro; rw [hf]; exact hT
  iexact H10

/-! ## The body obligation, point by point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]
theorem leaves4_live (c : Dev nD) (t : Fin cfg0.N) (h : cfg0.idle 4 (grid0.coords t) = false) :
    (dats m 0 c).leavesExact 4 t = owns (c : Thread nD τ) (ms4 t) fullShare (stAt m c t.val t.isLt).1 := by
  unfold Dat.leavesExact; rw [h, after4]
theorem leaves5_live (c : Dev nD) (t : Fin cfg0.N) (h : cfg0.idle 5 (grid0.coords t) = false) :
    (dats m 0 c).leavesExact 5 t = owns (c : Thread nD τ) (ms5 t) fullShare (stAt m c t.val t.isLt).2.1 := by
  unfold Dat.leavesExact; rw [h, after5]

set_option maxHeartbeats 4000000 in
/-- A point that opens a row block: the reset and the first tile. -/
theorem sound_A (c : Dev nD) (t : Fin cfg0.N) (h0 : t.val % 8 = 0) :
    bodyPre m c t ⊢ wp frame (wpE (defs₀ (F := F)) Variants.none c none) Set.univ (bodyAt0 t) (fun _ => bodyPost m c t) := by
  have hc1 : k0_cond1 (grid0.coords t) = 1#1 := (hcond1 t).mpr h0
  have hc2 : k0_cond2 (grid0.coords t) = 1#1 := (hcond2 t).mpr (by omega)
  have hc3 : ¬ k0_cond3 (grid0.coords t) = 1#1 := fun h => by have := (hcond3 t).mp h; omega
  have hst := stAt_A m c t h0
  unfold bodyPre bodyPost bodyAt0
  simp only [before0, before1, before2, before3]
  rw [show (dats m 0 c).owesAt () t.succ = (dats m 0 c).owesAt () t.castSucc from rfl]
  rw [Phi_succ, PhiS_succ, Phi_castSucc, leaves0, leaves1, leaves2, leaves3,
    leaves4_live m c t (liveAt4_A t hc1), leaves5_live m c t (liveAt5_A t hc1)]
  iintro ⟨HP, Ho, ⟨%d0, H0⟩, ⟨%d1, H1⟩, ⟨%d2, H2⟩, ⟨%d3, H3⟩, ⟨%d4, H4⟩, ⟨%d5, H5⟩⟩
  icases (PhiS_weak m c _ _) $$ HP with ⟨⟨%f9, H9⟩, ⟨%d10, H10⟩⟩
  iapply ((kernelRun0_A c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t)).2.2.2.2 f9 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H9]; · iexact H9
  isplitl [H10]; · iexists _; iexact H10
  iintro ⟨H0, H1, H2, H3, ⟨%e7, H7⟩, ⟨%e8, H8⟩, H9, ⟨%e10, H10⟩⟩
  isplitl [H9 H10]
  · isplitl [H9]
    · iexists _; isplitl [H9]
      · unfold owns; iexists _; isplitr
        swap; · iexact H9
        ipureintro; rfl
      ipureintro
      rw [piecesA_9]
      exact tiles_store m c t (by omega) f9 (fun h => absurd h0 h)
    unfold owns; iexists _; isplitr
    swap; · iexact H10
    ipureintro
    exact (readA_10 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t) e10).trans (congrArg (fun x => x.2.2) hst).symm
  isplitl [Ho]; · iexact Ho
  isplitl [H0]; · iexact H0
  isplitl [H1]; · iexact H1
  isplitl [H2]; · iexact H2
  isplitl [H3]; · iexact H3
  isplitl [H7]
  · unfold owns; iexists _; isplitr
    swap; · iexact H7
    ipureintro
    exact (readA_7 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t) e7).trans (congrArg (fun x => x.1) hst).symm
  unfold owns; iexists _; isplitr
  swap; · iexact H8
  ipureintro
  exact (readA_8 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t) e8).trans (congrArg (fun x => x.2.1) hst).symm

set_option maxHeartbeats 4000000 in
/-- A later point of phase 0: one more tile; the outputs' buffers are not touched. -/
theorem sound_B (c : Dev nD) (t : Fin cfg0.N) (h0 : ¬ t.val % 8 = 0) (h1 : t.val % 8 < 4) :
    bodyPre m c t ⊢ wp frame (wpE (defs₀ (F := F)) Variants.none c none) Set.univ (bodyAt0 t) (fun _ => bodyPost m c t) := by
  have hc1 : ¬ k0_cond1 (grid0.coords t) = 1#1 := fun h => h0 ((hcond1 t).mp h)
  have hc2 : k0_cond2 (grid0.coords t) = 1#1 := (hcond2 t).mpr h1
  have hc3 : ¬ k0_cond3 (grid0.coords t) = 1#1 := fun h => by have := (hcond3 t).mp h; omega
  have hz : t.val ≠ 0 := fun h => h0 (by rw [h])
  have hst := stAt_B m c t h0 h1
  unfold bodyPre bodyPost bodyAt0
  simp only [before0, before1, before2, before3]
  rw [show (dats m 0 c).owesAt () t.succ = (dats m 0 c).owesAt () t.castSucc from rfl]
  rw [Phi_succ, PhiS_succ, Phi_castSucc, leaves0, leaves1, leaves2, leaves3,
    Dat.leavesExact_idle (dats m 0 c) 4 t (idleAt4_B t hc1 hc3) (noFlush4_B t hc3),
    Dat.leavesExact_idle (dats m 0 c) 5 t (idleAt5_B t hc1 hc3) (noFlush5_B t hc3)]
  iintro ⟨HP, Ho, ⟨%d0, H0⟩, ⟨%d1, H1⟩, ⟨%d2, H2⟩, ⟨%d3, H3⟩, H4, H5⟩
  icases (PhiS_raw m c _ _ hz) $$ HP with ⟨⟨%f9, H9, %hT⟩, H10⟩
  iapply ((kernelRun0_B c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t) (stAt m c (t.val - 1) (Nat.lt_of_le_of_lt (Nat.sub_le _ _) t.isLt)).2.2).2.2 f9 Set.univ _)
  isplitl [H0]; · iexact H0
  isplitl [H1]; · iexact H1
  isplitl [H2]; · iexact H2
  isplitl [H3]; · iexact H3
  isplitl [H9]; · iexact H9
  isplitl [H10]; · iexact H10
  iintro ⟨H0, H1, H2, H3, H9, ⟨%e10, H10⟩⟩
  isplitl [H9 H10]
  · isplitl [H9]
    · iexists _; isplitl [H9]
      · unfold owns; iexists _; isplitr
        swap; · iexact H9
        ipureintro; rfl
      ipureintro
      rw [piecesB_9]
      exact tiles_store m c t h1 f9 (fun _ => hT)
    unfold owns; iexists _; isplitr
    swap; · iexact H10
    ipureintro
    exact (readB_10 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 0 t) (iblk m c 1 t) (iblk m c 2 t) (iblk m c 3 t) (stAt m c (t.val - 1) (Nat.lt_of_le_of_lt (Nat.sub_le _ _) t.isLt)).2.2 e10).trans (congrArg (fun x => x.2.2) hst).symm
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- A point of phase 1: the tile is read back and the outputs accumulate; the scratch buffers are only read. -/
theorem sound_C (c : Dev nD) (t : Fin cfg0.N) (h0 : ¬ t.val % 8 = 0) (h1 : ¬ t.val % 8 < 4) :
    bodyPre m c t ⊢ wp frame (wpE (defs₀ (F := F)) Variants.none c none) Set.univ (bodyAt0 t) (fun _ => bodyPost m c t) := by
  have h4 : 4 ≤ t.val % 8 := by omega
  have hc1 : ¬ k0_cond1 (grid0.coords t) = 1#1 := fun h => h0 ((hcond1 t).mp h)
  have hc2 : ¬ k0_cond2 (grid0.coords t) = 1#1 := fun h => h1 ((hcond2 t).mp h)
  have hc3 : k0_cond3 (grid0.coords t) = 1#1 := (hcond3 t).mpr h4
  have hz : t.val ≠ 0 := fun h => h0 (by rw [h])
  have hst := stAt_C m c t h0 h1
  unfold bodyPre bodyPost bodyAt0
  simp only [before0, before1, before2, before3, before4 m c t h0, before5 m c t h0]
  rw [show (dats m 0 c).owesAt () t.succ = (dats m 0 c).owesAt () t.castSucc from rfl]
  rw [Phi_succ, PhiS_succ, Phi_castSucc, leaves0, leaves1, leaves2, leaves3,
    leaves4_live m c t (liveAt4_C t hc3), leaves5_live m c t (liveAt5_C t hc3)]
  iintro ⟨HP, Ho, ⟨%d0, H0⟩, ⟨%d1, H1⟩, ⟨%d2, H2⟩, ⟨%d3, H3⟩, ⟨%d4, H4⟩, ⟨%d5, H5⟩⟩
  icases (PhiS_raw m c _ _ hz) $$ HP with ⟨⟨%f9, H9, %hT⟩, H10⟩
  iapply ((kernelRun0_C c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 2 t) (iblk m c 3 t) (stAt m c (t.val - 1) (Nat.lt_of_le_of_lt (Nat.sub_le _ _) t.isLt)).1 (stAt m c (t.val - 1) (Nat.lt_of_le_of_lt (Nat.sub_le _ _) t.isLt)).2.1 f9 (stAt m c (t.val - 1) (Nat.lt_of_le_of_lt (Nat.sub_le _ _) t.isLt)).2.2).2.2 Set.univ _)
  isplitl [H2]; · iexact H2
  isplitl [H3]; · iexact H3
  isplitl [H4]; · iexact H4
  isplitl [H5]; · iexact H5
  isplitl [H9]; · iexact H9
  isplitl [H10]; · iexact H10
  iintro ⟨H2, H3, ⟨%e7, H7⟩, ⟨%e8, H8⟩, H9, H10⟩
  isplitl [H9 H10]
  · isplitl [H9]
    · iexists _; isplitl [H9]
      · unfold owns; iexists _; isplitr
        swap; · iexact H9
        ipureintro; rfl
      ipureintro
      exact tiles_keep m c t h4 _ hT
    rw [show (stAt m c t.val t.isLt).2.2 = (stAt m c (t.val - 1) (Nat.lt_of_le_of_lt (Nat.sub_le _ _) t.isLt)).2.2 from congrArg (fun x => x.2.2) hst]
    iexact H10
  isplitl [Ho]; · iexact Ho
  isplitl [H0]; · iexact H0
  isplitl [H1]; · iexact H1
  isplitl [H2]; · iexact H2
  isplitl [H3]; · iexact H3
  isplitl [H7]
  · unfold owns; iexists _; isplitr
    swap; · iexact H7
    ipureintro
    rw [readC_7 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 2 t) (iblk m c 3 t) (stAt m c (t.val - 1) (Nat.lt_of_le_of_lt (Nat.sub_le _ _) t.isLt)).1 (stAt m c (t.val - 1) (Nat.lt_of_le_of_lt (Nat.sub_le _ _) t.isLt)).2.1 f9 (stAt m c (t.val - 1) (Nat.lt_of_le_of_lt (Nat.sub_le _ _) t.isLt)).2.2 e7, tile_read m c t h4 _ hT]
    exact (congrArg (fun x => x.1) hst).symm
  unfold owns; iexists _; isplitr
  swap; · iexact H8
  ipureintro
  rw [readC_8 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) hc1 hc2 hc3 (iblk m c 2 t) (iblk m c 3 t) (stAt m c (t.val - 1) (Nat.lt_of_le_of_lt (Nat.sub_le _ _) t.isLt)).1 (stAt m c (t.val - 1) (Nat.lt_of_le_of_lt (Nat.sub_le _ _) t.isLt)).2.1 f9 (stAt m c (t.val - 1) (Nat.lt_of_le_of_lt (Nat.sub_le _ _) t.isLt)).2.2 e8]
  exact (congrArg (fun x => x.2.1) hst).symm

/-- The body at any point, by the point's place in its row block. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0
  · by_cases h1 : t.val % 8 < 4
    · exact sound_B m c t h0 h1
    · exact sound_C m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Args.lean ====
/-
  How the two argument arrays are read as the specification's inputs: the embedding matrix entry `(r, k)` is the f32[4096, 512]
  argument at the index with coordinates `r`, `k`; row `r`'s label is the i32[4096] argument at the index with coordinate `r`.
-/
import Idealize.ShloMosaic.Lib.ValueIdx

noncomputable section

open Idealize.ShloMosaic Idealize.ShloMosaic.ValueIdx

namespace Cert.Args

/-- The embedding matrix read off the f32[4096, 512] argument array. -/
def embOf (a0 : (⟨2, ![4096, 512]⟩ : Shape).Idx → EReal) : Fin 4096 → Fin 512 → EReal := fun r k => a0 (ix2 r k)

/-- The label vector read off the i32[4096] argument array. -/
def labOf (a1 : (⟨1, ![4096]⟩ : Shape).Idx → BitVec 32) : Fin 4096 → BitVec 32 := fun r => a1 (ix1 r)

end Cert.Args

end
-- ==== Proof.Spec.lean ====
/-
  The loss both programs compute, as pure functions of the embedding matrix `emb` (4096 rows of 512 extended reals)
  and the label vector `lab` (4096 words), in the two arrangements the programs use.

  Both start from the Gram matrix `dotp r c = ∑ k, emb r k * emb c k`, the positive-pair mask `posm` (same label, off the
  diagonal) and the negative-pair mask `negm` (different label).

  The reference arrangement scales the Gram matrix by DIVIDING by the temperature `tempD` (the binary value of the
  single-precision literal 0.1), exponentiates, sums each row of `exp · negm` over all 4096 columns to the denominator, forms
  `-log (e / (denom + e))` per pair, and sums pair × `posm` over the whole matrix.

  The kernel arrangement scales by MULTIPLYING with `invT`, the reciprocal of that same literal, walks the 4096 columns in
  four tiles of 1024 (`col j q = 1024 j + q`), adds the tiles' partial row sums one after the other onto zero, and forms the
  pair term as `log (denom + e) - log e`.

  Both end with `loss / max(count, 1)`.
-/
import Mathlib.Data.EReal.Operations
import Mathlib.Algebra.BigOperators.Fin
import Idealize.ShloMosaic.PureOps.Ideal

noncomputable section

open Idealize.ShloMosaic

namespace Cert.Spec

variable (emb : Fin 4096 → Fin 512 → EReal) (lab : Fin 4096 → BitVec 32)

/-- Entry `(r, c)` of the Gram matrix. -/
def dotp (r c : Fin 4096) : EReal := ∑ k : Fin 512, emb r k * emb c k

/-- The positive-pair mask: same label, off the diagonal. -/
def posm (r c : Fin 4096) : EReal := if lab r = lab c ∧ r ≠ c then 1 else 0

/-- The negative-pair mask: different labels. -/
def negm (r c : Fin 4096) : EReal := if lab r = lab c then 0 else 1

/-- The number of positive pairs. -/
def nPos : EReal := ∑ r : Fin 4096, ∑ c : Fin 4096, posm lab r c

/-! ## The reference's arrangement -/

/-- The temperature: the binary value of the single-precision literal `0.1`, 13421773 / 2^27. -/
def tempD : EReal := Ideal.ofBits .f32 0x3DCCCCCD#32

def rE (r c : Fin 4096) : EReal := Ideal.exp (Ideal.div (dotp emb r c) tempD)

def rDenom (r : Fin 4096) : EReal := ∑ c : Fin 4096, rE emb r c * negm lab r c

def rPair (r c : Fin 4096) : EReal := - Ideal.log (Ideal.div (rE emb r c) (rDenom emb lab r + rE emb r c))

def rLoss : EReal := ∑ r : Fin 4096, ∑ c : Fin 4096, rPair emb lab r c * posm lab r c

def refResult : EReal := Ideal.div (rLoss emb lab) (max (nPos lab) 1)

/-! ## The kernel's arrangement -/

/-- Column `q` of tile `j`. -/
def col (j : Fin 4) (q : Fin 1024) : Fin 4096 := ⟨1024 * j.val + q.val, by have := j.isLt; have := q.isLt; omega⟩

/-- The reciprocal of the temperature literal, 2^27 / 13421773. -/
def invT : EReal := ((134217728 / 13421773 : ℝ) : EReal)

def kE (r c : Fin 4096) : EReal := Ideal.exp (dotp emb r c * invT)

/-- Tile `j`'s contribution to row `r`'s denominator. -/
def kTileDen (r : Fin 4096) (j : Fin 4) : EReal := ∑ q : Fin 1024, kE emb r (col j q) * negm lab r (col j q)

/-- Row `r`'s denominator: the four tiles' contributions added onto zero, in order. -/
def kDenom (r : Fin 4096) : EReal :=
  (((0 + kTileDen emb lab r 0) + kTileDen emb lab r 1) + kTileDen emb lab r 2) + kTileDen emb lab r 3

def kPair (r c : Fin 4096) : EReal := Ideal.log (kDenom emb lab r + kE emb r c) - Ideal.log (kE emb r c)

def kTileLoss (r : Fin 4096) (j : Fin 4) : EReal := ∑ q : Fin 1024, kPair emb lab r (col j q) * posm lab r (col j q)

def kRowLoss (r : Fin 4096) : EReal :=
  (((0 + kTileLoss emb lab r 0) + kTileLoss emb lab r 1) + kTileLoss emb lab r 2) + kTileLoss emb lab r 3

def kTilePos (r : Fin 4096) (j : Fin 4) : EReal := ∑ q : Fin 1024, posm lab r (col j q)

def kRowPos (r : Fin 4096) : EReal :=
  (((0 + kTilePos lab r 0) + kTilePos lab r 1) + kTilePos lab r 2) + kTilePos lab r 3

def kerResult : EReal :=
  Ideal.div (0 + ∑ r : Fin 4096, kRowLoss emb lab r) (max (0 + ∑ r : Fin 4096, kRowPos lab r) 1)

end Cert.Spec

end
-- ==== Proof.KI.HostRead.lean ====
/-
  What the host lines around the region compute, read at an index, at the ideal instance.

  Before the region: the two reshapes lay the label vector out as a column [4096, 1] and as a row [1, 4096] (an element
  of a reshape is the element of the operand at the same row-major position), and the change of float format of the
  embedding matrix is the identity on extended reals; none of the three lines writes an argument.

  After the region: each of the two [4096, 1] output arrays is summed over both axes onto the zero word (the initial
  value plus the sum over the rows, the second axis having one coordinate), the second sum is raised to at least the
  word 0x3F800000 (the number 1), and the result is the quotient of the first sum by that; no line writes an argument,
  and the arguments are no output array of the region.
-/
import proofs.«169875_j63625645523217_2_alg».proof.Proof.KI.Launch
import proofs.«169875_j63625645523217_2_alg».proof.Proof.Args
import proofs.«169875_j63625645523217_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Hand

open Idealize.ShloMosaic Idealize.ShloMosaic.TcCoe Idealize.ShloMosaic.ValueIdx Idealize.ShloMosaic.StableHlo
open Idealize.SL.Sem
open Idealize.ShloMosaic.Pipeline (Dat)
open Cert.KernelIdeal Cert.KernelIdeal.Gen

variable (m : (ℓ : Loc nD τ sig) → Buf (Elt Ideal) ℓ)

/-! ## Before the region -/

/-- The embedding matrix as the region finds it: the argument, the change of format being the identity. -/
theorem V_v2 (c : Dev nD) (r : Fin 4096) (k : Fin 512) :
    (V m c main_v2 : S4096x512.Idx → EReal) (ix2 r k) = Cert.Args.embOf (m ((c.tc : Thread nD τ).loc main_arg0)) r k := by
  dsimp only [V, V0]
  simp only [List.flatten_cons, List.flatten_nil, List.append_nil]
  after_results
  rfl

/-- The label column: row r of the [4096, 1] reshape is label r. -/
theorem V_v0 (c : Dev nD) (r : Fin 4096) :
    (V m c main_v0 : S4096x1.Idx → BitVec 32) (ix2 r 0) = Cert.Args.labOf (m ((c.tc : Thread nD τ).loc main_arg1)) r := by
  dsimp only [V, V0]
  simp only [List.flatten_cons, List.flatten_nil, List.append_nil]
  after_results
  show shapeCast S4096x1 (m ((c.tc : Thread nD τ).loc main_arg1) : S4096.Idx → BitVec 32) shapeCasts_S4096_S4096x1 (ix2 r 0) = _
  rw [shapeCast_apply _ _ (ix2 r 0) (ix1 r) (by
    rw [Shape.rowMajor_val_one, Shape.rowMajor_val_two]; show r.val = r.val * 1 + 0; omega)]
  rfl

/-- The label row: column r of the [1, 4096] reshape is label r. -/
theorem V_v1 (c : Dev nD) (r : Fin 4096) :
    (V m c main_v1 : S1x4096.Idx → BitVec 32) (ix2 0 r) = Cert.Args.labOf (m ((c.tc : Thread nD τ).loc main_arg1)) r := by
  dsimp only [V, V0]
  simp only [List.flatten_cons, List.flatten_nil, List.append_nil]
  after_results
  show shapeCast S1x4096 (m ((c.tc : Thread nD τ).loc main_arg1) : S4096.Idx → BitVec 32) shapeCasts_S4096_S1x4096 (ix2 0 r) = _
  rw [shapeCast_apply _ _ (ix2 0 r) (ix1 r) (by
    rw [Shape.rowMajor_val_one, Shape.rowMajor_val_two]; show r.val = 0 * 4096 + r.val; omega)]
  rfl

/-- The lines before the region leave the first argument as launched. -/
theorem V_arg0 (c : Dev nD) : V m c main_arg0 = m ((c.tc : Thread nD τ).loc main_arg0) := by
  dsimp only [V, V0]
  simp only [List.flatten_cons, List.flatten_nil, List.append_nil]
  after_results

/-- The lines before the region leave the second argument as launched. -/
theorem V_arg1 (c : Dev nD) : V m c main_arg1 = m ((c.tc : Thread nD τ).loc main_arg1) := by
  dsimp only [V, V0]
  simp only [List.flatten_cons, List.flatten_nil, List.append_nil]
  after_results

/-! ## After the region -/

/-- The sum of a [4096, 1] array over both axes onto an initial value: the initial value plus the sum over the rows. -/
theorem reduceAdd_col (y : FVec Ideal S4096x1 .f32) (v : FVec Ideal S_ .f32) (i : S_.Idx) :
    Host.reduceAdd (F := Ideal) y v reducesTo_S4096x1_S_d0_1 h_S_ i
      = v (Shape.Idx.first h_S_) + ∑ r : Fin 4096, y (ix2 r 0) := by
  simp only [Host.reduceAdd, Ideal.hostReduceAdd_def]
  rw [Ideal.hostReduceAdd_total reducesTo_S4096x1_S_d0_1 (fun b => b.elim0) y _ i, sum_idx2]
  refine congrArg (_ + ·) (Finset.sum_congr rfl fun r _ => ?_)
  rw [Fin.sum_univ_one]

/-- The word 0x3F800000 denotes the number 1. -/
theorem ofBits_one_f32 : Ideal.ofBits .f32 0x3F800000#32 = (1 : EReal) := by
  simp [Ideal.ofBits, Ideal.ieee, -EReal.coe_mul]; norm_num

/-- The seven lines after the region, from any contents W: the result buffer ends at the quotient of the sum of the
    first output array by the sum of the second raised to at least one. -/
theorem tail_v7 (W : Valuation τ sig (Elt Ideal)) :
    (StableHlo.after (hostOps1 (F := Ideal)) W (Proc.devRef .tc main_v7) : S_.Idx → EReal)
      = fun _ => Ideal.div (0 + (∑ r : Fin 4096, (W (Proc.devRef .tc main_v3_0) : S4096x1.Idx → EReal) (ix2 r 0) : EReal))
          (max (0 + (∑ r : Fin 4096, (W (Proc.devRef .tc main_v3_1) : S4096x1.Idx → EReal) (ix2 r 0) : EReal)) 1) := by
  after_results
  generalize (W (Proc.devRef .tc main_v3_0) : S4096x1.Idx → EReal) = y0
  generalize (W (Proc.devRef .tc main_v3_1) : S4096x1.Idx → EReal) = y1
  funext i
  show Ideal.div (Host.reduceAdd (F := Ideal) y0 (constant (F := Ideal) S_ .f32 0x00000000#32) reducesTo_S4096x1_S_d0_1 h_S_ i)
      (max (Host.reduceAdd (F := Ideal) y1 (constant (F := Ideal) S_ .f32 0x00000000#32) reducesTo_S4096x1_S_d0_1 h_S_ i)
        (Ideal.ofBits .f32 0x3F800000#32)) = _
  rw [reduceAdd_col, reduceAdd_col, constant_apply, Ideal.ofBits_zero_f32, ofBits_one_f32]

section Tail

variable (dats : (p : Fin 1) → (c : Dev nD) → Dat τ (Elt Ideal) Unit ℕ (UR sig nD τ) ℕ (cfgs p) c)

/-- The program's result: the first output array's sum divided by the second's raised to at least one. -/
theorem VEnd_v7 (c : Dev nD) :
    (VEnd m dats c (Proc.devRef .tc main_v7) : S_.Idx → EReal)
      = fun _ => Ideal.div (0 + (∑ r : Fin 4096, ((dats 0 c).arrAt 4 cfg0.N : S4096x1.Idx → EReal) (ix2 r 0) : EReal))
          (max (0 + (∑ r : Fin 4096, ((dats 0 c).arrAt 5 cfg0.N : S4096x1.Idx → EReal) (ix2 r 0) : EReal)) 1) := by
  have e0 : Pipeline.withArrays winOut c (V0 m c) (AOut dats c) (Proc.devRef .tc main_v3_0) = (dats 0 c).arrAt 4 cfg0.N :=
    Pipeline.withArrays_arr winOut winOut_inj c (V0 m c) (AOut dats c) 0
  have e1 : Pipeline.withArrays winOut c (V0 m c) (AOut dats c) (Proc.devRef .tc main_v3_1) = (dats 0 c).arrAt 5 cfg0.N :=
    Pipeline.withArrays_arr winOut winOut_inj c (V0 m c) (AOut dats c) 1
  unfold VEnd
  simp only [List.flatten_cons, List.flatten_nil, List.append_nil]
  rw [tail_v7, e0, e1]

/-- The lines after the region leave the first argument as launched. -/
theorem VEnd_arg0 (c : Dev nD) : VEnd m dats c (Proc.devRef .tc main_arg0) = m ((c.tc : Thread nD τ).loc main_arg0) := by
  unfold VEnd
  simp only [List.flatten_cons, List.flatten_nil, List.append_nil]
  after_results
  rw [Pipeline.withArrays_of_ne winOut c _ _ main_arg0 (by decide)]
  exact V_arg0 m c

/-- The lines after the region leave the second argument as launched. -/
theorem VEnd_arg1 (c : Dev nD) : VEnd m dats c (Proc.devRef .tc main_arg1) = m ((c.tc : Thread nD τ).loc main_arg1) := by
  unfold VEnd
  simp only [List.flatten_cons, List.flatten_nil, List.append_nil]
  after_results
  rw [Pipeline.withArrays_of_ne winOut c _ _ main_arg1 (by decide)]
  exact V_arg1 m c

end Tail

end Cert.KernelIdeal.Hand

end
-- ==== Proof.KI.Index.lean ====
/-
  Rows and column tiles by grid point: point `t = 8 i + 4 phase + j` works on the rows `512 i + p` of the arrays and, of the
  4096 columns, on tile `j`.
-/
import proofs.«169875_j63625645523217_2_alg».proof.Proof.KI.Data
import proofs.«169875_j63625645523217_2_alg».proof.Proof.Spec

noncomputable section

namespace Cert.KernelIdeal.Hand

open Idealize.ShloMosaic Cert.KernelIdeal Cert.KernelIdeal.Gen

/-- Row `p` of the row block point `t` works on, as a row of the arrays. -/
def rowAt (t : Fin cfg0.N) (p : Fin 512) : Fin 4096 :=
  ⟨512 * (t.val / 8) + p.val, by have := lt_of_lt_of_eq t.isLt N64; have := p.isLt; omega⟩

/-- The column tile point `t` works on. -/
def tileOf (t : Fin cfg0.N) : Fin 4 := ⟨t.val % 4, Nat.mod_lt _ (by decide)⟩

/-- Point `8 i + r`. -/
def ptOf (i : Fin 8) (r : ℕ) (hr : r < 8) : Fin cfg0.N := ⟨8 * i.val + r, by rw [N64]; have := i.isLt; omega⟩

theorem rowAt_ptOf (i : Fin 8) (r : ℕ) (hr : r < 8) (p : Fin 512) :
    rowAt (ptOf i r hr) p = ⟨512 * i.val + p.val, by have := i.isLt; have := p.isLt; omega⟩ := by
  apply Fin.ext; show 512 * ((8 * i.val + r) / 8) + p.val = 512 * i.val + p.val; omega

theorem tileOf_ptOf (i : Fin 8) (r : ℕ) (hr : r < 8) : tileOf (ptOf i r hr) = ⟨r % 4, Nat.mod_lt _ (by decide)⟩ := by
  apply Fin.ext; show (8 * i.val + r) % 4 = r % 4; omega

end Cert.KernelIdeal.Hand

end
-- ==== Proof.KI.Blocks.lean ====
/-
  The windows' blocks read at an index, and the two output arrays after the run.

  A window's block at grid point t sits in its array, on each axis, at the block index times the block's size plus the
  coordinate inside the block.  The row-block windows (the embedding rows, the label column, the two outputs) have block
  index t / 8 on the row axis; the resident windows (the whole embedding matrix, the whole label row) have block index 0,
  and the body reads from them the 1024 rows, or labels, of the point's column tile, t mod 4.  So the row block at point
  t, row p, is row 512 (t / 8) + p of the matrix, and the tile's row q is row 1024 (t mod 4) + q.

  Each output's block is written back at the last point of its row block only (the points 8 i + 7); those blocks are
  disjoint, so rows 512 i .. 512 i + 511 of the final array hold what the body left at point 8 i + 7.
-/
import proofs.«169875_j63625645523217_2_alg».proof.Proof.KI.Index
import proofs.«169875_j63625645523217_2_alg».proof.Proof.KI.HostRead
import proofs.«169875_j63625645523217_2_alg».proof.Proof.KI.Data
import Idealize.ShloMosaic.Lib.Pipeline.Value
import Idealize.ShloMosaic.Lib.ValueIdx
import proofs.«169875_j63625645523217_2_alg».proof.Proof.Spec
import proofs.«169875_j63625645523217_2_alg».proof.Proof.Args

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ)

/-- The windows' block indices at every grid point: the row block on the row axis of the row-block windows, zero
    everywhere else. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- Row p of the embedding row block at point t is row 512 (t / 8) + p of the matrix. -/
theorem hb0 (c : Dev nD) (t : Fin cfg0.N) (p k : Fin 512) :
    iblk m c 0 t (ix2 p k) = Cert.Args.embOf (m ((c.tc : Thread nD τ).loc main_arg0)) (rowAt t p) k := by
  obtain ⟨e0, e1, -⟩ := idx_facts t
  show V m c main_v2 (((cfg0.win 0).blk t).view.emb (ix2 p k)) = _
  have e : ((cfg0.win 0).blk t).view.emb (ix2 p k) = ix2 (rowAt t p) k := by
    funext a; apply Fin.ext
    match a with
    | ⟨0, _⟩ => show win0_0.index t (0 : Fin 2) * 512 + 1 * p.val = 512 * (t.val / 8) + p.val; omega
    | ⟨1, _⟩ => show win0_0.index t (1 : Fin 2) * 512 + 1 * k.val = k.val; omega
  rw [e, V_v2]

/-- Row q of the column tile's rows, read off the resident matrix at point t, is row 1024 (t mod 4) + q of the matrix. -/
theorem hb1 (c : Dev nD) (t : Fin cfg0.N) (h : t.val % 8 < 4) (q : Fin 1024) (k : Fin 512) :
    rowsAt (grid0.coords t) ((hcond2 t).mpr h) (iblk m c 1 t) (ix2 q k)
      = Cert.Args.embOf (m ((c.tc : Thread nD τ).loc main_arg0)) (Cert.Spec.col (tileOf t) q) k := by
  obtain ⟨-, -, e0, e1, -⟩ := idx_facts t
  have ho := hoff1 t
  show V m c main_v2 (((cfg0.win 1).blk t).view.emb
    ((Rect.unit (s := S4096x512) (k0_off1 (grid0.coords t)) S1024x512.size (k0_off1_inb (grid0.coords t) ((hcond2 t).mpr h))).emb (ix2 q k))) = _
  have e : ((cfg0.win 1).blk t).view.emb
      ((Rect.unit (s := S4096x512) (k0_off1 (grid0.coords t)) S1024x512.size (k0_off1_inb (grid0.coords t) ((hcond2 t).mpr h))).emb (ix2 q k))
        = ix2 (Cert.Spec.col (tileOf t) q) k := by
    funext a; apply Fin.ext
    match a with
    | ⟨0, _⟩ =>
      show win0_1.index t (0 : Fin 2) * 4096 + 1 * (k0_off1 (grid0.coords t) 0 + 1 * q.val) = 1024 * (t.val % 4) + q.val
      rw [ho]; show win0_1.index t (0 : Fin 2) * 4096 + 1 * (1024 * (t.val % 4) + 1 * q.val) = _; omega
    | ⟨1, _⟩ =>
      show win0_1.index t (1 : Fin 2) * 512 + 1 * (k0_off1 (grid0.coords t) 1 + 1 * k.val) = k.val
      rw [ho]; show win0_1.index t (1 : Fin 2) * 512 + 1 * (0 + 1 * k.val) = _; omega
  rw [e, V_v2]

/-- Row p of the label column block at point t is label 512 (t / 8) + p. -/
theorem hb2 (c : Dev nD) (t : Fin cfg0.N) (p : Fin 512) :
    iblk m c 2 t (ix2 p 0) = Cert.Args.labOf (m ((c.tc : Thread nD τ).loc main_arg1)) (rowAt t p) := by
  obtain ⟨-, -, -, -, e0, e1, -⟩ := idx_facts t
  show V m c main_v0 (((cfg0.win 2).blk t).view.emb (ix2 p 0)) = _
  have e : ((cfg0.win 2).blk t).view.emb (ix2 p 0) = ix2 (rowAt t p) 0 := by
    funext a; apply Fin.ext
    match a with
    | ⟨0, _⟩ => show win0_2.index t (0 : Fin 2) * 512 + 1 * p.val = 512 * (t.val / 8) + p.val; omega
    | ⟨1, _⟩ => show win0_2.index t (1 : Fin 2) * 1 + 1 * 0 = 0; omega
  rw [e, V_v0]

/-- Label q of the column tile, read off the resident label row at a point of the first phase, is label 1024 (t mod 4) + q. -/
theorem hb3 (c : Dev nD) (t : Fin cfg0.N) (h : t.val % 8 < 4) (q : Fin 1024) :
    labsAt (grid0.coords t) ((hcond2 t).mpr h) (iblk m c 3 t) (ix2 0 q)
      = Cert.Args.labOf (m ((c.tc : Thread nD τ).loc main_arg1)) (Cert.Spec.col (tileOf t) q) := by
  obtain ⟨-, -, -, -, -, -, e0, e1, -⟩ := idx_facts t
  have ho := hoff2 t
  show V m c main_v1 (((cfg0.win 3).blk t).view.emb
    ((Rect.unit (s := S1x4096) (k0_off2 (grid0.coords t)) S1x1024.size (k0_off2_inb (grid0.coords t) ((hcond2 t).mpr h))).emb (ix2 0 q))) = _
  have e : ((cfg0.win 3).blk t).view.emb
      ((Rect.unit (s := S1x4096) (k0_off2 (grid0.coords t)) S1x1024.size (k0_off2_inb (grid0.coords t) ((hcond2 t).mpr h))).emb (ix2 0 q))
        = ix2 0 (Cert.Spec.col (tileOf t) q) := by
    funext a; apply Fin.ext
    match a with
    | ⟨0, _⟩ =>
      show win0_3.index t (0 : Fin 2) * 1 + 1 * (k0_off2 (grid0.coords t) 0 + 1 * 0) = 0
      rw [ho]; show win0_3.index t (0 : Fin 2) * 1 + 1 * (0 + 1 * 0) = _; omega
    | ⟨1, _⟩ =>
      show win0_3.index t (1 : Fin 2) * 4096 + 1 * (k0_off2 (grid0.coords t) 1 + 1 * q.val) = 1024 * (t.val % 4) + q.val
      rw [ho]; show win0_3.index t (1 : Fin 2) * 4096 + 1 * (1024 * (t.val % 4) + 1 * q.val) = _; omega
  rw [e, V_v1]

/-- The same label, read at a point of the second phase. -/
theorem hb3C (c : Dev nD) (t : Fin cfg0.N) (h : 4 ≤ t.val % 8) (q : Fin 1024) :
    labsAtC (grid0.coords t) ((hcond3 t).mpr h) (iblk m c 3 t) (ix2 0 q)
      = Cert.Args.labOf (m ((c.tc : Thread nD τ).loc main_arg1)) (Cert.Spec.col (tileOf t) q) := by
  obtain ⟨-, -, -, -, -, -, e0, e1, -⟩ := idx_facts t
  have ho := hoff5 t
  show V m c main_v1 (((cfg0.win 3).blk t).view.emb
    ((Rect.unit (s := S1x4096) (k0_off5 (grid0.coords t)) S1x1024.size (k0_off5_inb (grid0.coords t) ((hcond3 t).mpr h))).emb (ix2 0 q))) = _
  have e : ((cfg0.win 3).blk t).view.emb
      ((Rect.unit (s := S1x4096) (k0_off5 (grid0.coords t)) S1x1024.size (k0_off5_inb (grid0.coords t) ((hcond3 t).mpr h))).emb (ix2 0 q))
        = ix2 0 (Cert.Spec.col (tileOf t) q) := by
    funext a; apply Fin.ext
    match a with
    | ⟨0, _⟩ =>
      show win0_3.index t (0 : Fin 2) * 1 + 1 * (k0_off5 (grid0.coords t) 0 + 1 * 0) = 0
      rw [ho]; show win0_3.index t (0 : Fin 2) * 1 + 1 * (0 + 1 * 0) = _; omega
    | ⟨1, _⟩ =>
      show win0_3.index t (1 : Fin 2) * 4096 + 1 * (k0_off5 (grid0.coords t) 1 + 1 * q.val) = 1024 * (t.val % 4) + q.val
      rw [ho]; show win0_3.index t (1 : Fin 2) * 4096 + 1 * (1024 * (t.val % 4) + 1 * q.val) = _; omega
  rw [e, V_v1]

/-! ## The two output arrays after the run -/

/-- An index of the first output array is in point t's block iff its row is one of the block's 512 rows. -/
theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v3_0).slice (win0_4.rect t)).set ↔ _
  rw [View.set_slice_whole, Rect.mem_set_unit]
  exact Iff.rfl

/-- The same for the second output array. -/
theorem mem_blk5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v3_1).slice (win0_5.rect t)).set ↔ _
  rw [View.set_slice_whole, Rect.mem_set_unit]
  exact Iff.rfl

/-- The blocks written back by two different points are disjoint: they are different row blocks. -/
theorem disj4 : ∀ t t' : Fin cfg0.N, (cfg0.win 4).flush t = true → (cfg0.win 4).flush t' = true → t ≠ t' →
    Disjoint ((cfg0.win 4).blk t).view.set ((cfg0.win 4).blk t').view.set := by
  intro t t' hf hf' hne
  rw [Finset.disjoint_left]
  intro i hi hi'
  rw [mem_blk4] at hi hi'
  have b0 : win0_4.index t (0 : Fin 2) * 512 ≤ (i 0).val ∧ (i 0).val < win0_4.index t (0 : Fin 2) * 512 + 512 := hi 0
  have b0' : win0_4.index t' (0 : Fin 2) * 512 ≤ (i 0).val ∧ (i 0).val < win0_4.index t' (0 : Fin 2) * 512 + 512 := hi' 0
  obtain ⟨-, -, -, -, -, -, -, -, e0, -⟩ := idx_facts t
  obtain ⟨-, -, -, -, -, -, -, -, e0', -⟩ := idx_facts t'
  have h7 := (flush0_4 t).mp hf
  have h7' := (flush0_4 t').mp hf'
  have hv : t.val ≠ t'.val := fun e => hne (Fin.ext e)
  omega

theorem disj5 : ∀ t t' : Fin cfg0.N, (cfg0.win 5).flush t = true → (cfg0.win 5).flush t' = true → t ≠ t' →
    Disjoint ((cfg0.win 5).blk t).view.set ((cfg0.win 5).blk t').view.set := by
  intro t t' hf hf' hne
  rw [Finset.disjoint_left]
  intro i hi hi'
  rw [mem_blk5] at hi hi'
  have b0 : win0_5.index t (0 : Fin 2) * 512 ≤ (i 0).val ∧ (i 0).val < win0_5.index t (0 : Fin 2) * 512 + 512 := hi 0
  have b0' : win0_5.index t' (0 : Fin 2) * 512 ≤ (i 0).val ∧ (i 0).val < win0_5.index t' (0 : Fin 2) * 512 + 512 := hi' 0
  obtain ⟨-, -, -, -, -, -, -, -, -, -, e0, -⟩ := idx_facts t
  obtain ⟨-, -, -, -, -, -, -, -, -, -, e0', -⟩ := idx_facts t'
  have h7 := (flush0_5 t).mp hf
  have h7' := (flush0_5 t').mp hf'
  have hv : t.val ≠ t'.val := fun e => hne (Fin.ext e)
  omega

/-- At a point t that writes the first output's block back, row 512 (t / 8) + p of the array after the run is row p of
    what the body left at t. -/
theorem arr4_at (c : Dev nD) (t : Fin cfg0.N) (hf : (cfg0.win 4).flush t = true) (p : Fin 512) :
    (dats m 0 c).arrAt 4 cfg0.N (ix2 (rowAt t p) 0) = (stAt m c t.val t.isLt).1 (ix2 p 0) := by
  obtain ⟨-, -, -, -, -, -, -, -, e0, e1, -⟩ := idx_facts t
  have h := (dats m 0 c).arrAt_emb_eq_flushed 4 disj4 t hf (ix2 p 0)
  have e : ((cfg0.win 4).blk t).view.emb (ix2 p 0) = ix2 (rowAt t p) 0 := by
    funext a; apply Fin.ext
    match a with
    | ⟨0, _⟩ => show win0_4.index t (0 : Fin 2) * 512 + 1 * p.val = 512 * (t.val / 8) + p.val; omega
    | ⟨1, _⟩ => show win0_4.index t (1 : Fin 2) * 1 + 1 * 0 = 0; omega
  rw [e] at h
  rw [h]
  show (dats m 0 c).after 4 t ((cfg0.win 4).xinj (grid0.coords t) (ix2 p 0)) = _
  rw [after4]
  exact congrArg _ (funext fun a => Fin.ext (by match a with | ⟨0, _⟩ => rfl | ⟨1, _⟩ => rfl))

/-- The same for the second output array. -/
theorem arr5_at (c : Dev nD) (t : Fin cfg0.N) (hf : (cfg0.win 5).flush t = true) (p : Fin 512) :
    (dats m 0 c).arrAt 5 cfg0.N (ix2 (rowAt t p) 0) = (stAt m c t.val t.isLt).2.1 (ix2 p 0) := by
  obtain ⟨-, -, -, -, -, -, -, -, -, -, e0, e1⟩ := idx_facts t
  have h := (dats m 0 c).arrAt_emb_eq_flushed 5 disj5 t hf (ix2 p 0)
  have e : ((cfg0.win 5).blk t).view.emb (ix2 p 0) = ix2 (rowAt t p) 0 := by
    funext a; apply Fin.ext
    match a with
    | ⟨0, _⟩ => show win0_5.index t (0 : Fin 2) * 512 + 1 * p.val = 512 * (t.val / 8) + p.val; omega
    | ⟨1, _⟩ => show win0_5.index t (1 : Fin 2) * 1 + 1 * 0 = 0; omega
  rw [e] at h
  rw [h]
  show (dats m 0 c).after 5 t ((cfg0.win 5).xinj (grid0.coords t) (ix2 p 0)) = _
  rw [after5]
  exact congrArg _ (funext fun a => Fin.ext (by match a with | ⟨0, _⟩ => rfl | ⟨1, _⟩ => rfl))

/-- Row 512 i + p of the first output array after the run is row p of what the body left at point 8 i + 7. -/
theorem arr4 (c : Dev nD) (i : Fin 8) (p : Fin 512) :
    (dats m 0 c).arrAt 4 cfg0.N (ix2 (rowAt (ptOf i 7 (by omega)) p) 0)
      = (stAt m c (ptOf i 7 (by omega)).val (ptOf i 7 (by omega)).isLt).1 (ix2 p 0) :=
  arr4_at m c (ptOf i 7 (by omega)) ((flush0_4 _).mpr (by show (8 * i.val + 7) % 8 = 7; omega)) p

/-- Row 512 i + p of the second output array after the run is row p of what the body left at point 8 i + 7. -/
theorem arr5 (c : Dev nD) (i : Fin 8) (p : Fin 512) :
    (dats m 0 c).arrAt 5 cfg0.N (ix2 (rowAt (ptOf i 7 (by omega)) p) 0)
      = (stAt m c (ptOf i 7 (by omega)).val (ptOf i 7 (by omega)).isLt).2.1 (ix2 p 0) :=
  arr5_at m c (ptOf i 7 (by omega)) ((flush0_5 _).mpr (by show (8 * i.val + 7) % 8 = 7; omega)) p

end Cert.KernelIdeal.Hand

end
-- ==== Proof.KI.BlockReads.lean ====
/-
  How the windows' blocks read the two inputs: the assumption under which the per-point recursion is evaluated.

  At point `t` the first window's block is the point's 512 rows of the embedding matrix, the third window's block those
  rows' labels (a column); the second and fourth windows hold the whole matrix and all labels, of which the body reads
  the 1024 rows and the 1024 labels of the point's column tile.
-/
import proofs.«169875_j63625645523217_2_alg».proof.Proof.KI.Index
import proofs.«169875_j63625645523217_2_alg».proof.Proof.Spec

noncomputable section

namespace Cert.KernelIdeal.Hand

open Idealize.ShloMosaic Idealize.ShloMosaic.ValueIdx Cert.KernelIdeal Cert.KernelIdeal.Gen

/-- The windows' blocks, and the rectangles the body reads of them, are the inputs `emb` and `lab` at the point's rows
    and at the point's column tile. -/
structure BlockReads (m : (ℓ : Loc nD τ sig) → Buf (Elt Ideal) ℓ) (c : Dev nD) (emb : Fin 4096 → Fin 512 → EReal)
    (lab : Fin 4096 → BitVec 32) : Prop where
  /-- The row block: entry `(p, k)` is feature `k` of the point's row `p`. -/
  hb0 : ∀ (t : Fin cfg0.N) (p k : Fin 512), (iblk m c 0 t : Vec Ideal S512x512 .bf16) (ix2 p k) = emb (rowAt t p) k
  /-- The tile's rows, at a point of phase 0: entry `(q, k)` is feature `k` of column `q` of the point's tile. -/
  hb1 : ∀ (t : Fin cfg0.N) (h : t.val % 8 < 4) (q : Fin 1024) (k : Fin 512),
    rowsAt (grid0.coords t) ((hcond2 t).mpr h) (iblk m c 1 t) (ix2 q k) = emb (Cert.Spec.col (tileOf t) q) k
  /-- The rows' labels. -/
  hb2 : ∀ (t : Fin cfg0.N) (p : Fin 512), (iblk m c 2 t : Vec Ideal S512x1 .i32) (ix2 p 0) = lab (rowAt t p)
  /-- The tile's labels, as a point of phase 0 reads them. -/
  hb3 : ∀ (t : Fin cfg0.N) (h : t.val % 8 < 4) (q : Fin 1024),
    labsAt (grid0.coords t) ((hcond2 t).mpr h) (iblk m c 3 t) (ix2 0 q) = lab (Cert.Spec.col (tileOf t) q)
  /-- The tile's labels, as a point of phase 1 reads them. -/
  hb3C : ∀ (t : Fin cfg0.N) (h : 4 ≤ t.val % 8) (q : Fin 1024),
    labsAtC (grid0.coords t) ((hcond3 t).mpr h) (iblk m c 3 t) (ix2 0 q) = lab (Cert.Spec.col (tileOf t) q)

end Cert.KernelIdeal.Hand

end
-- ==== Proof.LibColumn.lean ====
/-
  Two layout operations read at an index given by coordinates, for a column kept as a matrix of one column:
  a vector `[a]` cast to the column `[a, 1]`, and a column `[a, 1]` broadcast along its unit axis to `[a, b]`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KI.PayIdealA.lean ====
/-
  The kernel body's exponential tile, read at an index at the ideal values.

  The named constant `inv_temperature` denotes the reciprocal 2^27 / 13421773 of the temperature literal.  The matrix
  product of a 512-row block with a 1024-row tile, contracted over the 512 features into a zero accumulator, is at
  (p, q) the sum over k of x0 (p, k) * x1 (q, k); the tile stored is the exponential of that sum times the constant.
-/
import proofs.«169875_j63625645523217_2_alg».proof.Proof.Gen.KernelIdeal.Skeleton
import proofs.«169875_j63625645523217_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

open Idealize.ShloMosaic Idealize.ShloMosaic.ValueIdx Cert.KernelIdeal Cert.KernelIdeal.Gen

namespace Cert.KernelIdeal.PayIdeal

/-- The named reciprocal of the temperature denotes 2^27 / 13421773 at the ideal values. -/
theorem inv_temperature :
    Named.named (F := Ideal) Cert.KernelIdeal.κ "inv_temperature" (φ := .f32) 0x41200000#32 = Cert.Spec.invT :=
  IdealRules.named_const.ideal_named_scalar _ _ _ _ rfl

/-- The left operand's row is the output's row. -/
theorem lhsIdx_0 (i : S512x1024.Idx) (c : dot_S512x512_S1024x512_S512x1024_1_1_0_0_n_n.contr.Idx) :
    (dot_S512x512_S1024x512_S512x1024_1_1_0_0_n_n.lhsIdx i c 0).val = (i 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl

/-- The right operand's row is the output's column. -/
theorem rhsIdx_0 (i : S512x1024.Idx) (c : dot_S512x512_S1024x512_S512x1024_1_1_0_0_n_n.contr.Idx) :
    (dot_S512x512_S1024x512_S512x1024_1_1_0_0_n_n.rhsIdx i c 0).val = (i 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl

/-- The left operand's index of the product at output `(p, q)` and contraction coordinate `k` is `(p, k)`. -/
theorem lhsIdx_eq (p : Fin 512) (q : Fin 1024) (k : Fin 512) :
    dot_S512x512_S1024x512_S512x1024_1_1_0_0_n_n.lhsIdx (ix2 p q)
        ((contrEquiv1 dot_S512x512_S1024x512_S512x1024_1_1_0_0_n_n 512 rfl rfl).symm k) = ix2 p k := by
  have hk := contrEquiv1_symm_val dot_S512x512_S1024x512_S512x1024_1_1_0_0_n_n 512 rfl rfl k
  funext a
  refine Fin.ext ?_
  match a with
  | ⟨0, _⟩ => exact lhsIdx_0 _ _
  | ⟨1, _⟩ =>
    exact (dot_S512x512_S1024x512_S512x1024_1_1_0_0_n_n.lhsIdx_val_of_single rfl (ix2 p q) _).trans hk

/-- The right operand's index of the product at output `(p, q)` and contraction coordinate `k` is `(q, k)`. -/
theorem rhsIdx_eq (p : Fin 512) (q : Fin 1024) (k : Fin 512) :
    dot_S512x512_S1024x512_S512x1024_1_1_0_0_n_n.rhsIdx (ix2 p q)
        ((contrEquiv1 dot_S512x512_S1024x512_S512x1024_1_1_0_0_n_n 512 rfl rfl).symm k) = ix2 q k := by
  have hk := contrEquiv1_symm_val dot_S512x512_S1024x512_S512x1024_1_1_0_0_n_n 512 rfl rfl k
  funext a
  refine Fin.ext ?_
  match a with
  | ⟨0, _⟩ => exact rhsIdx_0 _ _
  | ⟨1, _⟩ =>
    exact (dot_S512x512_S1024x512_S512x1024_1_1_0_0_n_n.rhsIdx_val_of_single rfl (ix2 p q) _).trans hk

/-- The matrix product into the zero accumulator, at `(p, q)`: the sum over the features of the products. -/
theorem matmul_apply (x0 : FVec Ideal S512x512 .bf16) (x1 : FVec Ideal S1024x512 .bf16) (p : Fin 512) (q : Fin 1024) :
    matmul (F := Ideal) dot_S512x512_S1024x512_S512x1024_1_1_0_0_n_n none x0 x1
        (constant (F := Ideal) S512x1024 .f32 0x00000000#32) (ix2 p q)
      = ∑ k : Fin 512, x0 (ix2 p k) * x1 (ix2 q k) := by
  simp only [matmul]
  rw [Ideal.matmul_constant_zero_apply,
    ← Equiv.sum_comp (contrEquiv1 dot_S512x512_S1024x512_S512x1024_1_1_0_0_n_n 512 rfl rfl).symm]
  refine Finset.sum_congr rfl fun k _ => ?_
  rw [lhsIdx_eq p q k, rhsIdx_eq p q k]

/-- The exponential tile at `(p, q)`: the exponential of the Gram entry times the reciprocal temperature. -/
theorem pay4_apply (x0 : FVec Ideal S512x512 .bf16) (x1 : FVec Ideal S1024x512 .bf16) (p : Fin 512) (q : Fin 1024) :
    k0_pay4 (F := Ideal) x0 x1 (ix2 p q)
      = Ideal.exp ((∑ k : Fin 512, x0 (ix2 p k) * x1 (ix2 q k)) * Cert.Spec.invT) := by
  unfold k0_pay4
  rw [shapeCast_self, shapeCast_self]
  show Ideal.exp (matmul (F := Ideal) dot_S512x512_S1024x512_S512x1024_1_1_0_0_n_n none x0 x1
      (constant (F := Ideal) S512x1024 .f32 0x00000000#32) (ix2 p q)
        * Named.named (F := Ideal) Cert.KernelIdeal.κ "inv_temperature" (φ := .f32) 0x41200000#32) = _
  rw [matmul_apply, inv_temperature]

/-- The tile stored is the exponential tile (a cast to its own shape). -/
theorem pay5_eq (x0 : FVec Ideal S512x512 .bf16) (x1 : FVec Ideal S1024x512 .bf16) :
    k0_pay5 (F := Ideal) x0 x1 = k0_pay4 (F := Ideal) x0 x1 := by
  unfold k0_pay5
  exact shapeCast_self _ _

/-- The three initial stores write zero everywhere. -/
theorem pay1_eq : k0_pay1 (F := Ideal) = fun _ => 0 := by
  unfold k0_pay1
  dsimp only
  rw [shapeCast_self]
  funext i
  show Ideal.ofBits .f32 0x00000000#32 = 0
  exact Ideal.ofBits_zero_f32

theorem pay2_eq : k0_pay2 (F := Ideal) = fun _ => 0 := by
  unfold k0_pay2
  funext i
  show Ideal.ofBits .f32 0x00000000#32 = 0
  exact Ideal.ofBits_zero_f32

theorem pay3_eq : k0_pay3 (F := Ideal) = fun _ => 0 := by
  unfold k0_pay3
  funext i
  show Ideal.ofBits .f32 0x00000000#32 = 0
  exact Ideal.ofBits_zero_f32

end Cert.KernelIdeal.PayIdeal

end
-- ==== Proof.KI.PayIdealB.lean ====
/-
  The kernel body's two masks, read at an index at the ideal values.

  A comparison's bit, zero-extended to a word and converted to a float, is 0 or 1.  The row labels are a column
  (one per row of the block) and the tile's labels a row (one per column of the tile), each broadcast over the tile.
  The negative-pair mask at (p, q) is 1 exactly when the two labels differ; the positive-pair mask is 1 exactly when
  they agree and the global row number (block offset plus p) is not the global column number (tile offset plus q),
  both computed as 32-bit words.
-/
import proofs.«169875_j63625645523217_2_alg».proof.Proof.Gen.KernelIdeal.Skeleton
import proofs.«169875_j63625645523217_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules
import proofs.«169875_j63625645523217_2_alg».proof.Proof.LibColumn

noncomputable section

open scoped BigOperators

open Idealize.ShloMosaic Idealize.ShloMosaic.ValueIdx Cert.KernelIdeal Cert.KernelIdeal.Gen

namespace Cert.KernelIdeal.PayIdeal

open Cert.Lib

/-- The conversion of a signed word to a float is, at the ideal values, the word's integer. -/
theorem sitofp_ideal {w : Nat} (b : BitVec w) : FloatOps.sitofp (F := Ideal) .f32 b = ((b.toInt : ℝ) : EReal) := rfl

/-- The comparison for equality answers the bit 1 on equal words … -/
theorem cmpi_eq_of_eq {w : Nat} {x y : BitVec w} (h : x = y) : IntOp.cmpi .eq x y = 1#1 := by
  subst h; simp [IntOp.cmpi]

/-- … and the bit 0 on different words. -/
theorem cmpi_eq_of_ne {w : Nat} {x y : BitVec w} (h : ¬x = y) : IntOp.cmpi .eq x y = 0#1 := by
  have hb : (x == y) = false := beq_eq_false_iff_ne.mpr h
  simp [IntOp.cmpi, hb]

/-- The comparison for difference answers the bit 0 on equal words … -/
theorem cmpi_ne_of_eq {w : Nat} {x y : BitVec w} (h : x = y) : IntOp.cmpi .ne x y = 0#1 := by
  subst h; simp [IntOp.cmpi]

/-- … and the bit 1 on different words. -/
theorem cmpi_ne_of_ne {w : Nat} {x y : BitVec w} (h : ¬x = y) : IntOp.cmpi .ne x y = 1#1 := by
  have hb : (x != y) = true := bne_iff_ne.mpr h
  simp [IntOp.cmpi, hb]

/-- The bit 1, zero-extended and converted, is the float 1 … -/
theorem sitofp_bit_one : FloatOps.sitofp (F := Ideal) .f32 ((1#1 : BitVec 1).setWidth 32) = (1 : EReal) := by
  rw [sitofp_ideal, show ((1#1 : BitVec 1).setWidth 32).toInt = 1 by decide]; simp

/-- … and the bit 0 the float 0. -/
theorem sitofp_bit_zero : FloatOps.sitofp (F := Ideal) .f32 ((0#1 : BitVec 1).setWidth 32) = (0 : EReal) := by
  rw [sitofp_ideal, show ((0#1 : BitVec 1).setWidth 32).toInt = 0 by decide]; simp

/-- The row labels broadcast over the tile read, at `(p, q)`, row `p`'s label. -/
theorem rowLab_apply (l2 : Vec Ideal S512x1 .i32) (p : Fin 512) (q : Fin 1024) :
    broadcastTo S512x1024 (shapeCast S512x1 l2 shapeCasts_S512x1_S512x1) broadcasts_S512x1_S512x1024 (ix2 p q)
      = l2 (ix2 p 0) := by
  rw [shapeCast_self]
  exact broadcastTo_a1_ab_apply l2 broadcasts_S512x1_S512x1024 p q

/-- The tile's labels broadcast over the tile read, at `(p, q)`, column `q`'s label. -/
theorem colLab_apply (l3 : Vec Ideal S1x1024 .i32) (p : Fin 512) (q : Fin 1024) :
    broadcastTo S512x1024 (shapeCast S1x1024 l3 shapeCasts_S1x1024_S1x1024) broadcasts_S1x1024_S512x1024 (ix2 p q)
      = l3 (ix2 0 q) := by
  rw [shapeCast_self]
  exact broadcastTo_1b_ab_apply l3 broadcasts_S1x1024_S512x1024 p q

/-- The negative-pair mask at `(p, q)`: 0 when row `p`'s label is column `q`'s, else 1. -/
theorem negMask_apply (l3 : Vec Ideal S1x1024 .i32) (l2 : Vec Ideal S512x1 .i32) (p : Fin 512) (q : Fin 1024) :
    (sitofp (F := Ideal) .f32 (extui 32 (cmpi .ne
        (broadcastTo S512x1024 (shapeCast S512x1 l2 shapeCasts_S512x1_S512x1) broadcasts_S512x1_S512x1024)
        (broadcastTo S512x1024 (shapeCast S1x1024 l3 shapeCasts_S1x1024_S1x1024) broadcasts_S1x1024_S512x1024))
        natLt_1_32) : FVec Ideal S512x1024 .f32) (ix2 p q)
      = if l2 (ix2 p 0) = l3 (ix2 0 q) then (0 : EReal) else 1 := by
  show FloatOps.sitofp (F := Ideal) .f32 ((IntOp.cmpi .ne
      (broadcastTo S512x1024 (shapeCast S512x1 l2 shapeCasts_S512x1_S512x1) broadcasts_S512x1_S512x1024 (ix2 p q))
      (broadcastTo S512x1024 (shapeCast S1x1024 l3 shapeCasts_S1x1024_S1x1024) broadcasts_S1x1024_S512x1024 (ix2 p q))).setWidth 32) = _
  rw [rowLab_apply, colLab_apply]
  by_cases h : l2 (ix2 p 0) = l3 (ix2 0 q)
  · rw [if_pos h, cmpi_ne_of_eq h, sitofp_bit_zero]
  · rw [if_neg h, cmpi_ne_of_ne h, sitofp_bit_one]

/-- The positive-pair mask at `(p, q)`: 1 when row `p`'s label is column `q`'s and the global row number
    `arg0 * 512 + p` is not the global column number `arg2 * 1024 + q` (as 32-bit words), else 0. -/
theorem pay7_apply (arg0 arg2 : BitVec 32) (l3 : Vec Ideal S1x1024 .i32) (l2 : Vec Ideal S512x1 .i32)
    (p : Fin 512) (q : Fin 1024) :
    k0_pay7 (F := Ideal) arg0 arg2 l3 l2 (ix2 p q)
      = if l2 (ix2 p 0) = l3 (ix2 0 q)
            ∧ ¬(arg0 * 512#32 + BitVec.ofNat 32 p.val = arg2 * 1024#32 + BitVec.ofNat 32 q.val)
          then (1 : EReal) else 0 := by
  unfold k0_pay7
  dsimp only
  show FloatOps.sitofp (F := Ideal) .f32 ((IntOp.andi
      (IntOp.cmpi .eq
        (broadcastTo S512x1024 (shapeCast S512x1 l2 shapeCasts_S512x1_S512x1) broadcasts_S512x1_S512x1024 (ix2 p q))
        (broadcastTo S512x1024 (shapeCast S1x1024 l3 shapeCasts_S1x1024_S1x1024) broadcasts_S1x1024_S512x1024 (ix2 p q)))
      (IntOp.xori
        (IntOp.cmpi .eq
          (IntOp.addi (Scalar.muli arg0 512#32) (iota .tc S512x1024 32 [0] iota_S512x1024_d0_w32 (ix2 p q)))
          (IntOp.addi (Scalar.muli arg2 1024#32) (iota .tc S512x1024 32 [1] iota_S512x1024_d1_w32 (ix2 p q))))
        1#1)).setWidth 32) = _
  rw [rowLab_apply, colLab_apply, iota_single_apply, iota_single_apply]
  show FloatOps.sitofp (F := Ideal) .f32 ((IntOp.andi
      (IntOp.cmpi .eq (l2 (ix2 p 0)) (l3 (ix2 0 q)))
      (IntOp.xori
        (IntOp.cmpi .eq (arg0 * 512#32 + BitVec.ofNat 32 p.val) (arg2 * 1024#32 + BitVec.ofNat 32 q.val))
        1#1)).setWidth 32) = _
  by_cases h : l2 (ix2 p 0) = l3 (ix2 0 q)
  · by_cases g : arg0 * 512#32 + BitVec.ofNat 32 p.val = arg2 * 1024#32 + BitVec.ofNat 32 q.val
    · rw [if_neg (fun hh => hh.2 g), cmpi_eq_of_eq h, cmpi_eq_of_eq g]
      exact sitofp_bit_zero
    · rw [if_pos ⟨h, g⟩, cmpi_eq_of_eq h, cmpi_eq_of_ne g]
      exact sitofp_bit_one
  · rw [if_neg (fun hh => h hh.1), cmpi_eq_of_ne h]
    by_cases g : arg0 * 512#32 + BitVec.ofNat 32 p.val = arg2 * 1024#32 + BitVec.ofNat 32 q.val
    · rw [cmpi_eq_of_eq g]; exact sitofp_bit_zero
    · rw [cmpi_eq_of_ne g]; exact sitofp_bit_zero

end Cert.KernelIdeal.PayIdeal

end
-- ==== Proof.KI.PayIdeal.lean ====
/-
  The kernel body's three row accumulations, read at an index at the ideal values.

  A sum along the columns of a 512 x 1024 tile onto the zero word, kept as a column, is at row p the sum over the
  1024 columns of the tile's row p.  The body adds it to what the accumulator column held: the masked exponentials onto
  the row denominators, the masked pair terms `log (denominator + e) - log e` onto the row losses, and the positive-pair
  mask onto the row counts.
-/
import proofs.«169875_j63625645523217_2_alg».proof.Proof.Gen.KernelIdeal.Skeleton
import proofs.«169875_j63625645523217_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules
import proofs.«169875_j63625645523217_2_alg».proof.Proof.LibColumn
import proofs.«169875_j63625645523217_2_alg».proof.Proof.KI.PayIdealA
import proofs.«169875_j63625645523217_2_alg».proof.Proof.KI.PayIdealB

noncomputable section

open scoped BigOperators

open Idealize.ShloMosaic Idealize.ShloMosaic.ValueIdx Cert.KernelIdeal Cert.KernelIdeal.Gen

namespace Cert.KernelIdeal.PayIdeal

open Cert.Lib

/-- The source index over row `p` with column `q` inserted is `(p, q)`. -/
theorem lift_eq (p : Fin 512) (q : Fin 1024) : reduces_S512x1024_S512.lift (ix1 p) q = ix2 p q := by
  funext a
  refine Fin.ext ?_
  match a with
  | ⟨0, _⟩ => rfl
  | ⟨1, _⟩ => rfl

/-- A tile summed along its columns onto the zero word and kept as a column reads, at row `p`, the sum of the tile's
    row `p`. -/
theorem rowSum_apply (src : FVec Ideal S512x1024 .f32) (p : Fin 512) :
    shapeCast S512x1 (multiReduction (F := Ideal) .add [1] S512 src 0x00000000#32 reduces_S512x1024_S512 (.inl rfl) rfl)
        shapeCasts_S512_S512x1 (ix2 p 0)
      = ∑ q : Fin 1024, src (ix2 p q) := by
  refine (shapeCast_a_a1_apply _ shapeCasts_S512_S512x1 p 0).trans ?_
  refine (Ideal.multiReduction_add_single src 0x00000000#32 reduces_S512x1024_S512 (.inl rfl) rfl (ix1 p)).trans ?_
  show ∑ q : Fin 1024, src (reduces_S512x1024_S512.lift (ix1 p) q) = _
  exact Finset.sum_congr rfl fun q _ => congrArg src (lift_eq p q)

/-- The row denominators after the tile: what the column held plus the tile's masked exponentials of the row. -/
theorem pay6_apply (x0 : FVec Ideal S512x512 .bf16) (x1 : FVec Ideal S1024x512 .bf16) (l3 : Vec Ideal S1x1024 .i32)
    (l2 : Vec Ideal S512x1 .i32) (s1 : FVec Ideal S512x1 .f32) (p : Fin 512) :
    k0_pay6 (F := Ideal) x0 x1 l3 l2 s1 (ix2 p 0)
      = s1 (ix2 p 0) + ∑ q : Fin 1024, k0_pay4 (F := Ideal) x0 x1 (ix2 p q)
          * (if l2 (ix2 p 0) = l3 (ix2 0 q) then (0 : EReal) else 1) := by
  unfold k0_pay6
  dsimp only
  rw [shapeCast_self (v := addf s1 _)]
  refine congrArg (s1 (ix2 p 0) + ·) ?_
  refine (rowSum_apply _ p).trans ?_
  refine Finset.sum_congr rfl fun q _ => ?_
  exact congrArg (k0_pay4 (F := Ideal) x0 x1 (ix2 p q) * ·) (negMask_apply l3 l2 p q)

/-- The row losses after the tile: what the column held plus the tile's masked pair terms of the row, each
    `log (denominator + e) - log e`. -/
theorem pay8_apply (arg0 arg2 : BitVec 32) (e : FVec Ideal S512x1024 .f32) (l3 : Vec Ideal S1x1024 .i32)
    (l2 : Vec Ideal S512x1 .i32) (s1 o4 : FVec Ideal S512x1 .f32) (p : Fin 512) :
    k0_pay8 (F := Ideal) arg0 arg2 e l3 l2 s1 o4 (ix2 p 0)
      = o4 (ix2 p 0) + ∑ q : Fin 1024, (Ideal.log (s1 (ix2 p 0) + e (ix2 p q)) - Ideal.log (e (ix2 p q)))
          * k0_pay7 (F := Ideal) arg0 arg2 l3 l2 (ix2 p q) := by
  unfold k0_pay8
  dsimp only
  rw [shapeCast_self (v := o4)]
  refine congrArg (o4 (ix2 p 0) + ·) ?_
  refine (rowSum_apply _ p).trans ?_
  refine Finset.sum_congr rfl fun q _ => ?_
  show (Ideal.log (broadcastTo S512x1024 s1 broadcasts_S512x1_S512x1024 (ix2 p q) + e (ix2 p q))
      - Ideal.log (e (ix2 p q))) * k0_pay7 (F := Ideal) arg0 arg2 l3 l2 (ix2 p q) = _
  rw [broadcastTo_a1_ab_apply]

/-- The row counts after the tile: what the column held plus the tile's positive-pair mask of the row. -/
theorem pay9_apply (arg0 arg2 : BitVec 32) (l3 : Vec Ideal S1x1024 .i32) (l2 : Vec Ideal S512x1 .i32)
    (o5 : FVec Ideal S512x1 .f32) (p : Fin 512) :
    k0_pay9 (F := Ideal) arg0 arg2 l3 l2 o5 (ix2 p 0)
      = o5 (ix2 p 0) + ∑ q : Fin 1024, k0_pay7 (F := Ideal) arg0 arg2 l3 l2 (ix2 p q) := by
  unfold k0_pay9
  dsimp only
  rw [shapeCast_self (v := o5)]
  refine congrArg (o5 (ix2 p 0) + ·) ?_
  exact rowSum_apply _ p

end Cert.KernelIdeal.PayIdeal

end
-- ==== Proof.KI.ValueRowsA.lean ====
/-
  The per-point recursion, one step at a time, and the tile of exponentials and the two masks in the specification's
  terms.

  The tile of exponentials a point of phase 0 stores is, at (p, q), the exponential of the Gram entry of the point's row p
  and the tile's column q times the reciprocal temperature.  The word comparison "global row = global column" of the
  positive-pair mask is the comparison of the two numbers, both being below 4096.
-/
import proofs.«169875_j63625645523217_2_alg».proof.Proof.KI.BlockReads
import proofs.«169875_j63625645523217_2_alg».proof.Proof.KI.PayIdeal

noncomputable section

open scoped BigOperators

namespace Cert.KernelIdeal.Hand

open Idealize.ShloMosaic Idealize.ShloMosaic.ValueIdx Cert.KernelIdeal Cert.KernelIdeal.Gen Cert.KernelIdeal.PayIdeal

variable {m : (ℓ : Loc nD τ sig) → Buf (Elt Ideal) ℓ} {c : Dev nD} {emb : Fin 4096 → Fin 512 → EReal}
  {lab : Fin 4096 → BitVec 32}

/-! ## The recursion, one step at a time -/

/-- At the first point of a row block the outputs are reset and the denominator is the first tile's row sums added to
    the reset column. -/
theorem stAt_atA (n : ℕ) (hn : n < cfg0.N) (h0 : n % 8 = 0) :
    stAt m c n hn = ((k0_pay2 (F := Ideal), k0_pay3 (F := Ideal),
      k0_pay6 (F := Ideal) (iblk m c 0 ⟨n, hn⟩)
        (rowsAt (grid0.coords ⟨n, hn⟩) ((hcond2 ⟨n, hn⟩).mpr (by show n % 8 < 4; omega)) (iblk m c 1 ⟨n, hn⟩))
        (labsAt (grid0.coords ⟨n, hn⟩) ((hcond2 ⟨n, hn⟩).mpr (by show n % 8 < 4; omega)) (iblk m c 3 ⟨n, hn⟩))
        (iblk m c 2 ⟨n, hn⟩) (k0_pay1 (F := Ideal))) :
        Vec Ideal S512x1 .f32 × Vec Ideal S512x1 .f32 × Vec Ideal S512x1 .f32) := by
  cases n with
  | zero => rfl
  | succ n => rw [stAt, dif_pos h0]

/-- At the other points of phase 0 the outputs are kept and the denominator gains the tile's row sums. -/
theorem stAt_atB (n : ℕ) (hn : n + 1 < cfg0.N) (h0 : ¬(n + 1) % 8 = 0) (h1 : (n + 1) % 8 < 4) :
    stAt m c (n + 1) hn = ((stAt m c n (Nat.lt_of_succ_lt hn)).1, (stAt m c n (Nat.lt_of_succ_lt hn)).2.1,
      k0_pay6 (iblk m c 0 ⟨n + 1, hn⟩)
        (rowsAt (grid0.coords ⟨n + 1, hn⟩) ((hcond2 ⟨n + 1, hn⟩).mpr h1) (iblk m c 1 ⟨n + 1, hn⟩))
        (labsAt (grid0.coords ⟨n + 1, hn⟩) ((hcond2 ⟨n + 1, hn⟩).mpr h1) (iblk m c 3 ⟨n + 1, hn⟩))
        (iblk m c 2 ⟨n + 1, hn⟩) (stAt m c n (Nat.lt_of_succ_lt hn)).2.2) := by
  rw [stAt, dif_neg h0, dif_pos h1]

/-- At a point of phase 1 the denominator is kept and the outputs gain the tile's masked pair terms and mask. -/
theorem stAt_atC (n : ℕ) (hn : n + 1 < cfg0.N) (h1 : 4 ≤ (n + 1) % 8) :
    stAt m c (n + 1) hn =
      (k0_pay8 (BitVec.ofNat 32 ((grid0.coords ⟨n + 1, hn⟩) 0).val) (BitVec.ofNat 32 ((grid0.coords ⟨n + 1, hn⟩) 2).val)
          (expTile m c ⟨n + 1 - 4, by omega⟩ (by show (n + 1 - 4) % 8 < 4; omega))
          (labsAtC (grid0.coords ⟨n + 1, hn⟩) ((hcond3 ⟨n + 1, hn⟩).mpr h1) (iblk m c 3 ⟨n + 1, hn⟩)) (iblk m c 2 ⟨n + 1, hn⟩)
          (stAt m c n (Nat.lt_of_succ_lt hn)).2.2 (stAt m c n (Nat.lt_of_succ_lt hn)).1,
        k0_pay9 (BitVec.ofNat 32 ((grid0.coords ⟨n + 1, hn⟩) 0).val) (BitVec.ofNat 32 ((grid0.coords ⟨n + 1, hn⟩) 2).val)
          (labsAtC (grid0.coords ⟨n + 1, hn⟩) ((hcond3 ⟨n + 1, hn⟩).mpr h1) (iblk m c 3 ⟨n + 1, hn⟩)) (iblk m c 2 ⟨n + 1, hn⟩)
          (stAt m c n (Nat.lt_of_succ_lt hn)).2.1,
        (stAt m c n (Nat.lt_of_succ_lt hn)).2.2) := by
  rw [stAt, dif_neg (by omega), dif_neg (by omega)]

/-! ## The tile of exponentials -/

/-- The tile of exponentials of a point of phase 0, at `(p, q)`. -/
theorem expTile_apply (H : BlockReads m c emb lab) (t : Fin cfg0.N) (h : t.val % 8 < 4) (p : Fin 512) (q : Fin 1024) :
    expTile m c t h (ix2 p q) = Cert.Spec.kE emb (rowAt t p) (Cert.Spec.col (tileOf t) q) := by
  unfold expTile
  rw [pay5_eq (iblk m c 0 t) (rowsAt (grid0.coords t) ((hcond2 t).mpr h) (iblk m c 1 t)),
    pay4_apply (iblk m c 0 t) (rowsAt (grid0.coords t) ((hcond2 t).mpr h) (iblk m c 1 t)) p q]
  unfold Cert.Spec.kE Cert.Spec.dotp
  refine congrArg (fun s => Ideal.exp (s * Cert.Spec.invT)) (Finset.sum_congr rfl fun k _ => ?_)
  rw [H.hb0 t p k, H.hb1 t h q k]

/-! ## The masks -/

/-- The two global numbers as words are equal exactly when they are equal: both are below 4096. -/
theorem word_eq_iff (a b p q : ℕ) (ha : a < 8) (hb : b < 4) (hp : p < 512) (hq : q < 1024) :
    (BitVec.ofNat 32 a * 512#32 + BitVec.ofNat 32 p = BitVec.ofNat 32 b * 1024#32 + BitVec.ofNat 32 q)
      ↔ 512 * a + p = 1024 * b + q := by
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

end Cert.KernelIdeal.Hand

end
-- ==== Proof.KI.ValueRowsB.lean ====
/-
  One tile's contribution to a row, in the specification's terms.

  At a point of phase 0 the body adds to the denominator column the tile's masked exponentials of each row: the
  specification's tile denominator.  At a point of phase 1 it adds to the two output columns the tile's masked pair terms
  and the tile's mask: the specification's tile loss and tile count, once the denominator column holds the row
  denominators.
-/
import proofs.«169875_j63625645523217_2_alg».proof.Proof.KI.ValueRowsA

noncomputable section

open scoped BigOperators

namespace Cert.KernelIdeal.Hand

open Idealize.ShloMosaic Idealize.ShloMosaic.ValueIdx Cert.KernelIdeal Cert.KernelIdeal.Gen Cert.KernelIdeal.PayIdeal

variable {m : (ℓ : Loc nD τ sig) → Buf (Elt Ideal) ℓ} {c : Dev nD} {emb : Fin 4096 → Fin 512 → EReal}
  {lab : Fin 4096 → BitVec 32}

/-! ## The masks in the specification's terms -/

/-- The negative-pair mask of a point of phase 0 at `(p, q)`. -/
theorem negMask_tile (H : BlockReads m c emb lab) (t : Fin cfg0.N) (h : t.val % 8 < 4) (p : Fin 512) (q : Fin 1024) :
    (if (iblk m c 2 t : Vec Ideal S512x1 .i32) (ix2 p 0)
          = labsAt (grid0.coords t) ((hcond2 t).mpr h) (iblk m c 3 t) (ix2 0 q) then (0 : EReal) else 1)
      = Cert.Spec.negm lab (rowAt t p) (Cert.Spec.col (tileOf t) q) := by
  rw [H.hb2 t p, H.hb3 t h q]
  rfl

/-- The global row number is the global column number exactly when the row is the column. -/
theorem word_eq_iff_row (t : Fin cfg0.N) (p : Fin 512) (q : Fin 1024) :
    (BitVec.ofNat 32 ((grid0.coords t) 0).val * 512#32 + BitVec.ofNat 32 p.val
        = BitVec.ofNat 32 ((grid0.coords t) 2).val * 1024#32 + BitVec.ofNat 32 q.val)
      ↔ rowAt t p = Cert.Spec.col (tileOf t) q := by
  have hN := lt_of_lt_of_eq t.isLt N64
  rw [coord0 t, coord2 t, word_eq_iff (t.val / 8) (t.val % 4) p.val q.val (by omega) (by omega) p.isLt q.isLt, Fin.ext_iff]
  rfl

/-- The positive-pair mask of a point of phase 1 at `(p, q)`. -/
theorem posMask_tile (H : BlockReads m c emb lab) (t : Fin cfg0.N) (h : 4 ≤ t.val % 8) (p : Fin 512) (q : Fin 1024) :
    k0_pay7 (F := Ideal) (BitVec.ofNat 32 ((grid0.coords t) 0).val) (BitVec.ofNat 32 ((grid0.coords t) 2).val)
        (labsAtC (grid0.coords t) ((hcond3 t).mpr h) (iblk m c 3 t)) (iblk m c 2 t) (ix2 p q)
      = Cert.Spec.posm lab (rowAt t p) (Cert.Spec.col (tileOf t) q) := by
  rw [pay7_apply (BitVec.ofNat 32 ((grid0.coords t) 0).val) (BitVec.ofNat 32 ((grid0.coords t) 2).val)
      (labsAtC (grid0.coords t) ((hcond3 t).mpr h) (iblk m c 3 t)) (iblk m c 2 t) p q,
    H.hb2 t p, H.hb3C t h q]
  unfold Cert.Spec.posm
  exact if_congr (and_congr Iff.rfl (not_congr (word_eq_iff_row t p q))) rfl rfl

/-! ## A tile's contribution to a row -/

/-- The exponential a point of phase 0 computes at `(p, q)`. -/
theorem pay4_tile (H : BlockReads m c emb lab) (t : Fin cfg0.N) (h : t.val % 8 < 4) (p : Fin 512) (q : Fin 1024) :
    k0_pay4 (F := Ideal) (iblk m c 0 t) (rowsAt (grid0.coords t) ((hcond2 t).mpr h) (iblk m c 1 t)) (ix2 p q)
      = Cert.Spec.kE emb (rowAt t p) (Cert.Spec.col (tileOf t) q) := by
  have := expTile_apply H t h p q
  unfold expTile at this
  rwa [pay5_eq (iblk m c 0 t) (rowsAt (grid0.coords t) ((hcond2 t).mpr h) (iblk m c 1 t))] at this

/-- A point of phase 0 adds its tile's denominator to each row of the column. -/
theorem pay6_tile (H : BlockReads m c emb lab) (t : Fin cfg0.N) (h : t.val % 8 < 4) (s1 : FVec Ideal S512x1 .f32)
    (p : Fin 512) :
    k0_pay6 (F := Ideal) (iblk m c 0 t) (rowsAt (grid0.coords t) ((hcond2 t).mpr h) (iblk m c 1 t))
        (labsAt (grid0.coords t) ((hcond2 t).mpr h) (iblk m c 3 t)) (iblk m c 2 t) s1 (ix2 p 0)
      = s1 (ix2 p 0) + Cert.Spec.kTileDen emb lab (rowAt t p) (tileOf t) := by
  rw [pay6_apply (iblk m c 0 t) (rowsAt (grid0.coords t) ((hcond2 t).mpr h) (iblk m c 1 t))
    (labsAt (grid0.coords t) ((hcond2 t).mpr h) (iblk m c 3 t)) (iblk m c 2 t) s1 p]
  unfold Cert.Spec.kTileDen
  refine congrArg (s1 (ix2 p 0) + ·) (Finset.sum_congr rfl fun q _ => ?_)
  rw [pay4_tile H t h p q, negMask_tile H t h p q]

/-- A point of phase 1 adds its tile's loss to each row of the first output column, once the denominator column holds
    the row's denominator; the tile of exponentials it reads back is the one stored at the point `t'` of phase 0 with
    the same rows and the same tile. -/
theorem pay8_tile (H : BlockReads m c emb lab) (t : Fin cfg0.N) (h : 4 ≤ t.val % 8) (t' : Fin cfg0.N)
    (h' : t'.val % 8 < 4) (hrow : ∀ p, rowAt t' p = rowAt t p) (htile : tileOf t' = tileOf t)
    (s1 o4 : FVec Ideal S512x1 .f32) (p : Fin 512)
    (hden : s1 (ix2 p 0) = Cert.Spec.kDenom emb lab (rowAt t p)) :
    k0_pay8 (F := Ideal) (BitVec.ofNat 32 ((grid0.coords t) 0).val) (BitVec.ofNat 32 ((grid0.coords t) 2).val)
        (expTile m c t' h') (labsAtC (grid0.coords t) ((hcond3 t).mpr h) (iblk m c 3 t)) (iblk m c 2 t) s1 o4 (ix2 p 0)
      = o4 (ix2 p 0) + Cert.Spec.kTileLoss emb lab (rowAt t p) (tileOf t) := by
  rw [pay8_apply (BitVec.ofNat 32 ((grid0.coords t) 0).val) (BitVec.ofNat 32 ((grid0.coords t) 2).val)
    (expTile m c t' h') (labsAtC (grid0.coords t) ((hcond3 t).mpr h) (iblk m c 3 t)) (iblk m c 2 t) s1 o4 p]
  unfold Cert.Spec.kTileLoss Cert.Spec.kPair
  refine congrArg (o4 (ix2 p 0) + ·) (Finset.sum_congr rfl fun q _ => ?_)
  rw [posMask_tile H t h p q, expTile_apply H t' h' p q, hrow p, htile, hden]

/-- A point of phase 1 adds its tile's count to each row of the second output column. -/
theorem pay9_tile (H : BlockReads m c emb lab) (t : Fin cfg0.N) (h : 4 ≤ t.val % 8) (o5 : FVec Ideal S512x1 .f32)
    (p : Fin 512) :
    k0_pay9 (F := Ideal) (BitVec.ofNat 32 ((grid0.coords t) 0).val) (BitVec.ofNat 32 ((grid0.coords t) 2).val)
        (labsAtC (grid0.coords t) ((hcond3 t).mpr h) (iblk m c 3 t)) (iblk m c 2 t) o5 (ix2 p 0)
      = o5 (ix2 p 0) + Cert.Spec.kTilePos lab (rowAt t p) (tileOf t) := by
  rw [pay9_apply (BitVec.ofNat 32 ((grid0.coords t) 0).val) (BitVec.ofNat 32 ((grid0.coords t) 2).val)
    (labsAtC (grid0.coords t) ((hcond3 t).mpr h) (iblk m c 3 t)) (iblk m c 2 t) o5 p]
  unfold Cert.Spec.kTilePos
  exact congrArg (o5 (ix2 p 0) + ·) (Finset.sum_congr rfl fun q _ => posMask_tile H t h p q)

end Cert.KernelIdeal.Hand

end
-- ==== Proof.KI.ValueRows.lean ====
/-
  From the per-point recursion to the specification's per-row quantities.

  Row block b is worked on by the eight points 8 b, ..., 8 b + 7: the four of phase 0 build the rows' denominators tile by
  tile onto zero, and the four of phase 1, the denominators now complete, build the rows' losses and counts tile by tile
  onto zero.  After the last point the two output columns hold the specification's row losses and row counts.
-/
import proofs.«169875_j63625645523217_2_alg».proof.Proof.KI.ValueRowsB

noncomputable section

open scoped BigOperators

namespace Cert.KernelIdeal.Hand

open Idealize.ShloMosaic Idealize.ShloMosaic.ValueIdx Cert.KernelIdeal Cert.KernelIdeal.Gen Cert.KernelIdeal.PayIdeal

variable {m : (ℓ : Loc nD τ sig) → Buf (Elt Ideal) ℓ} {c : Dev nD} {emb : Fin 4096 → Fin 512 → EReal}
  {lab : Fin 4096 → BitVec 32}

/-! ## The three columns, one step at a time, at a row -/

theorem den_A (H : BlockReads m c emb lab) (n : ℕ) (hn : n < cfg0.N) (h0 : n % 8 = 0) (p : Fin 512) :
    (stAt m c n hn).2.2 (ix2 p 0)
      = 0 + Cert.Spec.kTileDen emb lab (rowAt ⟨n, hn⟩ p) (tileOf ⟨n, hn⟩) := by
  rw [stAt_atA n hn h0]
  refine (pay6_tile H ⟨n, hn⟩ (by show n % 8 < 4; omega) (k0_pay1 (F := Ideal)) p).trans ?_
  rw [pay1_eq]

theorem den_B (H : BlockReads m c emb lab) (k n : ℕ) (e : k = n + 1) (hk : k < cfg0.N) (h0 : ¬k % 8 = 0)
    (h1 : k % 8 < 4) (p : Fin 512) :
    (stAt m c k hk).2.2 (ix2 p 0)
      = (stAt m c n (by omega)).2.2 (ix2 p 0) + Cert.Spec.kTileDen emb lab (rowAt ⟨k, hk⟩ p) (tileOf ⟨k, hk⟩) := by
  subst e
  rw [stAt_atB n hk h0 h1]
  exact pay6_tile H ⟨n + 1, hk⟩ h1 _ p

theorem den_C (k n : ℕ) (e : k = n + 1) (hk : k < cfg0.N) (h1 : 4 ≤ k % 8) :
    (stAt m c k hk).2.2 = (stAt m c n (by omega)).2.2 := by
  subst e
  rw [stAt_atC n hk h1]

theorem loss_A (n : ℕ) (hn : n < cfg0.N) (h0 : n % 8 = 0) : (stAt m c n hn).1 = fun _ => 0 := by
  rw [stAt_atA n hn h0]
  exact pay2_eq

theorem pos_A (n : ℕ) (hn : n < cfg0.N) (h0 : n % 8 = 0) : (stAt m c n hn).2.1 = fun _ => 0 := by
  rw [stAt_atA n hn h0]
  exact pay3_eq

theorem loss_B (k n : ℕ) (e : k = n + 1) (hk : k < cfg0.N) (h0 : ¬k % 8 = 0) (h1 : k % 8 < 4) :
    (stAt m c k hk).1 = (stAt m c n (by omega)).1 := by
  subst e
  rw [stAt_atB n hk h0 h1]

theorem pos_B (k n : ℕ) (e : k = n + 1) (hk : k < cfg0.N) (h0 : ¬k % 8 = 0) (h1 : k % 8 < 4) :
    (stAt m c k hk).2.1 = (stAt m c n (by omega)).2.1 := by
  subst e
  rw [stAt_atB n hk h0 h1]

theorem loss_C (H : BlockReads m c emb lab) (k n : ℕ) (e : k = n + 1) (hk : k < cfg0.N) (h1 : 4 ≤ k % 8) (p : Fin 512)
    (hden : (stAt m c n (by omega)).2.2 (ix2 p 0) = Cert.Spec.kDenom emb lab (rowAt ⟨k, hk⟩ p)) :
    (stAt m c k hk).1 (ix2 p 0)
      = (stAt m c n (by omega)).1 (ix2 p 0) + Cert.Spec.kTileLoss emb lab (rowAt ⟨k, hk⟩ p) (tileOf ⟨k, hk⟩) := by
  subst e
  rw [stAt_atC n hk h1]
  exact pay8_tile H ⟨n + 1, hk⟩ h1 ⟨n + 1 - 4, by omega⟩ (by show (n + 1 - 4) % 8 < 4; omega)
    (fun p => Fin.ext (by show 512 * ((n + 1 - 4) / 8) + p.val = 512 * ((n + 1) / 8) + p.val; omega))
    (Fin.ext (by show (n + 1 - 4) % 4 = (n + 1) % 4; omega)) _ _ p hden

theorem pos_C (H : BlockReads m c emb lab) (k n : ℕ) (e : k = n + 1) (hk : k < cfg0.N) (h1 : 4 ≤ k % 8) (p : Fin 512) :
    (stAt m c k hk).2.1 (ix2 p 0)
      = (stAt m c n (by omega)).2.1 (ix2 p 0) + Cert.Spec.kTilePos lab (rowAt ⟨k, hk⟩ p) (tileOf ⟨k, hk⟩) := by
  subst e
  rw [stAt_atC n hk h1]
  exact pay9_tile H ⟨n + 1, hk⟩ h1 _ p

/-! ## Row block `b` -/

theorem lt64 (b r : ℕ) (hb : b < 8) (hr : r < 8) : 8 * b + r < cfg0.N := by rw [N64]; omega

/-- Row `p` of row block `b`. -/
def rowOf (b : ℕ) (hb : b < 8) (p : Fin 512) : Fin 4096 := ⟨512 * b + p.val, by have := p.isLt; omega⟩

theorem rowAt_mk (n : ℕ) (hn : n < cfg0.N) (b : ℕ) (hb : b < 8) (e : n / 8 = b) (p : Fin 512) :
    rowAt ⟨n, hn⟩ p = rowOf b hb p :=
  Fin.ext (by show 512 * (n / 8) + p.val = 512 * b + p.val; rw [e])

theorem tileOf_mk (n : ℕ) (hn : n < cfg0.N) (j : Fin 4) (e : n % 4 = j.val) : tileOf ⟨n, hn⟩ = j :=
  Fin.ext e

/-- After the four points of phase 0 the denominator column holds the rows' denominators. -/
theorem den_block (H : BlockReads m c emb lab) (b : ℕ) (hb : b < 8) (p : Fin 512) :
    (stAt m c (8 * b + 3) (lt64 b 3 hb (by omega))).2.2 (ix2 p 0) = Cert.Spec.kDenom emb lab (rowOf b hb p) := by
  rw [den_B H (8 * b + 3) (8 * b + 2) rfl _ (by omega) (by omega) p,
    den_B H (8 * b + 2) (8 * b + 1) rfl _ (by omega) (by omega) p,
    den_B H (8 * b + 1) (8 * b) rfl _ (by omega) (by omega) p,
    den_A H (8 * b) _ (by omega) p,
    rowAt_mk (8 * b + 3) _ b hb (by omega) p, rowAt_mk (8 * b + 2) _ b hb (by omega) p,
    rowAt_mk (8 * b + 1) _ b hb (by omega) p, rowAt_mk (8 * b) _ b hb (by omega) p,
    tileOf_mk (8 * b + 3) _ 3 (by show (8 * b + 3) % 4 = 3; omega),
    tileOf_mk (8 * b + 2) _ 2 (by show (8 * b + 2) % 4 = 2; omega),
    tileOf_mk (8 * b + 1) _ 1 (by show (8 * b + 1) % 4 = 1; omega),
    tileOf_mk (8 * b) _ 0 (by show (8 * b) % 4 = 0; omega)]
  rfl

/-- The denominator column is unchanged through phase 1. -/
theorem den_block' (H : BlockReads m c emb lab) (b : ℕ) (hb : b < 8) (r : ℕ) (hr3 : 3 ≤ r) (hr : r < 8) (p : Fin 512) :
    (stAt m c (8 * b + r) (lt64 b r hb hr)).2.2 (ix2 p 0) = Cert.Spec.kDenom emb lab (rowOf b hb p) := by
  have h3 := den_block H b hb p
  have h4 : (stAt m c (8 * b + 4) (lt64 b 4 hb (by omega))).2.2 = (stAt m c (8 * b + 3) (lt64 b 3 hb (by omega))).2.2 :=
    den_C (8 * b + 4) (8 * b + 3) rfl _ (by omega)
  have h5 : (stAt m c (8 * b + 5) (lt64 b 5 hb (by omega))).2.2 = (stAt m c (8 * b + 4) (lt64 b 4 hb (by omega))).2.2 :=
    den_C (8 * b + 5) (8 * b + 4) rfl _ (by omega)
  have h6 : (stAt m c (8 * b + 6) (lt64 b 6 hb (by omega))).2.2 = (stAt m c (8 * b + 5) (lt64 b 5 hb (by omega))).2.2 :=
    den_C (8 * b + 6) (8 * b + 5) rfl _ (by omega)
  have h7 : (stAt m c (8 * b + 7) (lt64 b 7 hb (by omega))).2.2 = (stAt m c (8 * b + 6) (lt64 b 6 hb (by omega))).2.2 :=
    den_C (8 * b + 7) (8 * b + 6) rfl _ (by omega)
  obtain rfl | rfl | rfl | rfl | rfl : r = 3 ∨ r = 4 ∨ r = 5 ∨ r = 6 ∨ r = 7 := by omega
  · exact h3
  · rw [h4]; exact h3
  · rw [h5, h4]; exact h3
  · rw [h6, h5, h4]; exact h3
  · rw [h7, h6, h5, h4]; exact h3

/-- After phase 0 the two output columns are still zero. -/
theorem loss_block0 (b : ℕ) (hb : b < 8) : (stAt m c (8 * b + 3) (lt64 b 3 hb (by omega))).1 = fun _ => 0 := by
  rw [loss_B (8 * b + 3) (8 * b + 2) rfl _ (by omega) (by omega),
    loss_B (8 * b + 2) (8 * b + 1) rfl _ (by omega) (by omega),
    loss_B (8 * b + 1) (8 * b) rfl _ (by omega) (by omega)]
  exact loss_A (8 * b) _ (by omega)

theorem pos_block0 (b : ℕ) (hb : b < 8) : (stAt m c (8 * b + 3) (lt64 b 3 hb (by omega))).2.1 = fun _ => 0 := by
  rw [pos_B (8 * b + 3) (8 * b + 2) rfl _ (by omega) (by omega),
    pos_B (8 * b + 2) (8 * b + 1) rfl _ (by omega) (by omega),
    pos_B (8 * b + 1) (8 * b) rfl _ (by omega) (by omega)]
  exact pos_A (8 * b) _ (by omega)

/-- After the last point of row block `b` the first output column holds the rows' losses. -/
theorem loss_block (H : BlockReads m c emb lab) (b : ℕ) (hb : b < 8) (p : Fin 512) :
    (stAt m c (8 * b + 7) (lt64 b 7 hb (by omega))).1 (ix2 p 0) = Cert.Spec.kRowLoss emb lab (rowOf b hb p) := by
  have hd : ∀ (r : ℕ) (hr3 : 3 ≤ r) (hr : r < 7),
      (stAt m c (8 * b + r) (lt64 b r hb (by omega))).2.2 (ix2 p 0)
        = Cert.Spec.kDenom emb lab (rowAt ⟨8 * b + (r + 1), lt64 b (r + 1) hb (by omega)⟩ p) := fun r hr3 hr => by
    rw [rowAt_mk (8 * b + (r + 1)) _ b hb (by omega) p]
    exact den_block' H b hb r hr3 (by omega) p
  rw [loss_C H (8 * b + 7) (8 * b + 6) rfl _ (by omega) p (hd 6 (by omega) (by omega)),
    loss_C H (8 * b + 6) (8 * b + 5) rfl _ (by omega) p (hd 5 (by omega) (by omega)),
    loss_C H (8 * b + 5) (8 * b + 4) rfl _ (by omega) p (hd 4 (by omega) (by omega)),
    loss_C H (8 * b + 4) (8 * b + 3) rfl _ (by omega) p (hd 3 (by omega) (by omega)),
    loss_block0 b hb,
    rowAt_mk (8 * b + 7) _ b hb (by omega) p, rowAt_mk (8 * b + 6) _ b hb (by omega) p,
    rowAt_mk (8 * b + 5) _ b hb (by omega) p, rowAt_mk (8 * b + 4) _ b hb (by omega) p,
    tileOf_mk (8 * b + 7) _ 3 (by show (8 * b + 7) % 4 = 3; omega),
    tileOf_mk (8 * b + 6) _ 2 (by show (8 * b + 6) % 4 = 2; omega),
    tileOf_mk (8 * b + 5) _ 1 (by show (8 * b + 5) % 4 = 1; omega),
    tileOf_mk (8 * b + 4) _ 0 (by show (8 * b + 4) % 4 = 0; omega)]
  rfl

/-- After the last point of row block `b` the second output column holds the rows' counts. -/
theorem pos_block (H : BlockReads m c emb lab) (b : ℕ) (hb : b < 8) (p : Fin 512) :
    (stAt m c (8 * b + 7) (lt64 b 7 hb (by omega))).2.1 (ix2 p 0) = Cert.Spec.kRowPos lab (rowOf b hb p) := by
  rw [pos_C H (8 * b + 7) (8 * b + 6) rfl _ (by omega) p,
    pos_C H (8 * b + 6) (8 * b + 5) rfl _ (by omega) p,
    pos_C H (8 * b + 5) (8 * b + 4) rfl _ (by omega) p,
    pos_C H (8 * b + 4) (8 * b + 3) rfl _ (by omega) p,
    pos_block0 b hb,
    rowAt_mk (8 * b + 7) _ b hb (by omega) p, rowAt_mk (8 * b + 6) _ b hb (by omega) p,
    rowAt_mk (8 * b + 5) _ b hb (by omega) p, rowAt_mk (8 * b + 4) _ b hb (by omega) p,
    tileOf_mk (8 * b + 7) _ 3 (by show (8 * b + 7) % 4 = 3; omega),
    tileOf_mk (8 * b + 6) _ 2 (by show (8 * b + 6) % 4 = 2; omega),
    tileOf_mk (8 * b + 5) _ 1 (by show (8 * b + 5) % 4 = 1; omega),
    tileOf_mk (8 * b + 4) _ 0 (by show (8 * b + 4) % 4 = 0; omega)]
  rfl

/-! ## The results -/

/-- After the last point of row block `i` the first output's buffer holds the specification's row losses. -/
theorem loss_row (H : BlockReads m c emb lab) (i : Fin 8) (p : Fin 512) :
    (stAt m c (8 * i.val + 7) (ptOf i 7 (by omega)).isLt).1 (ix2 p 0)
      = Cert.Spec.kRowLoss emb lab (rowAt (ptOf i 7 (by omega)) p) := by
  rw [rowAt_ptOf i 7 (by omega) p]
  exact loss_block H i.val i.isLt p

/-- After the last point of row block `i` the second output's buffer holds the specification's row counts. -/
theorem pos_row (H : BlockReads m c emb lab) (i : Fin 8) (p : Fin 512) :
    (stAt m c (8 * i.val + 7) (ptOf i 7 (by omega)).isLt).2.1 (ix2 p 0)
      = Cert.Spec.kRowPos lab (rowAt (ptOf i 7 (by omega)) p) := by
  rw [rowAt_ptOf i 7 (by omega) p]
  exact pos_block H i.val i.isLt p

/-- The same at any point that is the last of its row block. -/
theorem loss_row_pt (H : BlockReads m c emb lab) (t : Fin cfg0.N) (h7 : t.val % 8 = 7) (p : Fin 512) :
    (stAt m c t.val t.isLt).1 (ix2 p 0) = Cert.Spec.kRowLoss emb lab (rowAt t p) := by
  obtain ⟨n, hn⟩ := t
  have hN := lt_of_lt_of_eq hn N64
  have h7' : n % 8 = 7 := h7
  obtain ⟨b, hb, rfl⟩ : ∃ b, b < 8 ∧ n = 8 * b + 7 := ⟨n / 8, by omega, by omega⟩
  rw [rowAt_mk _ _ b hb (by omega) p]
  exact loss_block H b hb p

theorem pos_row_pt (H : BlockReads m c emb lab) (t : Fin cfg0.N) (h7 : t.val % 8 = 7) (p : Fin 512) :
    (stAt m c t.val t.isLt).2.1 (ix2 p 0) = Cert.Spec.kRowPos lab (rowAt t p) := by
  obtain ⟨n, hn⟩ := t
  have hN := lt_of_lt_of_eq hn N64
  have h7' : n % 8 = 7 := h7
  obtain ⟨b, hb, rfl⟩ : ∃ b, b < 8 ∧ n = 8 * b + 7 := ⟨n / 8, by omega, by omega⟩
  rw [rowAt_mk _ _ b hb (by omega) p]
  exact pos_block H b hb p

end Cert.KernelIdeal.Hand

end
-- ==== Proof.KI.Value.lean ====
/-
  What the idealized kernel program returns: the specification's loss in the kernel's arrangement, of the two argument arrays.

  Row `512 i + p` of each output array is what the last point of row block `i` wrote back, which the per-row induction
  identifies with the row's loss sum and positive count; the host lines after the region sum the two arrays onto zero and
  divide the first sum by the larger of the second and one.
-/
import proofs.«169875_j63625645523217_2_alg».proof.Proof.KI.Frame
import proofs.«169875_j63625645523217_2_alg».proof.Proof.KI.Body
import proofs.«169875_j63625645523217_2_alg».proof.Proof.KI.HostRead
import proofs.«169875_j63625645523217_2_alg».proof.Proof.KI.Blocks
import proofs.«169875_j63625645523217_2_alg».proof.Proof.KI.ValueRows

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation)
open Cert.KernelIdeal Cert.KernelIdeal.Gen

variable (m : (ℓ : Loc nD τ sig) → Buf (Elt Ideal) ℓ) (ρ : Dev nD → PrngReg)

/-- How the windows' blocks read the two argument arrays. -/
theorem blockReads (c : Dev nD) :
    BlockReads m c (Cert.Args.embOf (m ((c.tc : Thread nD τ).loc main_arg0))) (Cert.Args.labOf (m ((c.tc : Thread nD τ).loc main_arg1))) :=
  ⟨hb0 m c, hb1 m c, hb2 m c, hb3 m c, hb3C m c⟩

/-- Every row of the arrays is row `p` of the row block some last point `8 i + 7` works on. -/
theorem row_split (r : Fin 4096) : ∃ (i : Fin 8) (p : Fin 512), r = rowAt (ptOf i 7 (by omega)) p :=
  ⟨⟨r.val / 512, by have := r.isLt; omega⟩, ⟨r.val % 512, Nat.mod_lt _ (by decide)⟩, by
    rw [rowAt_ptOf]; apply Fin.ext; show r.val = 512 * (r.val / 512) + r.val % 512; omega⟩

/-- Row `r` of the first output array, when the region is left, is the row's loss sum. -/
theorem arr4_row (c : Dev nD) (r : Fin 4096) :
    ((dats m 0 c).arrAt 4 cfg0.N : S4096x1.Idx → EReal) (ix2 r 0)
      = Cert.Spec.kRowLoss (Cert.Args.embOf (m ((c.tc : Thread nD τ).loc main_arg0))) (Cert.Args.labOf (m ((c.tc : Thread nD τ).loc main_arg1))) r := by
  obtain ⟨i, p, rfl⟩ := row_split r
  rw [arr4 m c i p]
  exact loss_row (blockReads m c) i p

/-- Row `r` of the second output array is the row's count of positive pairs. -/
theorem arr5_row (c : Dev nD) (r : Fin 4096) :
    ((dats m 0 c).arrAt 5 cfg0.N : S4096x1.Idx → EReal) (ix2 r 0)
      = Cert.Spec.kRowPos (Cert.Args.labOf (m ((c.tc : Thread nD τ).loc main_arg1))) r := by
  obtain ⟨i, p, rfl⟩ := row_split r
  rw [arr5 m c i p]
  exact pos_row (blockReads m c) i p

/-- The result buffer ends at the specification's loss in the kernel's arrangement. -/
theorem VEnd_result (c : Dev nD) :
    (VEnd m (dats m) c (Proc.devRef .tc main_v7) : S_.Idx → EReal)
      = fun _ => Cert.Spec.kerResult (Cert.Args.embOf (m ((c.tc : Thread nD τ).loc main_arg0))) (Cert.Args.labOf (m ((c.tc : Thread nD τ).loc main_arg1))) := by
  rw [VEnd_v7 m (dats m) c]
  unfold Cert.Spec.kerResult
  simp only [arr4_row m c, arr5_row m c]

/-- THE RUN WITH ITS VALUE: every weakly fair execution of @main terminates, the result buffer at the specification's loss
    of the argument arrays, the argument arrays unchanged. -/
theorem result_run :
    θ_run (defs (F := Ideal)) (onTc (τ := τ) (main (F := Ideal))) ⟨m, fun _ => 0, ρ⟩ (fun r => ∀ c : Dev nD,
      r.2.mem ((c.tc : Thread nD τ).loc main_v7)
          = (fun _ => Cert.Spec.kerResult (Cert.Args.embOf (m ((c.tc : Thread nD τ).loc main_arg0))) (Cert.Args.labOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c =>
    ⟨((h c).2 main_v7 (Pipeline.mem_restRefs_of main_v7 rfl (by decide))).trans (VEnd_result m c),
     ((h c).2 main_arg0 (Pipeline.mem_restRefs_of main_arg0 rfl (by decide))).trans (VEnd_arg0 m (dats m) c),
     ((h c).2 main_arg1 (Pipeline.mem_restRefs_of main_arg1 rfl (by decide))).trans (VEnd_arg1 m (dats m) c)⟩)
    (run_main m ρ (body_obligation m))

end Cert.KernelIdeal.Hand

end
-- ==== Proof.KI.Preserves.lean ====
/-
  The one rewrite of the idealized kernel: the constant 10.0 is named `inv_temperature`, and the table gives that name the
  value 2^27 / 13421773, the reciprocal of what the temperature literal denotes.
-/
import proofs.«169875_j63625645523217_2_alg».proof.Defs
import Idealize.ShloMosaic.PureOps.IdealRules

noncomputable section

open Idealize.ShloMosaic

namespace Cert.KernelIdeal.PayIdeal

/-- The table gives `inv_temperature` the value 2^27 / 13421773, and the printed constant is that value at the ideal
    values. -/
theorem preserves : Cert.preserves_Kernel_KernelIdeal :=
  IdealRules.named_const.statement Cert.KernelIdeal.κ "inv_temperature" .f32 0x41200000#32
    ((134217728 / 13421773 : ℝ) : EReal) rfl

end Cert.KernelIdeal.PayIdeal

end
-- ==== Proof.RefMasks.lean ====
/-
  The two pair masks of the reference program, read at a pair of rows.

  The program compares the label vector laid along the rows with the same vector laid along the columns (one-bit word
  per pair), builds the diagonal by comparing the row counter with the column counter as 32-bit words (both below 4096,
  so the words are equal exactly when the counters are), and converts the one-bit words to numbers: the word 1 to the
  number 1, the word 0 to the number 0.  Hence the converted "same label and off the diagonal" word is the
  positive-pair mask of the specification, and the converted "not same label" word its negative-pair mask.
-/
import proofs.«169875_j63625645523217_2_alg».proof.Proof.Gen.ReferenceIdeal.Read
import proofs.«169875_j63625645523217_2_alg».proof.Proof.Spec
import proofs.«169875_j63625645523217_2_alg».proof.Proof.Args

noncomputable section

open Idealize.ShloMosaic Idealize.ShloMosaic.ValueIdx
open Cert.ReferenceIdeal Cert.ReferenceIdeal.Gen Cert.ReferenceIdeal.Read

namespace Cert.ReferenceIdeal.RefValue

/-- The contents of the f32[4096, 512] argument at the ideal instance. -/
abbrev A0 := (⟨S4096x512, .f32⟩ : BufTy).Contents (Elt Ideal)
/-- The contents of the i32[4096] argument. -/
abbrev A1 := (⟨S4096, .i32⟩ : BufTy).Contents (Elt Ideal)

/-- An equality comparison of two words is the one-bit word 1 when they are equal and 0 otherwise. -/
theorem cmpi_eq_ite {w : Nat} (x y : BitVec w) : IntOp.cmpi .eq x y = if x = y then 1#1 else 0#1 := by
  unfold IntOp.cmpi
  by_cases h : x = y
  · simp [h]
  · have hb : (x == y) = false := beq_eq_false_iff_ne.mpr h
    simp [h, hb]

/-- The one-bit word 1 converts to the number 1. -/
theorem uitofp_one : FloatOps.uitofp (F := Ideal) .f32 (1#1) = (1 : EReal) := by
  show (((1#1 : BitVec 1).toNat : ℝ) : EReal) = 1
  simp

/-- The one-bit word 0 converts to the number 0. -/
theorem uitofp_zero : FloatOps.uitofp (F := Ideal) .f32 (0#1) = (0 : EReal) := by
  show (((0#1 : BitVec 1).toNat : ℝ) : EReal) = 0
  simp

/-- Two counters below 4096 are equal exactly when their 32-bit words are. -/
theorem ofNat32_inj (r c : Fin 4096) : (BitVec.ofNat 32 r.val = BitVec.ofNat 32 c.val) ↔ r = c := by
  constructor
  · intro h
    have h2 := congrArg BitVec.toNat h
    rw [BitVec.toNat_ofNat, BitVec.toNat_ofNat, Nat.mod_eq_of_lt (by have := r.isLt; omega),
      Nat.mod_eq_of_lt (by have := c.isLt; omega)] at h2
    exact Fin.ext h2
  · intro h; rw [h]

/-- The label comparison at the pair (r, c): row r's label against row c's. -/
theorem v8_at (a1 : A1) (r c : Fin 4096) :
    val_main_v8 (F := Ideal) a1 (ix2 r c)
      = if Cert.Args.labOf a1 r = Cert.Args.labOf a1 c then 1#1 else 0#1 := by
  have e1 : idx_main_v4 (idx_main_v6 (ix2 r c)) = ix1 r := funext fun a => Fin.ext (by match a with | ⟨0, _⟩ => rfl)
  have e2 : idx_main_v5 (idx_main_v7 (ix2 r c)) = ix1 c := funext fun a => Fin.ext (by match a with | ⟨0, _⟩ => rfl)
  rw [val_main_v8_apply, val_main_v6_apply, val_main_v7_apply, val_main_v4_apply, val_main_v5_apply, e1, e2,
    cmpi_eq_ite]
  rfl

/-- The diagonal word at the pair (r, c). -/
theorem v13_at (r c : Fin 4096) :
    val_main_v13 (F := Ideal) (ix2 r c) = if r = c then 1#1 else 0#1 := by
  rw [val_main_v13_apply, val_main_v12_apply, val_main_v9_apply, val_main_v10_apply, val_main_v11_apply,
    val_main_c_apply, cmpi_eq_ite]
  have h0 : IntOp.addi (BitVec.ofNat 32 ((ix2 r c : S4096x4096.Idx) 0).val) 0#32 = BitVec.ofNat 32 r.val := by
    show BitVec.ofNat 32 r.val + 0#32 = _
    simp
  have h1 : BitVec.ofNat 32 ((ix2 r c : S4096x4096.Idx) 1).val = BitVec.ofNat 32 c.val := rfl
  rw [h0, h1]
  by_cases h : r = c
  · rw [if_pos h, if_pos ((ofNat32_inj r c).mpr h)]
  · rw [if_neg h, if_neg (fun hh => h ((ofNat32_inj r c).mp hh))]

/-- The converted "not same label" word is the negative-pair mask. -/
theorem v18_at (a1 : A1) (r c : Fin 4096) :
    val_main_v18 (F := Ideal) a1 (ix2 r c) = Cert.Spec.negm (Cert.Args.labOf a1) r c := by
  rw [val_main_v18_apply, val_main_v17_apply, v8_at]
  unfold Cert.Spec.negm
  by_cases h : Cert.Args.labOf a1 r = Cert.Args.labOf a1 c
  · rw [if_pos h, if_pos h, show ~~~(1#1 : BitVec 1) = 0#1 by decide, uitofp_zero]
  · rw [if_neg h, if_neg h, show ~~~(0#1 : BitVec 1) = 1#1 by decide, uitofp_one]

/-- The converted "same label and off the diagonal" word is the positive-pair mask. -/
theorem v16_at (a1 : A1) (r c : Fin 4096) :
    val_main_v16 (F := Ideal) a1 (ix2 r c) = Cert.Spec.posm (Cert.Args.labOf a1) r c := by
  rw [val_main_v16_apply, val_main_v15_apply, val_main_v14_apply, v8_at, v13_at]
  unfold Cert.Spec.posm
  by_cases h : Cert.Args.labOf a1 r = Cert.Args.labOf a1 c
  · by_cases hd : r = c
    · rw [if_pos h, if_pos hd, if_neg (fun hh => hh.2 hd),
        show IntOp.andi (1#1 : BitVec 1) (~~~(1#1 : BitVec 1)) = 0#1 by decide, uitofp_zero]
    · rw [if_pos h, if_neg hd, if_pos ⟨h, hd⟩,
        show IntOp.andi (1#1 : BitVec 1) (~~~(0#1 : BitVec 1)) = 1#1 by decide, uitofp_one]
  · by_cases hd : r = c
    · rw [if_neg h, if_pos hd, if_neg (fun hh => h hh.1),
        show IntOp.andi (0#1 : BitVec 1) (~~~(1#1 : BitVec 1)) = 0#1 by decide, uitofp_zero]
    · rw [if_neg h, if_neg hd, if_neg (fun hh => h hh.1),
        show IntOp.andi (0#1 : BitVec 1) (~~~(0#1 : BitVec 1)) = 0#1 by decide, uitofp_zero]

end Cert.ReferenceIdeal.RefValue

end
-- ==== Proof.RefPairs.lean ====
/-
  The reference program's intermediate arrays, read at a pair of rows, are the specification's quantities.

  The contraction of the embedding matrix with its own transpose is the Gram matrix; dividing by the temperature word
  and exponentiating gives the exponential matrix; multiplying it by the negative-pair mask and summing each row onto
  the zero word gives the row denominator; the per-pair term is minus the logarithm of the quotient of the exponential
  by the denominator plus the exponential.
-/
import proofs.«169875_j63625645523217_2_alg».proof.Proof.RefMasks

noncomputable section

open Idealize.ShloMosaic Idealize.ShloMosaic.ValueIdx
open Cert.ReferenceIdeal Cert.ReferenceIdeal.Gen Cert.ReferenceIdeal.Read

namespace Cert.ReferenceIdeal.RefValue

/-- The contraction at the pair (r, c) is the Gram matrix entry: the transposed operand at (k, c) is the matrix at (c, k). -/
theorem v1_at (a0 : A0) (r c : Fin 4096) :
    val_main_v1 (F := Ideal) a0 (ix2 r c) = Cert.Spec.dotp (Cert.Args.embOf a0) r c := by
  rw [val_main_v1_apply]
  unfold Cert.Spec.dotp Cert.Args.embOf
  refine Finset.sum_congr rfl fun k _ => ?_
  rw [val_main_v0_apply]
  have el : lidx_main_v1 (ix2 r c) k = ix2 r k :=
    funext fun a => Fin.ext (by match a with | ⟨0, _⟩ => rfl | ⟨1, _⟩ => rfl)
  have er : idx_main_v0 (ridx_main_v1 (ix2 r c) k) = ix2 c k :=
    funext fun a => Fin.ext (by match a with | ⟨0, _⟩ => rfl | ⟨1, _⟩ => rfl)
  rw [el, er]

/-- The scaled Gram matrix: the entry divided by the temperature word. -/
theorem v3_at (a0 : A0) (r c : Fin 4096) :
    val_main_v3 (F := Ideal) a0 (ix2 r c)
      = Ideal.div (Cert.Spec.dotp (Cert.Args.embOf a0) r c) Cert.Spec.tempD := by
  rw [val_main_v3_apply, v1_at, val_main_v2_apply, val_main_cst_apply]
  rfl

/-- The exponential matrix. -/
theorem v19_at (a0 : A0) (r c : Fin 4096) :
    val_main_v19 (F := Ideal) a0 (ix2 r c) = Cert.Spec.rE (Cert.Args.embOf a0) r c := by
  rw [val_main_v19_apply, v3_at]
  rfl

/-- The exponential matrix times the negative-pair mask. -/
theorem v20_at (a0 : A0) (a1 : A1) (r c : Fin 4096) :
    val_main_v20 (F := Ideal) a0 a1 (ix2 r c)
      = Cert.Spec.rE (Cert.Args.embOf a0) r c * Cert.Spec.negm (Cert.Args.labOf a1) r c := by
  rw [val_main_v20_apply, v19_at, v18_at]
  rfl

/-- The row denominator: the zero word plus the row's sum. -/
theorem v21_at (a0 : A0) (a1 : A1) (r : Fin 4096) :
    val_main_v21 (F := Ideal) a0 a1 (ix1 r) = Cert.Spec.rDenom (Cert.Args.embOf a0) (Cert.Args.labOf a1) r := by
  have e : ∀ k : Fin 4096, idx_main_v21 (ix1 r) k = ix2 r k := fun k =>
    funext fun a => Fin.ext (by match a with | ⟨0, _⟩ => rfl | ⟨1, _⟩ => rfl)
  rw [val_main_v21_apply, val_main_cst_0_apply, Ideal.ofBits_def, Ideal.ofBits_zero_f32, zero_add]
  unfold Cert.Spec.rDenom
  refine Finset.sum_congr rfl fun k _ => ?_
  rw [e, v20_at]

/-- The denominator laid along the columns, plus the exponential. -/
theorem v24_at (a0 : A0) (a1 : A1) (r c : Fin 4096) :
    val_main_v24 (F := Ideal) a0 a1 (ix2 r c)
      = Cert.Spec.rDenom (Cert.Args.embOf a0) (Cert.Args.labOf a1) r + Cert.Spec.rE (Cert.Args.embOf a0) r c := by
  have e : idx_main_v22 (idx_main_v23 (ix2 r c)) = ix1 r :=
    funext fun a => Fin.ext (by match a with | ⟨0, _⟩ => rfl)
  rw [val_main_v24_apply, val_main_v23_apply, val_main_v22_apply, e, v21_at, v19_at]
  rfl

/-- The per-pair term times the positive-pair mask. -/
theorem v28_at (a0 : A0) (a1 : A1) (r c : Fin 4096) :
    val_main_v28 (F := Ideal) a0 a1 (ix2 r c)
      = Cert.Spec.rPair (Cert.Args.embOf a0) (Cert.Args.labOf a1) r c * Cert.Spec.posm (Cert.Args.labOf a1) r c := by
  rw [val_main_v28_apply, val_main_v27_apply, val_main_v26_apply, val_main_v25_apply, v19_at, v24_at, v16_at]
  rfl

end Cert.ReferenceIdeal.RefValue

end
-- ==== Proof.RefValue.lean ====
/-
  What the reference program computes: the specification's reference arrangement of the loss, as a function of the two
  argument arrays.

  The sum of the masked per-pair terms over the whole matrix (a sum over the rank-2 index set, read as the double sum
  over rows and columns, started from the zero word) is the loss; the sum of the positive-pair mask is the number of
  positive pairs; the result is their quotient after the count is raised to at least one (the word 0x3F800000 is the
  number 1).  The program's run then ends with the result buffer at that value and the two arguments unchanged.
-/
import proofs.«169875_j63625645523217_2_alg».proof.Proof.RefPairs
import proofs.«169875_j63625645523217_2_alg».proof.Defs
import proofs.«169875_j63625645523217_2_alg».proof.Proof.Gen.Pre_finite_inputs

noncomputable section

open Idealize.ShloMosaic Idealize.ShloMosaic.ValueIdx Idealize.ShloMosaic.TcCoe Idealize.SL.Sem
open Cert.ReferenceIdeal Cert.ReferenceIdeal.Gen Cert.ReferenceIdeal.Read

namespace Cert.ReferenceIdeal.RefValue

/-- The word 0x3F800000 denotes the number 1. -/
theorem ofBits_one_f32 : Ideal.ofBits .f32 0x3F800000#32 = (1 : EReal) := by
  simp [Ideal.ofBits, Ideal.ieee, -EReal.coe_mul]; norm_num

/-- The whole-matrix sum of the masked per-pair terms is the loss. -/
theorem v29_at (a0 : A0) (a1 : A1) (i : S_.Idx) :
    val_main_v29 (F := Ideal) a0 a1 i = Cert.Spec.rLoss (Cert.Args.embOf a0) (Cert.Args.labOf a1) := by
  rw [val_main_v29_apply, val_main_cst_1_apply, Ideal.ofBits_def, Ideal.ofBits_zero_f32, zero_add, sum_idx2]
  unfold Cert.Spec.rLoss
  refine Finset.sum_congr rfl fun r _ => Finset.sum_congr rfl fun c _ => ?_
  rw [v28_at]

/-- The whole-matrix sum of the positive-pair mask is the number of positive pairs. -/
theorem v30_at (a1 : A1) (i : S_.Idx) :
    val_main_v30 (F := Ideal) a1 i = Cert.Spec.nPos (Cert.Args.labOf a1) := by
  rw [val_main_v30_apply, val_main_cst_2_apply, Ideal.ofBits_def, Ideal.ofBits_zero_f32, zero_add, sum_idx2]
  unfold Cert.Spec.nPos
  refine Finset.sum_congr rfl fun r _ => Finset.sum_congr rfl fun c _ => ?_
  rw [v16_at]

/-- The count raised to at least one. -/
theorem v31_at (a1 : A1) (i : S_.Idx) :
    val_main_v31 (F := Ideal) a1 i = max (Cert.Spec.nPos (Cert.Args.labOf a1)) 1 := by
  rw [val_main_v31_apply, v30_at, val_main_cst_3_apply, Ideal.ofBits_def, ofBits_one_f32]
  rfl

/-- The last stage of the reference program is the specification's reference result, at its one index. -/
theorem result_eq (a0 : A0) (a1 : A1) :
    val_main_v32 (F := Ideal) a0 a1
      = fun _ => Cert.Spec.refResult (Cert.Args.embOf a0) (Cert.Args.labOf a1) := by
  funext i
  rw [val_main_v32_apply, v29_at, v31_at]
  rfl

/-- The reference program's run: the result buffer ends at the specification's reference result of the arguments'
    launch contents, and the arguments end unchanged. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v32)
          = (fun _ => Cert.Spec.refResult
              (Cert.Args.embOf (m' ((c.tc : Thread Cert.ReferenceIdeal.nD Cert.ReferenceIdeal.τ).loc Cert.ReferenceIdeal.main_arg0)))
              (Cert.Args.labOf (m' ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v32_eq (F := Ideal) _ _).trans (result_eq _ _)), (h c).2⟩)
    (Cert.ReferenceIdeal.Value.run (F := Ideal) m' ρ')

/-- The reference program runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.LibReal.lean ====
/-
  The real-number layer under the extended reals.

  An extended real is REAL when it is the image of a real number (neither infinity).  Sums, products, differences,
  maxima, quotients by a nonzero real and reciprocal square roots of positive reals of real values are real; the three
  float words the programs spell denote real numbers.  On real values the extended-real arithmetic is the arithmetic
  of the reals, so the textbook identity

      (1/N) ∑ (z r - m)² = (1/N) ∑ (z r)² - m²,      m = (1/N) ∑ z r,   N = the number of terms,

  holds for extended reals z r that are all real (it fails at the infinities, where a difference may be junk), and
  its left side is the image of a nonnegative real.
-/
import Mathlib.Data.EReal.Operations
import Mathlib.Data.EReal.Inv
import Mathlib.Analysis.SpecialFunctions.Pow.Real
import Idealize.ShloMosaic.PureOps.Ideal
import Idealize.ShloMosaic.PureOps.Ideal.Laws

noncomputable section

open scoped BigOperators

namespace Cert.Lib

open Idealize.ShloMosaic

/-- An extended real that is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real value is neither infinity. -/
theorem IsReal.ne_top {x : EReal} (h : IsReal x) : x ≠ ⊤ := by
  obtain ⟨a, rfl⟩ := h; exact EReal.coe_ne_top a

theorem IsReal.ne_bot {x : EReal} (h : IsReal x) : x ≠ ⊥ := by
  obtain ⟨a, rfl⟩ := h; exact EReal.coe_ne_bot a

/-- An extended real that is neither infinity is real. -/
theorem isReal_of_ne {x : EReal} (hb : x ≠ ⊥) (ht : x ≠ ⊤) : IsReal x := by
  induction x using EReal.rec with
  | bot => exact absurd rfl hb
  | coe a => exact ⟨a, rfl⟩
  | top => exact absurd rfl ht

/-- The sum of two real values is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real values is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real value is real. -/
theorem IsReal.neg {x : EReal} (hx : IsReal x) : IsReal (-x) := by
  obtain ⟨a, rfl⟩ := hx; exact ⟨-a, (EReal.coe_neg a).symm⟩

/-- The difference of two real values is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The maximum of two real values is real. -/
theorem IsReal.max {x y : EReal} (hx : IsReal x) (hy : IsReal y) : IsReal (max x y) := by
  rcases le_total x y with h | h
  · rw [max_eq_right h]; exact hy
  · rw [max_eq_left h]; exact hx

/-- The minimum of two real values is real. -/
theorem IsReal.min {x y : EReal} (hx : IsReal x) (hy : IsReal y) : IsReal (min x y) := by
  rcases le_total x y with h | h
  · rw [min_eq_left h]; exact hx
  · rw [min_eq_right h]; exact hy

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real values is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of real values over a whole finite type is real. -/
theorem IsReal.sum_univ {ι : Type*} [Fintype ι] (f : ι → EReal) (h : ∀ i, IsReal (f i)) :
    IsReal (∑ i, f i) := IsReal.sum _ f fun i _ => h i

/-- The quotient of the images of two reals, the divisor nonzero, is the image of the quotient. -/
theorem div_coe_coe (a : ℝ) {d : ℝ} (hd : d ≠ 0) :
    Ideal.div (a : EReal) (d : EReal) = ((a / d : ℝ) : EReal) := by
  rw [Ideal.div_coe hd, ← EReal.coe_mul, mul_one_div]

/-- The quotient of a real value by a nonzero real is real. -/
theorem IsReal.div_coe {x : EReal} (hx : IsReal x) {d : ℝ} (hd : d ≠ 0) : IsReal (Ideal.div x (d : EReal)) := by
  obtain ⟨a, rfl⟩ := hx; exact ⟨a / d, div_coe_coe a hd⟩

/-- The reciprocal square root of a positive real is the image of the reciprocal of its square root. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_pos {v : ℝ} (hv : 0 < v) : IsReal (Ideal.rsqrt (v : EReal)) :=
  ⟨_, rsqrt_coe_pos hv⟩

/-- The reciprocal square root of a nonnegative real plus a positive real is real. -/
theorem isReal_rsqrt_add_pos {v e : ℝ} (hv : 0 ≤ v) (he : 0 < e) :
    IsReal (Ideal.rsqrt ((v : EReal) + (e : EReal))) := by
  rw [← EReal.coe_add]; exact isReal_rsqrt_pos (by linarith)

/-- The word `0x47435000` denotes the real `50000`. -/
theorem ofBits_50000 : Ideal.ofBits .f32 0x47435000#32 = ((50000 : ℝ) : EReal) := by
  simp [Ideal.ofBits, Ideal.ieee, -EReal.coe_mul]; norm_num

/-- The word `0x3727C5AC` (about `1e-5`) denotes a positive real. -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The word `0x3727C5AC` denotes a real. -/
theorem isReal_ofBits_eps : IsReal (Ideal.ofBits .f32 0x3727C5AC#32) := by
  obtain ⟨e, _, h⟩ := ofBits_eps_pos; exact ⟨e, h⟩

/-- The word `0x47435000` denotes a real. -/
theorem isReal_ofBits_50000 : IsReal (Ideal.ofBits .f32 0x47435000#32) := ⟨_, ofBits_50000⟩

/-- The word `0x00000000` denotes a real (zero). -/
theorem isReal_ofBits_zero : IsReal (Ideal.ofBits .f32 0x00000000#32) := by
  rw [Ideal.ofBits_zero_f32]; exact isReal_zero

/-- Real witnesses of a family of real values. -/
theorem exists_real_family {ι : Type*} (z : ι → EReal) (hz : ∀ r, IsReal (z r)) :
    ∃ w : ι → ℝ, z = fun r => (w r : EReal) := by
  choose w hw using hz; exact ⟨w, funext hw⟩

/-- The identity among reals: the mean of the squared deviations from the mean is the mean of the squares less the
    square of the mean, when the divisor is the number of terms. -/
theorem real_var_identity {n : ℕ} (w : Fin n → ℝ) (N : ℝ) (hN : N ≠ 0) (hn : (n : ℝ) = N) :
    (∑ r, (w r - (∑ r, w r) / N) * (w r - (∑ r, w r) / N)) / N
      = (∑ r, w r * w r) / N - (∑ r, w r) / N * ((∑ r, w r) / N) := by
  have h1 : ∑ r, (w r - (∑ r, w r) / N) * (w r - (∑ r, w r) / N)
      = (∑ r, w r * w r) - 2 * ((∑ r, w r) / N) * (∑ r, w r) + N * ((∑ r, w r) / N * ((∑ r, w r) / N)) := by
    have h2 : ∀ r, (w r - (∑ r, w r) / N) * (w r - (∑ r, w r) / N)
        = w r * w r - 2 * ((∑ r, w r) / N) * w r + (∑ r, w r) / N * ((∑ r, w r) / N) := fun r => by ring
    simp only [h2]
    rw [Finset.sum_add_distrib, Finset.sum_sub_distrib, ← Finset.mul_sum, Finset.sum_const, Finset.card_univ,
      Fintype.card_fin, nsmul_eq_mul, hn]
  rw [h1]; field_simp; ring

/-- The variance identity on the extended reals, for real entries: with `mean = (∑ z) / N` and `N` the number of
    entries, `(∑ (z - mean)²) / N = (∑ z²) / N - mean²`. -/
theorem var_identity {n : ℕ} (z : Fin n → EReal) (hz : ∀ r, IsReal (z r)) (N : ℝ) (hN : N ≠ 0) (hn : (n : ℝ) = N) :
    Ideal.div (∑ r, (z r - Ideal.div (∑ r, z r) (N : EReal)) * (z r - Ideal.div (∑ r, z r) (N : EReal))) (N : EReal)
      = Ideal.div (∑ r, z r * z r) (N : EReal)
          - Ideal.div (∑ r, z r) (N : EReal) * Ideal.div (∑ r, z r) (N : EReal) := by
  obtain ⟨w, rfl⟩ := exists_real_family z hz
  simp only [← coe_finset_sum, div_coe_coe _ hN, ← EReal.coe_sub, ← EReal.coe_mul]
  rw [real_var_identity w N hN hn]

/-- The same identity with every sum spelled from a zero start, `0 + ∑`. -/
theorem var_identity_zero_add {n : ℕ} (z : Fin n → EReal) (hz : ∀ r, IsReal (z r)) (N : ℝ) (hN : N ≠ 0)
    (hn : (n : ℝ) = N) :
    Ideal.div (0 + ∑ r, (z r - Ideal.div (0 + ∑ r, z r) (N : EReal)) * (z r - Ideal.div (0 + ∑ r, z r) (N : EReal)))
        (N : EReal)
      = Ideal.div (0 + ∑ r, z r * z r) (N : EReal)
          - Ideal.div (0 + ∑ r, z r) (N : EReal) * Ideal.div (0 + ∑ r, z r) (N : EReal) := by
  simp only [zero_add]; exact var_identity z hz N hN hn

/-- The mean of the squared deviations of real entries is the image of a nonnegative real. -/
theorem var_nonneg {n : ℕ} (z : Fin n → EReal) (hz : ∀ r, IsReal (z r)) (N : ℝ) (hN : N ≠ 0) (hn : (n : ℝ) = N) :
    ∃ v : ℝ, 0 ≤ v ∧
      Ideal.div (∑ r, (z r - Ideal.div (∑ r, z r) (N : EReal)) * (z r - Ideal.div (∑ r, z r) (N : EReal))) (N : EReal)
        = (v : EReal) := by
  obtain ⟨w, rfl⟩ := exists_real_family z hz
  have hNpos : 0 < N := lt_of_le_of_ne (hn ▸ Nat.cast_nonneg n) (Ne.symm hN)
  simp only [← coe_finset_sum, div_coe_coe _ hN, ← EReal.coe_sub, ← EReal.coe_mul]
  exact ⟨_, div_nonneg (Finset.sum_nonneg fun r _ => mul_self_nonneg _) hNpos.le, rfl⟩

/-- The mean of the squares less the square of the mean, of real entries, is the image of a nonnegative real. -/
theorem var_nonneg' {n : ℕ} (z : Fin n → EReal) (hz : ∀ r, IsReal (z r)) (N : ℝ) (hN : N ≠ 0) (hn : (n : ℝ) = N) :
    ∃ v : ℝ, 0 ≤ v ∧
      Ideal.div (∑ r, z r * z r) (N : EReal)
          - Ideal.div (∑ r, z r) (N : EReal) * Ideal.div (∑ r, z r) (N : EReal) = (v : EReal) := by
  rw [← var_identity z hz N hN hn]; exact var_nonneg z hz N hN hn

/-- The reciprocal square root of a nonnegative real plus the stabiliser word `0x3727C5AC` is real. -/
theorem isReal_rsqrt_add_eps {x : EReal} (hx : ∃ v : ℝ, 0 ≤ v ∧ x = (v : EReal)) :
    IsReal (Ideal.rsqrt (x + Ideal.ofBits .f32 0x3727C5AC#32)) := by
  obtain ⟨v, hv, rfl⟩ := hx
  obtain ⟨e, he, h⟩ := ofBits_eps_pos
  rw [h]; exact isReal_rsqrt_add_pos hv he

end Cert.Lib

end
-- ==== Proof.LibBlockSum.lean ====
/-
  Regrouping a sum over `N * B` consecutive rows into `N` blocks of `B` rows, and a running sum as a finite sum.
  Both hold in any additive commutative monoid: they move and bracket terms and never cancel or distribute, so on the
  extended reals they need no finiteness.
-/
import Mathlib.Algebra.BigOperators.Fin
import Mathlib.Logic.Equiv.Fin.Basic

open scoped BigOperators

namespace Cert.Lib

/-- Row `k` of block `t`, counted from the start, is a row of the whole. -/
theorem blk_lt {N B : Nat} (t : Fin N) (k : Fin B) : t.val * B + k.val < N * B :=
  calc t.val * B + k.val < t.val * B + B := Nat.add_lt_add_left k.isLt _
    _ = (t.val + 1) * B := (Nat.succ_mul _ _).symm
    _ ≤ N * B := Nat.mul_le_mul_right _ t.isLt

/-- A sum over `n = N * B` rows is the sum over the `N` blocks of each block's sum over its `B` rows, row `k` of
    block `t` being row `t * B + k` of the whole. -/
theorem sum_blocks {M : Type*} [AddCommMonoid M] {n : Nat} (N B : Nat) (h : n = N * B) (f : Fin n → M) :
    ∑ r : Fin n, f r = ∑ t : Fin N, ∑ k : Fin B, f ⟨t.val * B + k.val, lt_of_lt_of_eq (blk_lt t k) h.symm⟩ := by
  subst h
  rw [← Fintype.sum_prod_type (f := fun p : Fin N × Fin B => f ⟨p.1.val * B + p.2.val, blk_lt p.1 p.2⟩)]
  refine (Fintype.sum_equiv finProdFinEquiv _ _ fun p => congrArg f (Fin.ext ?_)).symm
  show p.1.val * B + p.2.val = p.2.val + B * p.1.val
  rw [Nat.mul_comm, Nat.add_comm]

/-- The running sum that starts from `0 + s 0` and adds `s (n + 1)` at step `n + 1`. -/
def chain {M : Type*} [AddCommMonoid M] (s : ℕ → M) : ℕ → M
  | 0 => 0 + s 0
  | n + 1 => chain s n + s (n + 1)

/-- After step `n` the running sum is the sum of the first `n + 1` terms. -/
theorem chain_eq_sum {M : Type*} [AddCommMonoid M] (s : ℕ → M) (n : ℕ) :
    chain s n = ∑ t ∈ Finset.range (n + 1), s t := by
  induction n with
  | zero => simp [chain]
  | succ n ih => rw [chain, ih, Finset.sum_range_succ (n := n + 1)]

/-- The same, with the terms indexed by the `N = n + 1` blocks. -/
theorem chain_eq_sum_fin {M : Type*} [AddCommMonoid M] (s : ℕ → M) (N : ℕ) (hN : 0 < N) :
    chain s (N - 1) = ∑ t : Fin N, s t.val := by
  rw [chain_eq_sum, Nat.sub_add_cancel hN, Finset.sum_range]

end Cert.Lib
-- ==== Proof.SpecLawA.lean ====
/-
  Scalar facts about the loss specification, for an embedding matrix whose entries are all real.

  The temperature literal denotes the real 13421773 / 2^27, so dividing by it is multiplying by 2^27 / 13421773: the
  two arrangements' exponentials agree, and each is the image of a positive real.  The masks are the images of 0 or 1.
-/
import proofs.«169875_j63625645523217_2_alg».proof.Proof.Spec
import proofs.«169875_j63625645523217_2_alg».proof.Proof.LibReal

noncomputable section

open scoped BigOperators

open Idealize.ShloMosaic Cert.Lib

namespace Cert.Spec

/-- The temperature literal denotes the real 13421773 / 2^27. -/
theorem tempD_eq : tempD = ((13421773 / 134217728 : ℝ) : EReal) := by
  unfold tempD
  simp [Ideal.ofBits, Ideal.ieee, -EReal.coe_mul]; norm_num

variable (emb : Fin 4096 → Fin 512 → EReal) (lab : Fin 4096 → BitVec 32)

/-- An entry of the Gram matrix of a real matrix is real. -/
theorem dotp_real (hfin : ∀ r k, ∃ x : ℝ, emb r k = (x : EReal)) (r c : Fin 4096) :
    ∃ g : ℝ, dotp emb r c = (g : EReal) := by
  unfold dotp
  exact IsReal.sum_univ _ fun k => IsReal.mul (hfin r k) (hfin c k)

/-- Dividing a real by the temperature is multiplying it by the reciprocal: the two exponentials agree. -/
theorem rE_eq_kE (hfin : ∀ r k, ∃ x : ℝ, emb r k = (x : EReal)) (r c : Fin 4096) :
    rE emb r c = kE emb r c := by
  obtain ⟨g, hg⟩ := dotp_real emb hfin r c
  unfold rE kE invT
  rw [hg, tempD_eq, div_coe_coe g (by norm_num), ← EReal.coe_mul]
  congr 2
  rw [div_eq_mul_inv]; congr 1; norm_num

/-- The exponential is the image of a positive real. -/
theorem kE_pos (hfin : ∀ r k, ∃ x : ℝ, emb r k = (x : EReal)) (r c : Fin 4096) :
    ∃ e : ℝ, 0 < e ∧ kE emb r c = (e : EReal) := by
  obtain ⟨g, hg⟩ := dotp_real emb hfin r c
  unfold kE invT
  rw [hg, ← EReal.coe_mul, Ideal.exp_coe]
  exact ⟨_, Real.exp_pos _, rfl⟩

/-- The negative-pair mask is the image of a nonnegative real. -/
theorem negm_nonneg (r c : Fin 4096) : ∃ m : ℝ, 0 ≤ m ∧ negm lab r c = (m : EReal) := by
  unfold negm
  split
  · exact ⟨0, le_refl _, rfl⟩
  · exact ⟨1, zero_le_one, rfl⟩

/-- Row `r`'s masked exponentials are the images of nonnegative reals. -/
theorem kE_mul_negm_nonneg (hfin : ∀ r k, ∃ x : ℝ, emb r k = (x : EReal)) (r c : Fin 4096) :
    ∃ t : ℝ, 0 ≤ t ∧ kE emb r c * negm lab r c = (t : EReal) := by
  obtain ⟨e, he, h1⟩ := kE_pos emb hfin r c
  obtain ⟨m, hm, h2⟩ := negm_nonneg lab r c
  rw [h1, h2, ← EReal.coe_mul]
  exact ⟨_, mul_nonneg he.le hm, rfl⟩

/-- A finite sum of images of nonnegative reals is the image of a nonnegative real. -/
theorem sum_nonneg_real {ι : Type*} [Fintype ι] (f : ι → EReal) (h : ∀ i, ∃ t : ℝ, 0 ≤ t ∧ f i = (t : EReal)) :
    ∃ d : ℝ, 0 ≤ d ∧ ∑ i, f i = (d : EReal) := by
  choose w hw0 hw using h
  refine ⟨∑ i, w i, Finset.sum_nonneg fun i _ => hw0 i, ?_⟩
  rw [coe_finset_sum]
  exact Finset.sum_congr rfl fun i _ => hw i

/-- The pair term, on the reals: for a positive `e` and a nonnegative `d`,
    `-log (e / (d + e)) = log (d + e) - log e`. -/
theorem real_pair (e d : ℝ) (he : 0 < e) (hd : 0 ≤ d) :
    -Real.log (e / (d + e)) = Real.log (d + e) - Real.log e := by
  rw [Real.log_div he.ne' (by linarith : d + e ≠ 0)]; ring

/-- The pair term on the images of reals: both spellings are the image of `log (d + e) - log e`. -/
theorem pair_coe (e d : ℝ) (he : 0 < e) (hd : 0 ≤ d) :
    -Ideal.log (Ideal.div (e : EReal) ((d : EReal) + (e : EReal)))
      = Ideal.log ((d : EReal) + (e : EReal)) - Ideal.log (e : EReal) := by
  have hde : 0 < d + e := by linarith
  have hq : 0 < e / (d + e) := div_pos he hde
  rw [← EReal.coe_add, div_coe_coe e hde.ne', Ideal.log_coe, Ideal.log_coe, Ideal.log_coe,
    if_neg (not_le.mpr hq), if_neg (not_le.mpr hde), if_neg (not_le.mpr he), ← EReal.coe_neg, ← EReal.coe_sub,
    real_pair e d he hd]

end Cert.Spec

end
-- ==== Proof.SpecLaw.lean ====
/-
  The kernel's arrangement of the loss equals the reference's, for an embedding matrix whose entries are all real.

  Adding the four 1024-column tile sums onto zero is the sum over all 4096 columns (a regrouping, valid in any additive
  commutative monoid).  With that, the row denominators agree and are images of nonnegative reals, the pair terms
  agree (`-log (e / (d + e)) = log (d + e) - log e` for a positive real `e` and a nonnegative real `d`), and the
  loss and the positive-pair count are the same sums in both arrangements.
-/
import proofs.«169875_j63625645523217_2_alg».proof.Proof.Spec
import proofs.«169875_j63625645523217_2_alg».proof.Proof.LibReal
import proofs.«169875_j63625645523217_2_alg».proof.Proof.LibBlockSum
import proofs.«169875_j63625645523217_2_alg».proof.Proof.SpecLawA

noncomputable section

open scoped BigOperators

open Idealize.ShloMosaic Cert.Lib

namespace Cert.Spec

/-- The four tiles' sums of a function of the column, added onto zero in order, are its sum over all columns. -/
theorem tiles_eq_sum {M : Type*} [AddCommMonoid M] (f : Fin 4096 → M) :
    (((0 + ∑ q : Fin 1024, f (col 0 q)) + ∑ q : Fin 1024, f (col 1 q)) + ∑ q : Fin 1024, f (col 2 q))
        + ∑ q : Fin 1024, f (col 3 q) = ∑ c : Fin 4096, f c := by
  rw [sum_blocks 4 1024 (by norm_num) f, Fin.sum_univ_four, zero_add]
  have h : ∀ (j : Fin 4) (q : Fin 1024),
      (⟨j.val * 1024 + q.val, lt_of_lt_of_eq (blk_lt j q) (by norm_num : 4096 = 4 * 1024).symm⟩ : Fin 4096)
        = col j q := fun j q => Fin.ext (by show j.val * 1024 + q.val = 1024 * j.val + q.val; rw [Nat.mul_comm])
  simp only [h]

variable (emb : Fin 4096 → Fin 512 → EReal) (lab : Fin 4096 → BitVec 32)

/-- The kernel's row denominator is the sum of the masked exponentials over all columns. -/
theorem kDenom_eq_sum (r : Fin 4096) : kDenom emb lab r = ∑ c : Fin 4096, kE emb r c * negm lab r c := by
  unfold kDenom kTileDen
  exact tiles_eq_sum fun c => kE emb r c * negm lab r c

/-- The two row denominators agree. -/
theorem kDenom_eq_rDenom (hfin : ∀ r k, ∃ x : ℝ, emb r k = (x : EReal)) (r : Fin 4096) :
    kDenom emb lab r = rDenom emb lab r := by
  rw [kDenom_eq_sum]; unfold rDenom
  exact Finset.sum_congr rfl fun c _ => by rw [rE_eq_kE emb hfin r c]

/-- The row denominator is the image of a nonnegative real. -/
theorem kDenom_nonneg (hfin : ∀ r k, ∃ x : ℝ, emb r k = (x : EReal)) (r : Fin 4096) :
    ∃ d : ℝ, 0 ≤ d ∧ kDenom emb lab r = (d : EReal) := by
  rw [kDenom_eq_sum]
  exact sum_nonneg_real _ fun c => kE_mul_negm_nonneg emb lab hfin r c

/-- The two pair terms agree. -/
theorem kPair_eq_rPair (hfin : ∀ r k, ∃ x : ℝ, emb r k = (x : EReal)) (r c : Fin 4096) :
    kPair emb lab r c = rPair emb lab r c := by
  unfold kPair rPair
  rw [← kDenom_eq_rDenom emb lab hfin r, rE_eq_kE emb hfin r c]
  obtain ⟨d, hd, h1⟩ := kDenom_nonneg emb lab hfin r
  obtain ⟨e, he, h2⟩ := kE_pos emb hfin r c
  rw [h1, h2]
  exact (pair_coe e d he hd).symm

/-- The kernel's row loss is the sum of the masked pair terms over all columns. -/
theorem kRowLoss_eq_sum (r : Fin 4096) :
    kRowLoss emb lab r = ∑ c : Fin 4096, kPair emb lab r c * posm lab r c := by
  unfold kRowLoss kTileLoss
  exact tiles_eq_sum fun c => kPair emb lab r c * posm lab r c

/-- The kernel's row count is the sum of the positive-pair mask over all columns. -/
theorem kRowPos_eq_sum (r : Fin 4096) : kRowPos lab r = ∑ c : Fin 4096, posm lab r c := by
  unfold kRowPos kTilePos
  exact tiles_eq_sum fun c => posm lab r c

/-- The kernel's loss is the reference's. -/
theorem kLoss_eq_rLoss (hfin : ∀ r k, ∃ x : ℝ, emb r k = (x : EReal)) :
    0 + ∑ r : Fin 4096, kRowLoss emb lab r = rLoss emb lab := by
  rw [zero_add]; unfold rLoss
  refine Finset.sum_congr rfl fun r _ => ?_
  rw [kRowLoss_eq_sum]
  exact Finset.sum_congr rfl fun c _ => by rw [kPair_eq_rPair emb lab hfin r c]

/-- The kernel's count of positive pairs is the reference's. -/
theorem kPos_eq_nPos : 0 + ∑ r : Fin 4096, kRowPos lab r = nPos lab := by
  rw [zero_add]; unfold nPos
  exact Finset.sum_congr rfl fun r _ => kRowPos_eq_sum lab r

/-- The kernel's arrangement of the loss equals the reference's when every entry of the embedding matrix is real. -/
theorem kerResult_eq_refResult (emb : Fin 4096 → Fin 512 → EReal) (lab : Fin 4096 → BitVec 32)
    (hfin : ∀ r k, ∃ x : ℝ, emb r k = (x : EReal)) : kerResult emb lab = refResult emb lab := by
  unfold kerResult refResult
  rw [kLoss_eq_rLoss emb lab hfin, kPos_eq_nPos lab]

end Cert.Spec

end
-- ==== Proof.Finite.lean ====
/-
  Finite inputs: when the stated precondition holds, every entry of the embedding matrix is a real number.

  The precondition is the conjunction, over all entries x of the matrix, of |x| < +inf, where |x| is max x (-x) and the
  bound is the word 0x7F800000, which denotes +inf.  A conjunction of one-bit words that came out 1 met only 1s, so each
  entry satisfies the strict inequality; of the three kinds of extended real, only the image of a real number does.
-/
import proofs.«169875_j63625645523217_2_alg».proof.Pre_finite_inputs
import proofs.«169875_j63625645523217_2_alg».proof.Proof.Args
import Idealize.ShloMosaic.Lib.ReduceAll
import Idealize.ShloMosaic.Lib.Pipeline.Value
import Idealize.ShloMosaic.PureOps.Ideal
import Idealize.ShloMosaic.PureOps.Ideal.Laws

noncomputable section

open Idealize.ShloMosaic Idealize.ShloMosaic.ValueIdx

namespace Cert.Finite

/-- The scalar shape has one index. -/
instance : Subsingleton Cert.Pre_finite_inputs.S_.Idx := ⟨fun a b => funext fun d => d.elim0⟩

/-- The word 0x7F800000 denotes +inf. -/
theorem ofBits_inf : Ideal.ofBits .f32 0x7F800000#32 = (⊤ : EReal) := by
  simp [Ideal.ofBits, Ideal.ieee]

/-- An extended real whose absolute value is below +inf is the image of a real number. -/
theorem real_of_abs_lt_top (x : EReal) (h : max x (-x) < ⊤) : ∃ r : ℝ, x = (r : EReal) := by
  induction x using EReal.rec with
  | bot => simp at h
  | coe a => exact ⟨a, rfl⟩
  | top => simp at h

/-- A strict comparison of extended reals that came out 1 holds. -/
theorem lt_of_cmp_olt (x y : EReal) (h : Ideal.cmp .olt x y = 1#1) : x < y := by
  unfold Ideal.cmp at h
  by_contra hn
  simp [hn] at h

/-- Under the precondition every entry of the embedding matrix is the image of a real number. -/
theorem emb_real [Cert.Pre_finite_inputs.Facts]
    (a0 : FVec Ideal Cert.Pre_finite_inputs.S4096x512 .f32) (a1 : IVec Cert.Pre_finite_inputs.S4096 32)
    (h : Cert.Pre_finite_inputs.fn (F := Ideal) a0 a1 = (fun _ => 1#1)) :
    ∀ r k, ∃ x : ℝ, Cert.Args.embOf a0 r k = (x : EReal) := by
  intro r k
  have h0 := congrFun h ValueIdx.ix0
  dsimp only [Cert.Pre_finite_inputs.fn] at h0
  have h1 := Host.reduce_andi_all _ _ _ _ _ h0 (ix2 r k)
  have e : broadcastInDim Cert.Pre_finite_inputs.S4096x512 ![] Cert.Pre_finite_inputs.Facts.bcast_S_S4096x512
      (constant (F := Ideal) Cert.Pre_finite_inputs.S_ .f32 0x7F800000#32) (ix2 r k)
        = Ideal.ofBits .f32 0x7F800000#32 :=
    (broadcastInDim_apply _ _ _ (ix2 r k) ix0 (fun a => a.elim0)).trans rfl
  rw [cmpf_apply, e, ofBits_inf] at h1
  exact real_of_abs_lt_top _ (lt_of_cmp_olt _ _ h1)

end Cert.Finite

end
-- ==== Proof.lean ====
/-
  The contrastive loss of 4096 unit-scaled embeddings with 64 labels, computed two ways: the reference forms the whole
  4096 × 4096 matrix exp(⟨x_r, x_c⟩ / T), its rows' sums over the negative pairs, and −log(e / (denominator + e)) summed over
  the positive pairs; the kernel walks the matrix by row blocks of 512 and column tiles of 1024, twice per row block — once
  to store the exponentials and accumulate the denominators, once to read them back and accumulate log(denominator + e) − log e
  over the positive pairs and the count of positive pairs — and divides the two totals on the host.

  At the exact instance the two are one function of the finite inputs: the kernel's scale, named as the reciprocal of the
  reference's temperature literal, multiplies where the reference divides; the four column tiles' partial sums added onto zero
  are the row's full sum; and for a positive real e and a nonnegative real d, −log(e / (d + e)) = log(d + e) − log e. The frames
  of both kernel programs come from one run of the pipeline — the array two of its input windows share split between them —
  read at the word-level and at the exact instance.
-/
import proofs.«169875_j63625645523217_2_alg».proof.Defs
import proofs.«169875_j63625645523217_2_alg».proof.Proof.Gen.Kernel
import proofs.«169875_j63625645523217_2_alg».proof.Proof.Gen.KernelIdeal
import proofs.«169875_j63625645523217_2_alg».proof.Proof.Gen.ReferenceIdeal
import proofs.«169875_j63625645523217_2_alg».proof.Proof.Gen.Pre_finite_inputs
import proofs.«169875_j63625645523217_2_alg».proof.Proof.Gen.ReferenceIdeal.Run
import proofs.«169875_j63625645523217_2_alg».proof.Proof.Gen.ReferenceIdeal.Read
import proofs.«169875_j63625645523217_2_alg».proof.Proof.K.Frame
import proofs.«169875_j63625645523217_2_alg».proof.Proof.K.Body
import proofs.«169875_j63625645523217_2_alg».proof.Proof.KI.Value
import proofs.«169875_j63625645523217_2_alg».proof.Proof.KI.Preserves
import proofs.«169875_j63625645523217_2_alg».proof.Proof.RefValue
import proofs.«169875_j63625645523217_2_alg».proof.Proof.SpecLaw
import proofs.«169875_j63625645523217_2_alg».proof.Proof.Finite

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ (Cert.Kernel.Hand.body_obligation m)

/-- The same program read at the exact instance. -/
theorem frame_ki : Cert.frame_KernelIdeal := fun m ρ _ => Cert.KernelIdeal.Hand.frame m ρ (Cert.KernelIdeal.Hand.body_obligation m)

/-- Both idealized programs end at the same extended real: the kernel's arrangement of the loss is the reference's, the
    inputs being finite. -/
theorem algebraic : Cert.algebraic_KernelIdeal_ReferenceIdeal := by
  intro m ρ m' ρ' hpre hagree
  refine ⟨fun c => fun _ => Cert.Spec.kerResult (Cert.Args.embOf (m ((c.tc : Thread Cert.KernelIdeal.nD Cert.KernelIdeal.τ).loc Cert.KernelIdeal.main_arg0)))
      (Cert.Args.labOf (m ((c.tc : Thread Cert.KernelIdeal.nD Cert.KernelIdeal.τ).loc Cert.KernelIdeal.main_arg1))),
    Cert.KernelIdeal.Hand.result_run m ρ, ?_⟩
  refine (θ_run Cert.ReferenceIdeal.defs _ _).mono (fun r h c => ⟨(h c).1.trans ?_, (h c).2.1, (h c).2.2⟩)
    (Cert.ReferenceIdeal.RefValue.run_spec m' ρ')
  rw [(hagree c).1, (hagree c).2]
  funext _
  exact (Cert.Spec.kerResult_eq_refResult _ _ (Cert.Finite.emb_real _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, Cert.KernelIdeal.PayIdeal.preserves, algebraic⟩

end Cert.Proof

end
